-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S256x256 .f32) (main_arg2 : FVec F S256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x2048x256 : Shape := ⟨3, ![1, 2048, 256]⟩
abbrev S1x256x256 : Shape := ⟨3, ![1, 256, 256]⟩
abbrev S2048x256 : Shape := ⟨2, ![2048, 256]⟩
abbrev S1x2048 : Shape := ⟨2, ![1, 2048]⟩
abbrev S2048 : Shape := ⟨1, ![2048]⟩
abbrev S2048x1 : Shape := ⟨2, ![2048, 1]⟩
abbrev S256x1 : Shape := ⟨2, ![256, 1]⟩
abbrev S256x2048 : Shape := ⟨2, ![256, 2048]⟩
abbrev S16384x256 : Shape := ⟨2, ![16384, 256]⟩
abbrev S1x256 : Shape := ⟨2, ![1, 256]⟩
abbrev S_ : Shape := ⟨0, ![]⟩
abbrev S1x512x256 : Shape := ⟨3, ![1, 512, 256]⟩
abbrev S512x256 : Shape := ⟨2, ![512, 256]⟩

abbrev nBuf : Space → Nat
  | .hbm => 26
  | .vmem => 24
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S8x2048x256, .f32⟩
  | .hbm, ⟨5, _⟩ => ⟨S16384x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256x256, .f32⟩
  | .local _ .vmem, ⟨4, _⟩ => ⟨S1x256x256, .f32⟩
  | .local _ .vmem, ⟨5, _⟩ => ⟨S2048x256, .bf16⟩
  | .local _ .vmem, ⟨6, _⟩ => ⟨S2048x256, .bf16⟩
  | .local _ .vmem, ⟨7, _⟩ => ⟨S1x2048, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x512x256, .f32⟩
  | .local _ .vmem, ⟨23, _⟩ => ⟨S1x512x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S256x256_S256x256_0_0 : ∀ a, (![0, 0] : Fin 2 → Nat) a + S256x256.size a ≤ S256x256.size a
  h_S256x256 : 0 < S256x256.numel
  reduces_S2048x256_S2048 : S2048x256.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1x256x256 : 0 < S1x256x256.numel
  shapeCasts_S1x256x256_S256x256 : S1x256x256.ShapeCasts S256x256
  reduces_S256x256_S256 : S256x256.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  inb_S1x256x256_S1x256x256_0_0_0 : ∀ a, (![0, 0, 0] : Fin 3 → Nat) a + S1x256x256.size a ≤ S1x256x256.size a
  shapeCasts_S256x256_S1x256x256 : S256x256.ShapeCasts S1x256x256
  shapeCasts_S8x2048x256_S16384x256 : S8x2048x256.ShapeCasts S16384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x256_S256 : S2048x256.Reduces [0] S256
  shapeCasts_S256_S1x256 : S256.ShapeCasts S1x256
  bcast_S_S1x256 : S_.BroadcastsInDim S1x256 (![] : Fin 0 → Fin S1x256.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1x256_S512x256 : S1x256.Broadcasts S512x256
  shapeCasts_S512x256_S1x512x256 : S512x256.ShapeCasts S1x512x256
  dot_S2048x256_S256x256_S2048x256_1_1_0_0_n_n_wf : DotDims.WF S2048x256 S256x256 S2048x256 [1] [1] [0] [0] [] []
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x2048x256.size a
  hwx0_2 : ∀ i : grid0.Coords, EltTy.bits .f32 = 32 ∨ (Rect.block (s := S8x2048x256) S1x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x256.size a ≤ S8x2048x256.size a
  hwx2_0 : ∀ i : grid2.Coords, EltTy.bits .f32 = 32 ∨ (Rect.block (s := S8x2048x256) S1x512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x256.size a ≤ S8x2048x256.size a
  hwx2_1 : ∀ i : grid2.Coords, EltTy.bits .f32 = 32 ∨ (Rect.block (s := S8x2048x256) S1x512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x256.size a ≤ S8x2048x256.size a
  hwx2_6 : ∀ i : grid2.Coords, EltTy.bits .f32 = 32 ∨ (Rect.block (s := S8x2048x256) S1x512x256.size (cc2_transform_6 i) (hinb2_6 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x512x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x2048x2048 : Shape := ⟨3, ![8, 2048, 2048]⟩
abbrev S16384x256 : Shape := ⟨2, ![16384, 256]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S8x2048x256, .f32⟩
  | .hbm, ⟨5, _⟩ => ⟨S8x2048x256, .f32⟩
  | .hbm, ⟨6, _⟩ => ⟨S_, .f32⟩
  | .hbm, ⟨7, _⟩ => ⟨S8x2048, .f32⟩
  | .hbm, ⟨8, _⟩ => ⟨S8x1x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x256, .f32⟩
  | .hbm, ⟨41, _⟩ => ⟨S16384x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S_, .i32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S16384x256, .f32⟩
  | .hbm, ⟨72, _⟩ => ⟨S16384x256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S16384x256, .f32⟩
  | .hbm, ⟨79, _⟩ => ⟨S16384x256, .f32⟩
  | .hbm, ⟨80, _⟩ => ⟨S1x256, .f32⟩
  | .hbm, ⟨81, _⟩ => ⟨S16384x256, .f32⟩
  | .hbm, ⟨82, _⟩ => ⟨S16384x256, .f32⟩
  | .hbm, ⟨83, _⟩ => ⟨S1x256, .f32⟩
  | .hbm, ⟨84, _⟩ => ⟨S16384x256, .f32⟩
  | .hbm, ⟨85, _⟩ => ⟨S16384x256, .f32⟩
  | .hbm, ⟨86, _⟩ => ⟨S8x2048x256, .f32⟩
  | .hbm, ⟨87, _⟩ => ⟨S_, .f32⟩
  | .hbm, ⟨88, _⟩ => ⟨S8x2048x256, .f32⟩
  | .hbm, ⟨89, _⟩ => ⟨S8x2048x256, .i1⟩
  | .hbm, ⟨90, _⟩ => ⟨S_, .f32⟩
  | .hbm, ⟨91, _⟩ => ⟨S8x2048x256, .f32⟩
  | .hbm, ⟨92, _⟩ => ⟨S8x2048x256, .f32⟩
  | .hbm, ⟨93, _⟩ => ⟨S8x2048x256, .f32⟩
  | .hbm, ⟨94, _⟩ => ⟨S_, .f32⟩
  | .hbm, ⟨95, _⟩ => ⟨S8x2048x256, .f32⟩
  | .hbm, ⟨96, _⟩ => ⟨S8x2048x256, .f32⟩
  | .hbm, ⟨97, _⟩ => ⟨S_, .f32⟩
  | .hbm, ⟨98, _⟩ => ⟨S8x2048x256, .f32⟩
  | .hbm, ⟨99, _⟩ => ⟨S8x2048x256, .f32⟩
  | .hbm, ⟨100, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_cst_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_cst_1 : Ref sig .tc := ⟨.hbm, 58, rfl⟩
abbrev main_call2_v8 : Ref sig .tc := ⟨.hbm, 59, rfl⟩
abbrev main_call2_cst_2 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_cst_3 : Ref sig .tc := ⟨.hbm, 64, rfl⟩
abbrev main_call2_v12 : Ref sig .tc := ⟨.hbm, 65, rfl⟩
abbrev main_call2_cst_4 : Ref sig .tc := ⟨.hbm, 66, rfl⟩
abbrev main_call2_call0_v0 : Ref sig .tc := ⟨.hbm, 67, rfl⟩
abbrev main_call2_call0_v1 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_8 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_cst_10 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_11 : Ref sig .tc := ⟨.hbm, 94, rfl⟩
abbrev main_v52 : Ref sig .tc := ⟨.hbm, 95, rfl⟩
abbrev main_v53 : Ref sig .tc := ⟨.hbm, 96, rfl⟩
abbrev main_cst_12 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]

class Facts₀ : Prop where
  reducesTo_S8x2048x256_S8x2048_d2 : S8x2048x256.ReducesTo [2] S8x2048
  h_S_ : 0 < S_.numel
  bcast_S8x2048_S8x1x2048_0_2 : S8x2048.BroadcastsInDim S8x1x2048 (![0, 2] : Fin 2 → Fin S8x1x2048.rank)
  bcast_S8x2048_S8x2048x1_0_1 : S8x2048.BroadcastsInDim S8x2048x1 (![0, 1] : Fin 2 → Fin S8x2048x1.rank)
  bcast_S8x1x2048_S8x2048x2048_0_1_2 : S8x1x2048.BroadcastsInDim S8x2048x2048 (![0, 1, 2] : Fin 3 → Fin S8x2048x2048.rank)
  bcast_S8x2048x1_S8x2048x2048_0_1_2 : S8x2048x1.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048x1 : S_.BroadcastsInDim S8x2048x1 (![] : Fin 0 → Fin S8x2048x1.rank)
  shapeCasts_S8x2048x256_S16384x256 : S8x2048x256.ShapeCasts S16384x256
  reducesTo_S16384x256_S256_d0 : S16384x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  shapeCasts_S16384x256_S8x2048x256 : S16384x256.ShapeCasts S8x2048x256
  bcast_S_S8x2048x256 : S_.BroadcastsInDim S8x2048x256 (![] : Fin 0 → Fin S8x2048x256.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KBody0Runs.lean ====
/-
  The first region (the similarity graph and its aggregation), what its two control cases share.
  A grid point is (batch b, row tile i). At i = 0 the body fills three scratch buffers from the batch's whole
  block of node features — the features themselves, their linear image, their squared norms as a row —
  and every point of the batch then reads them; the output tile is a function of the feature block, the
  linear map and those three buffers.
-/
import proofs.«111871_j84447646974566_1_alg».proof.Proof.Gen.Kernel.Launch
import proofs.«111871_j84447646974566_1_alg».proof.Proof.Gen.Kernel.Skeleton
import proofs.«111871_j84447646974566_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the batch's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The linear map's staging buffer holds the whole map at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: the row tile is the batch's first. -/
abbrev cond0_0 (i : grid0.Coords) : Prop := (Scalar.cmpi .ne (Scalar.extui (Scalar.cmpi .eq (BitVec.ofNat 32 (i 1).val) 0#32)) 0#32) = 1#1
/-- It holds at the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of the output window, through which its contents are stated. -/
abbrev VO0_2 : View sig .tc .vmem S1x256x256 .f32 := (Memref.whole cc0_stg2_0 : Memref sig .tc .vmem S1x256x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The three scratch buffers: the linear image, the features, the squared norms. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S1x2048 .f32 := Memref.whole cc0_scratch2
abbrev VS0_0 : View sig .tc .vmem S2048x256 .bf16 := scM0_0.view
abbrev VS0_1 : View sig .tc .vmem S2048x256 .bf16 := scM0_1.view
abbrev VS0_2 : View sig .tc .vmem S1x2048 .f32 := scM0_2.view

/-- The core's scoped buffers this region never touches (the other regions' staging and scratch), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The region's entry invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 (F := F) c) ∗ (∃ r, prngReg c r)) := by
  unfold Pipeline.ΦA Rest0; rw [scopedRest0_eq]; simp only [scM0_0, scM0_1, scM0_2, owns_whole]; try rfl

end Cert.Kernel.Hand

end
-- ==== Proof.KBody0RunA.lean ====
/-
  The first region's body at a batch's first row tile: the three scratch buffers are filled from the
  feature block and the linear map, then the output tile is computed from them.
-/
import proofs.«111871_j84447646974566_1_alg».proof.Proof.KBody0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in each scratch buffer when the branch is taken,
    with the body's triple on whole memrefs: the two inputs at their contents, everything else at anything. -/
noncomputable def kernelRun0_A (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i)
    (x0 : Vec F S1x2048x256 .f32) (x1 : Vec F S256x256 .f32) :
    Σ' (L2 : List (View.Piece (Elt F) S1x256x256 .f32)) (LS0 : List (View.Piece (Elt F) S2048x256 .bf16)) (LS1 : List (View.Piece (Elt F) S2048x256 .bf16)), { LS2 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__sim_agg_kernel i arg2 harg2 arg3 harg3 arg4 harg4 arg5 harg5 arg6 harg6 arg7 harg7) K } := by
  refine ⟨?_, ?_, ?_, ?_, fun E K => ?run⟩
  case run =>
    simp only [cc0__sim_agg_kernel_eq_skeleton]; unfold cc0__sim_agg_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.KBody0RunB.lean ====
/-
  The first region's body at a later row tile of a batch: the three scratch buffers are read as the batch's
  first tile left them and handed back untouched; only the output tile is stored.
-/
import proofs.«111871_j84447646974566_1_alg».proof.Proof.KBody0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer when the branch is not taken, with the body's triple:
    the two inputs and the three scratch buffers at their contents, in and out. -/
noncomputable def kernelRun0_B (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i)
    (x0 : Vec F S1x2048x256 .f32) (x1 : Vec F S256x256 .f32) (xs0 : Vec F S2048x256 .bf16) (xs1 : Vec F S2048x256 .bf16) (xs2 : Vec F S1x2048 .f32) :
    { L2 : List (View.Piece (Elt F) S1x256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ owns (c : Thread nD τ) arg6 fullShare xs1 ∗ owns (c : Thread nD τ) arg7 fullShare xs2) -∗ K ⟨⟩))
          ⊢ wp frame (wpE (defs₀ (F := F)) Variants.none c none) E (cc0__sim_agg_kernel i arg2 harg2 arg3 harg3 arg4 harg4 arg5 harg5 arg6 harg6 arg7 harg7) K } := by
  refine ⟨?_, fun E K => ?run⟩
  case run =>
    simp only [cc0__sim_agg_kernel_eq_skeleton]; unfold cc0__sim_agg_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.Kernel.Hand

end
-- ==== Proof.KBody0.lean ====
/-
  The first region as a pipeline's proof data: what the output tile and the three scratch buffers hold after
  every grid point, the invariant that carries the scratch from a batch's first row tile to its later ones,
  and the body's obligation at every point.
-/
import proofs.«111871_j84447646974566_1_alg».proof.Proof.KBody0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S1x256x256.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x256x256.size (by sl_kernel_rfl) y
/-- The output tile after a batch's first point. -/
def out0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S1x256x256 .f32 :=
  VO0_2.read (Elt F) (VO0_2.writes (Elt F) VO0_2.junk (kernelRun0_A c i arg2 harg2 arg3 harg3 arg4 harg4 arg5 harg5 arg6 harg6 arg7 harg7 hc0 x0 x1).1)
theorem scover0_A_0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S2048x256.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S2048x256.size (by sl_kernel_rfl) y
/-- The linear image of the batch's nodes, as the first point leaves it. -/
def sout0_A_0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S2048x256 .bf16 :=
  VS0_0.read (Elt F) (VS0_0.writes (Elt F) VS0_0.junk (kernelRun0_A c i arg2 harg2 arg3 harg3 arg4 harg4 arg5 harg5 arg6 harg6 arg7 harg7 hc0 x0 x1).2.1)
theorem scover0_A_1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S2048x256.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S2048x256.size (by sl_kernel_rfl) y
/-- The batch's node features, as the first point leaves them. -/
def sout0_A_1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S2048x256 .bf16 :=
  VS0_1.read (Elt F) (VS0_1.writes (Elt F) VS0_1.junk (kernelRun0_A c i arg2 harg2 arg3 harg3 arg4 harg4 arg5 harg5 arg6 harg6 arg7 harg7 hc0 x0 x1).2.2.1)
theorem scover0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S1x2048.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x2048.size (by sl_kernel_rfl) y
/-- The batch's squared norms as a row, as the first point leaves them. -/
def sout0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S1x2048 .f32 :=
  VS0_2.read (Elt F) (VS0_2.writes (Elt F) VS0_2.junk (kernelRun0_A c i arg2 harg2 arg3 harg3 arg4 harg4 arg5 harg5 arg6 harg6 arg7 harg7 hc0 x0 x1).2.2.2.1)

theorem cover0_B_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i) (x0 : Vec F S1x2048x256 .f32) (x1 : Vec F S256x256 .f32) (xs0 : Vec F S2048x256 .bf16) (xs1 : Vec F S2048x256 .bf16) (xs2 : Vec F S1x2048 .f32) (y : S1x256x256.Idx) :
    ∃ pc ∈ (kernelRun0_B c i arg2 harg2 arg3 harg3 arg4 harg4 arg5 harg5 arg6 harg6 arg7 harg7 hc0 x0 x1 xs0 xs1 xs2).1, y ∈ pc.1.set :=
  View.cover_of_tiledL (kernelRun0_B c i arg2 harg2 arg3 harg3 arg4 harg4 arg5 harg5 arg6 harg6 arg7 harg7 hc0 x0 x1 xs0 xs1 xs2).1 S1x256x256.size (by sl_kernel_rfl) y
/-- The output tile after a later point of a batch, from the scratch the first point left. -/
def out0_B_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i) (x0 : Vec F S1x2048x256 .f32) (x1 : Vec F S256x256 .f32) (xs0 : Vec F S2048x256 .bf16) (xs1 : Vec F S2048x256 .bf16) (xs2 : Vec F S1x2048 .f32) : Vec F S1x256x256 .f32 :=
  VO0_2.read (Elt F) (VO0_2.writes (Elt F) VO0_2.junk (kernelRun0_B c i arg2 harg2 arg3 harg3 arg4 harg4 arg5 harg5 arg6 harg6 arg7 harg7 hc0 x0 x1 xs0 xs1 xs2).1)

/-! ## What the output and the scratch hold after each point -/

/-- After position n: the output tile, then the three scratch buffers. A multiple of 8 refills the scratch; the
    other positions keep what the position before left. -/
def outsAt0 (c : Dev nD) : (n : ℕ) → n < cfg0.N → Vec F S1x256x256 .f32 × Vec F S2048x256 .bf16 × Vec F S2048x256 .bf16 × Vec F S1x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2.1, (outsAt0 c n (Nat.lt_of_succ_lt hn)).2.2.1, (outsAt0 c n (Nat.lt_of_succ_lt hn)).2.2.2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
      (outsAt0 V c (t.val - 1) (Nat.lt_of_le_of_lt (Nat.sub_le _ _) t.isLt)).2.1, (outsAt0 V c (t.val - 1) (Nat.lt_of_le_of_lt (Nat.sub_le _ _) t.isLt)).2.2.1, (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before position n: at the start the region's entry invariant (every scratch at anything); afterwards the three
    scratch buffers at what the position before left, the buffers the region never touches, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  have hN : t.val < 64 := lt_of_lt_of_eq t.isLt (show cfg0.N = 64 from N_0)
  by_cases h0 : t.val % 8 = 0
  · rw [outsAt0_A V c t h0]
    unfold out0_A_2 sout0_A_0 sout0_A_1 sout0_A_2; (try dsimp only)
    by_cases hz : t.val = 0
    · rw [PhiS0_castSucc V c t, PhiS0_zero V c _ _ hz, PhiA0_eq]
      iintro ⟨⟨⟨HS0, HS1, HS2, HR⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (iblk0 V c 0 t) (iblk0 V c 1 t)).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _ _ _)
    · rw [PhiS0_castSucc V c t, PhiS0_pos V c _ _ hz]
      iintro ⟨⟨⟨HS0, HS1, HS2, HR⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (iblk0 V c 0 t) (iblk0 V c 1 t)).2.2.2.2 Set.univ _)
      isplitl [H0]; · iexact H0
      isplitl [H1]; · iexact H1
      isplitl [H2]; · iexists _; iexact H2
      isplitl [HS0]; · iexists _; iexact HS0
      isplitl [HS1]; · iexists _; iexact HS1
      isplitl [HS2]; · iexists _; iexact HS2
      iintro ⟨H0, H1, ⟨%e2, H2⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _ _ _)
  · have hz : t.val ≠ 0 := fun h => h0 (by rw [h])
    rw [outsAt0_B V c t h0]
    unfold out0_B_2; (try dsimp only)
    rw [PhiS0_castSucc V c t, PhiS0_pos V c _ _ hz]
    iintro ⟨⟨⟨HS0, HS1, HS2, HR⟩, Hg⟩, Ho, ⟨%d0, H0⟩, ⟨%d1, H1⟩, ⟨%d2, H2⟩⟩
    iapply ((kernelRun0_B c (grid0.coords t) _ _ _ _ _ _ _ _ _ _ _ _ (fun h => h0 ((hcond0_0 t).mp h)) (iblk0 V c 0 t) (iblk0 V c 1 t) _ _ _).2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, HS0, HS1, HS2⟩
    isplitl [HS0 HS1 HS2 HR Hg]
    · isplitr [Hg]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- The region's entry invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KBody1Runs.lean ====
/-
  The second region (the statistics kernel: per-channel sums and sums of squares over all rows, accumulated in two
  scratch rows across the eight grid points): what its three control cases share, and the body's run in each case.

  The body at a grid point t: at t = 0 both accumulators are zeroed; at every point the block's column sums (and the
  column sums of its squares) are added to the accumulators; at t = 7 the accumulators are copied to the two outputs.
  Case A is t = 0, case B is 0 < t < 7, case C is t = 7.
-/
import proofs.«111871_j84447646974566_1_alg».proof.Proof.Gen.Kernel.Launch
import proofs.«111871_j84447646974566_1_alg».proof.Proof.Gen.Kernel.Skeleton
import proofs.«111871_j84447646974566_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the point is the first), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the point is the last). -/
abbrev cond1_1 (i : grid1.Coords) : Prop := k1_cond2 i = 1#1
/-- It holds at point 7 only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input is never idle. -/
theorem liveAt1_0 : ∀ t : Fin cfg1.N, cfg1.idle 0 (grid1.coords t) = false := by decide +kernel
/-- Off the last point each output is idle and not written back; at the last point it is live. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- Each window's current staging memref at point `t`, spelled as the pipeline passes it, and its wholeness. -/
abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S1x256 .f32 := Memref.whole cc1_scratch0
abbrev scM1_1 : Memref sig .tc .vmem S1x256 .f32 := Memref.whole cc1_scratch1

/-! ## The body's run, case by case -/

set_option maxHeartbeats 1000000 in
/-- Case A (the first point): the stores each accumulator ends with, as pieces (last first), with the proof that from
    the input's buffer at its block, the two outputs' buffers at any contents (handed back untouched) and the two
    accumulators at any contents, the body runs to the continuation. -/
noncomputable def kernelRun1_A (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond1_0 i) (hc1 : ¬cond1_1 i)
    (x0 : Vec F S2048x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- Case B (a middle point): as case A, but the accumulators are handed over at the contents the point before left. -/
noncomputable def kernelRun1_B (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond1_0 i) (hc1 : ¬cond1_1 i)
    (x0 : Vec F S2048x256 .f32) (xs0 xs1 : Vec F S1x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- Case C (the last point): the accumulators are handed over at the contents the point before left, the outputs'
    buffers at any contents; the outputs end with the pieces `L1`, `L2`. -/
noncomputable def kernelRun1_C (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond1_0 i) (hc1 : cond1_1 i)
    (x0 : Vec F S2048x256 .f32) (xs0 xs1 : Vec F S1x256 .f32) :
    Σ' (L1 : List (View.Piece (Elt F) S1x256 .f32)), Σ' (L2 : List (View.Piece (Elt F) S1x256 .f32)),
    Σ' (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.KBody1.lean ====
/-
  The second region (the statistics kernel), its half of the frame at region-entry contents V: what the two
  accumulators hold after each grid point, the proof data, the body obligation, and the invariant's two ends.

  After point n the first accumulator holds the column sums of blocks 0..n added one block at a time onto the
  zero row, the second the same for the squares; at the last point they are copied to the two outputs, which are
  idle (neither stored nor written back) at every other point.
-/
import proofs.«111871_j84447646974566_1_alg».proof.Proof.KBody1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading back whole-buffer stores -/

/-- The two-coordinate zero offset, however it is spelt. -/
theorem off0 : (![0, 0] : Fin 2 → ℕ) = fun _ => 0 := by funext a; fin_cases a <;> rfl

/-- After writes whose last went through the whole shape, the buffer reads that last write's value. -/
theorem read_writes_cons_unit_zero {Val : EltTy → Type} {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole shape of a whole buffer held at `x` reads `x`. -/
theorem readAt_unread {S : Shape} {e : EltTy} {sp : Space} (m : Memref sig .tc sp S e) (h : m.IsWhole)
    {off : Fin S.rank → ℕ} (hoff : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hoff]

section Pieces

variable {κ : Kind} {sp : Space} (v : View sig κ sp S1x256 .f32) (f : v.ty.Contents (Elt F))
variable (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole)
variable (x0 : Vec F S2048x256 .f32) (xs0 xs1 : Vec F S1x256 .f32)

/-- Case A leaves the first accumulator at the block's column sums added to the zero row, -/
theorem sread1_A_0 (hc0 : cond1_0 i) (hc1 : ¬cond1_1 i) :
    v.read (Elt F) (v.writes (Elt F) f (kernelRun1_A c i arg1 harg1 arg2 harg2 arg3 harg3 arg4 harg4 arg5 harg5 hc0 hc1 x0).1) = k1_pay4 x0 k1_pay1 := by
  have hL : (kernelRun1_A c i arg1 harg1 arg2 harg2 arg3 harg3 arg4 harg4 arg5 harg5 hc0 hc1 x0).1
      = (⟨Rect.unit ![0, 0] S1x256.size inb_S1x256_S1x256_0_0, k1_pay4 (View.readAt (Elt F) arg1.view (Rect.unit ![0, 0] S2048x256.size inb_S2048x256_S2048x256_0_0).toLoadRect (harg1.unread x0)) (arg4.view.readCov [(⟨Rect.unit ![0, 0] S1x256.size inb_S1x256_S1x256_0_0, k1_pay1⟩ : View.Piece (Elt F) S1x256 .f32)] (Rect.unit ![0, 0] S1x256.size inb_S1x256_S1x256_0_0).toLoadRect)⟩ : View.Piece (Elt F) S1x256 .f32)
        :: [(⟨Rect.unit ![0, 0] S1x256.size inb_S1x256_S1x256_0_0, k1_pay1⟩ : View.Piece (Elt F) S1x256 .f32)] := rfl
  rw [hL, read_writes_cons_unit_zero v f off0, readAt_unread arg1 harg1 off0, View.readCov_cons_toLoadRect]
/-- and the second at the column sums of its squares added to the zero row. -/
theorem sread1_A_1 (hc0 : cond1_0 i) (hc1 : ¬cond1_1 i) :
    v.read (Elt F) (v.writes (Elt F) f (kernelRun1_A c i arg1 harg1 arg2 harg2 arg3 harg3 arg4 harg4 arg5 harg5 hc0 hc1 x0).2.1) = k1_pay5 x0 k1_pay2 := by
  have hL : (kernelRun1_A c i arg1 harg1 arg2 harg2 arg3 harg3 arg4 harg4 arg5 harg5 hc0 hc1 x0).2.1
      = (⟨Rect.unit ![0, 0] S1x256.size inb_S1x256_S1x256_0_0, k1_pay5 (View.readAt (Elt F) arg1.view (Rect.unit ![0, 0] S2048x256.size inb_S2048x256_S2048x256_0_0).toLoadRect (harg1.unread x0)) (arg5.view.readCov [(⟨Rect.unit ![0, 0] S1x256.size inb_S1x256_S1x256_0_0, k1_pay2⟩ : View.Piece (Elt F) S1x256 .f32)] (Rect.unit ![0, 0] S1x256.size inb_S1x256_S1x256_0_0).toLoadRect)⟩ : View.Piece (Elt F) S1x256 .f32)
        :: [(⟨Rect.unit ![0, 0] S1x256.size inb_S1x256_S1x256_0_0, k1_pay2⟩ : View.Piece (Elt F) S1x256 .f32)] := rfl
  rw [hL, read_writes_cons_unit_zero v f off0, readAt_unread arg1 harg1 off0, View.readCov_cons_toLoadRect]

/-- Case B adds the block's column sums (of the entries, of their squares) to what the accumulators held. -/
theorem sread1_B_0 (hc0 : ¬cond1_0 i) (hc1 : ¬cond1_1 i) :
    v.read (Elt F) (v.writes (Elt F) f (kernelRun1_B c i arg1 harg1 arg2 harg2 arg3 harg3 arg4 harg4 arg5 harg5 hc0 hc1 x0 xs0 xs1).1) = k1_pay4 x0 xs0 := by
  have hL : (kernelRun1_B c i arg1 harg1 arg2 harg2 arg3 harg3 arg4 harg4 arg5 harg5 hc0 hc1 x0 xs0 xs1).1
      = [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] := rfl
  rw [hL, read_writes_cons_unit_zero v f off0, readAt_unread arg1 harg1 off0, readAt_unread arg4 harg4 off0]
theorem sread1_B_1 (hc0 : ¬cond1_0 i) (hc1 : ¬cond1_1 i) :
    v.read (Elt F) (v.writes (Elt F) f (kernelRun1_B c i arg1 harg1 arg2 harg2 arg3 harg3 arg4 harg4 arg5 harg5 hc0 hc1 x0 xs0 xs1).2.1) = k1_pay5 x0 xs1 := by
  have hL : (kernelRun1_B c i arg1 harg1 arg2 harg2 arg3 harg3 arg4 harg4 arg5 harg5 hc0 hc1 x0 xs0 xs1).2.1
      = [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] := rfl
  rw [hL, read_writes_cons_unit_zero v f off0, readAt_unread arg1 harg1 off0, readAt_unread arg5 harg5 off0]

/-- Case C does the same to the accumulators, -/
theorem sread1_C_0 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.2.1) = k1_pay4 x0 xs0 := by
  have hL : (kernelRun1_C c i arg1 harg1 arg2 harg2 arg3 harg3 arg4 harg4 arg5 harg5 hc0 hc1 x0 xs0 xs1).2.2.1
      = [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] := rfl
  rw [hL, read_writes_cons_unit_zero v f off0, readAt_unread arg1 harg1 off0, readAt_unread arg4 harg4 off0]
theorem sread1_C_1 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.2.2.1) = k1_pay5 x0 xs1 := by
  have hL : (kernelRun1_C c i arg1 harg1 arg2 harg2 arg3 harg3 arg4 harg4 arg5 harg5 hc0 hc1 x0 xs0 xs1).2.2.2.1
      = [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] := rfl
  rw [hL, read_writes_cons_unit_zero v f off0, readAt_unread arg1 harg1 off0, readAt_unread arg5 harg5 off0]
/-- and copies each accumulator, as just updated, to its output. -/
theorem oread1_C_1 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).1) = k1_pay4 x0 xs0 := by
  have hL : (kernelRun1_C c i arg1 harg1 arg2 harg2 arg3 harg3 arg4 harg4 arg5 harg5 hc0 hc1 x0 xs0 xs1).1
      = [(⟨Rect.unit ![0, 0] S1x256.size inb_S1x256_S1x256_0_0, arg4.view.readCov [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] (Rect.unit ![0, 0] S1x256.size inb_S1x256_S1x256_0_0).toLoadRect⟩ : View.Piece (Elt F) S1x256 .f32)] := rfl
  rw [hL, read_writes_cons_unit_zero v f off0, View.readCov_cons_toLoadRect, readAt_unread arg1 harg1 off0, readAt_unread arg4 harg4 off0]
theorem oread1_C_2 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.1) = k1_pay5 x0 xs1 := by
  have hL : (kernelRun1_C c i arg1 harg1 arg2 harg2 arg3 harg3 arg4 harg4 arg5 harg5 hc0 hc1 x0 xs0 xs1).2.1
      = [(⟨Rect.unit ![0, 0] S1x256.size inb_S1x256_S1x256_0_0, arg5.view.readCov [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] (Rect.unit ![0, 0] S1x256.size inb_S1x256_S1x256_0_0).toLoadRect⟩ : View.Piece (Elt F) S1x256 .f32)] := rfl
  rw [hL, read_writes_cons_unit_zero v f off0, View.readCov_cons_toLoadRect, readAt_unread arg1 harg1 off0, readAt_unread arg5 harg5 off0]

end Pieces

/-! ## What the accumulators hold after each point -/

/-- The two accumulators after the body at point `n`: the block's column sums (of the entries; of their squares)
    added to the zero rows at the first point, to what the point before left afterwards. -/
def acc1 (c : Dev nD) : (n : ℕ) → n < cfg1.N → Vec F S1x256 .f32 × Vec F S1x256 .f32
  | 0, hn => (k1_pay4 (iblk1 V c 0 ⟨0, hn⟩) k1_pay1, k1_pay5 (iblk1 V c 0 ⟨0, hn⟩) k1_pay2)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) k1_pay1, k1_pay5 (iblk1 V c 0 t) k1_pay2) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl hz
  | succ n => rfl

/-! ## The region invariant -/

/-- Every scoped buffer of the core that is neither a staging buffer of this region nor one of its two accumulators
    (the other regions' staging and scratch buffers), each whole at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f))

/-- What the launch hands the region sets the two accumulators apart as memrefs owned at some contents, -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_eq]; simp only [scM1_0, scM1_1, owns_whole]; unfold others1
  iintro ⟨⟨A1, A2, A3, A4, A5, A6, A7, A8, S0, S1, B1, B2, B3, B4, B5, B6, B7, B8, B9, B10⟩, Hg⟩
  isplitr [Hg]; swap; · iexact Hg
  isplitl [S0]; · iexact S0
  isplitl [S1]; · iexact S1
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

/-- and is got back from them. -/
theorem PhiA1_join (c : Dev nD) :
    iprop(iprop((∃ d, owns (c : Thread nD τ) scM1_0 fullShare d) ∗ (∃ d, owns (c : Thread nD τ) scM1_1 fullShare d) ∗ others1 c) ∗ (∃ r, prngReg c r)) ⊢ (Pipeline.ΦA spec1 c : sProp 𝕄) := by
  unfold Pipeline.ΦA; rw [scopedRest1_eq]; simp only [scM1_0, scM1_1, owns_whole]; unfold others1
  iintro ⟨⟨S0, S1, A1, A2, A3, A4, A5, A6, A7, A8, B1, B2, B3, B4, B5, B6, B7, B8, B9, B10⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexact S0
  isplitl [S1]; · iexact S1
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

theorem PhiA1_eq (c : Dev nD) :
    (Pipeline.ΦA spec1 c : sProp 𝕄) = iprop(iprop((∃ d, owns (c : Thread nD τ) scM1_0 fullShare d) ∗ (∃ d, owns (c : Thread nD τ) scM1_1 fullShare d) ∗ others1 c) ∗ (∃ r, prngReg c r)) :=
  BI.equiv_iff.mp ⟨PhiA1_split c, PhiA1_join c⟩

/-- The region invariant before position `n`: before the first point what the launch hands over; afterwards the two
    accumulators at what the point before left in them, every other scoped buffer at some contents, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((acc1 V c n hn).1) ∗ owns (c : Thread nD τ) scM1_1 fullShare ((acc1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((acc1 V c n hn).1) ∗ owns (c : Thread nD τ) scM1_1 fullShare ((acc1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((acc1 V c (n - 1) (by omega)).1) ∗ owns (c : Thread nD τ) scM1_1 fullShare ((acc1 V c (n - 1) (by omega)).2) ∗ others1 c) ∗ (∃ r, prngReg c r)) := by
  cases n with
  | zero => exact absurd rfl hz
  | succ n => rfl

/-! ## The proof data -/

/-- The proof data of the region on core `c`: the arrays as the region finds them; after the body at point `t` the
    input's buffer at its block and the outputs' at the accumulators' contents (consulted at the last point only: at the
    others the outputs are idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the point's position says which case it is in; the
    invariant hands the body the accumulators (at anything at the first point, at what the point before left afterwards)
    and takes them back at this point's contents; the outputs are handed back untouched off the last point and hold the
    accumulators' contents at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  by_cases h1 : t.val % 8 = 7
  · have h0 : ¬t.val % 8 = 0 := by omega
    have hz : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_pos V c t hz]; (try dsimp only)
    rw [PhiS1_castSucc V c t, PhiS1_pos V c _ _ hz]
    iintro ⟨⟨⟨HS0, HS1, Hoth⟩, Hg⟩, Ho, ⟨%d0, H0⟩, ⟨%d1, H1⟩, ⟨%d2, H2⟩⟩
    iapply ((kernelRun1_C c (grid1.coords t) _ _ _ _ _ _ _ _ _ _ (fun h => h0 ((hcond1_0 t).mp h)) ((hcond1_1 t).mpr h1) (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hoth Hg]
    · isplitr [Hg]; swap; · iexact Hg
      isplitl [HS0]
      · unfold owns; iexists _; isplitr
        swap; · iexact HS0
        ipureintro; exact sread1_C_0 _ _ c ..
      isplitl [HS1]
      · unfold owns; iexists _; isplitr
        swap; · iexact HS1
        ipureintro; exact sread1_C_1 _ _ c ..
      iexact Hoth
    isplitl [Ho]; · iexact Ho
    isplitl [H0]; · iexact H0
    isplitl [H1]
    · unfold owns; iexists _; isplitr
      swap; · iexact H1
      ipureintro; exact oread1_C_1 _ _ c ..
    unfold owns; iexists _; isplitr
    swap; · iexact H2
    ipureintro; exact oread1_C_2 _ _ c ..
  · rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    by_cases h0 : t.val % 8 = 0
    · have hz : t.val = 0 := by omega
      rw [acc1_zero V c t hz]; (try dsimp only)
      rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitr [Hg]; swap; · iexact Hg
        isplitl [HS0]
        · unfold owns; iexists _; isplitr
          swap; · iexact HS0
          ipureintro; exact sread1_A_0 _ _ c ..
        isplitl [HS1]
        · unfold owns; iexists _; isplitr
          swap; · iexact HS1
          ipureintro; exact sread1_A_1 _ _ c ..
        iexact Hoth
      isplitl [Ho]; · iexact Ho
      isplitl [H0]; · iexact H0
      isplitl [H1]; · iexists _; iexact H1
      iexists _; iexact H2
    · have hz : t.val ≠ 0 := by omega
      rw [acc1_pos V c t hz]; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitr [Hg]; swap; · iexact Hg
        isplitl [HS0]
        · unfold owns; iexists _; isplitr
          swap; · iexact HS0
          ipureintro; exact sread1_B_0 _ _ c ..
        isplitl [HS1]
        · unfold owns; iexists _; isplitr
          swap; · iexact HS1
          ipureintro; exact sread1_B_1 _ _ c ..
        iexact Hoth
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulators' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitr [Hg]; swap; · iexact Hg
  isplitl [HS0]; · iexists _; iexact HS0
  isplitl [HS1]; · iexists _; iexact HS1
  iexact Hoth

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.KBody2.lean ====
/-
  The third pallas_call of the graph layer (the batch normalisation applied, the leaky rectifier and the
  residual blend), as one region of the program's main function, at a PARAMETER `V`: the TensorCore's buffer
  contents when the region is entered.

  The region has seven windows over a grid of 8 × 4 points: the node features and the aggregated features,
  each in blocks of 1 × 512 × 256; four per-channel rows of shape 1 × 256 (the mean, the inverse standard
  deviation, the scale and the shift), fetched once; and the result, in blocks of 1 × 512 × 256. At every point
  the body loads the six input blocks whole, loads the output block (a value it never uses) and stores ONE
  value, a pure function of the six loads, through the whole-block rectangle. So what the body leaves in the
  output window's buffer is that function of the six input blocks at the point, each input buffer is left as
  it was found, and nothing else of the core's state is touched.

  This file states that as the pipeline's proof data and proves the body obligation at every grid point,
  for any float instance.
-/
import proofs.«111871_j84447646974566_1_alg».proof.Proof.Gen.Kernel.Launch
import proofs.«111871_j84447646974566_1_alg».proof.Proof.Gen.Kernel.Skeleton
import proofs.«111871_j84447646974566_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents' and whose body leaves the block in place: where the window is not
    fetched its block index has not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents' and whose body leaves the block in place: where the window is not
    fetched its block index has not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents' and whose body leaves the block in place: where the window is not
    fetched its block index has not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents' and whose body leaves the block in place: where the window is not
    fetched its block index has not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents' and whose body leaves the block in place: where the window is not
    fetched its block index has not moved, so the previous point's block is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents' and whose body leaves the block in place: where the window is not
    fetched its block index has not moved, so the previous point's block is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1 × 512 × 256 block: the rectangle of the two block loads, of the load of the output and of the store. -/
abbrev r2_blk : Rect S1x512x256 := Rect.unit (s := S1x512x256) ![0, 0, 0] S1x512x256.size inb_S1x512x256_S1x512x256_0_0_0
/-- The whole 1 × 256 row: the rectangle of the four per-channel loads. -/
abbrev r2_row : Rect S1x256 := Rect.unit (s := S1x256) ![0, 0] S1x256.size inb_S1x256_S1x256_0_0

/-! ## What the body leaves in the output window's buffer -/

/-- The output window's staging buffer after the body, from the six input windows' blocks (in the windows' order:
    the node features, the aggregated features, the mean, the inverse deviation, the scale, the shift): its one
    store as a piece, the payload applied to the loads in the order the body makes them (the aggregated features
    first, the node features last). -/
def out2_6 (x0 x1 : Vec F S1x512x256 .f32) (x2 x3 x4 x5 : Vec F S1x256 .f32) : Vec F S1x512x256 .f32 :=
  View.canon [⟨r2_blk, k2_pay1 (View.ld x1 r2_blk) (View.ld x2 r2_row) (View.ld x3 r2_row) (View.ld x4 r2_row) (View.ld x5 r2_row) (View.ld x0 r2_blk)⟩]

/-- The store's rectangle is the whole block, so it covers it. -/
theorem cover2_6 (p0 : Vec F S1x512x256 .f32) (y : S1x512x256.Idx) :
    ∃ pc ∈ ([⟨r2_blk, p0⟩] : List (View.Piece (Elt F) S1x512x256 .f32)), y ∈ pc.1.set :=
  View.cover_of_tiled [⟨r2_blk, p0⟩] S1x512x256.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords) (arg2 : Memref sig .tc .vmem S1x512x256 .f32) (harg2 : arg2.IsWhole) (arg3 : Memref sig .tc .vmem S1x512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole)
    (x0 x1 : Vec F S1x512x256 .f32) (x2 x3 x4 x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__apply_kernel i arg2 harg2 arg3 harg3 arg4 harg4 arg5 harg5 arg6 harg6 arg7 harg7 arg8 harg8) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at
    point `t` each input's buffer at its block and the output's at `out2_6` of the six input blocks; the
    invariant the core's other scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegions.lean ====
/-
  The whole program as a list of segments: the three kernel regions and the two stretches of host operations
  between them, each entered from the buffer contents the one before left; and from it every execution's end:
  each unscoped buffer holds the last segment's contents.
-/
import proofs.«111871_j84447646974566_1_alg».proof.Proof.KBody0
import proofs.«111871_j84447646974566_1_alg».proof.Proof.KBody1
import proofs.«111871_j84447646974566_1_alg».proof.Proof.KBody2
import proofs.«111871_j84447646974566_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the statistics' host arithmetic (the third region's entry). -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (E4 m ρ) c).arrAt_in 0 rfl _).trans (A_eq2 (E4 m ρ) c 0))
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at their exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m ρ 0 c).Φ (Fin.last _) ⊢ Pipeline.ΦA spec0 c := hout0 (E0 m ρ) c
    have h2 : (Pipeline.ΦA spec0 c : sProp 𝕄) ⊢ iprop((∃ r, prngReg c r) ∗ (BI.emp : sProp 𝕄) ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ Pipeline.ΦA spec1 c := hout1 (E2 m ρ) c
    have h2 : (Pipeline.ΦA spec1 c : sProp 𝕄) ⊢ iprop((∃ r, prngReg c r) ∗ (BI.emp : sProp 𝕄) ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at their exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.Body0Runs.lean ====
/-
  The first region (the similarity graph and its aggregation), what its two control cases share.
  A grid point is (batch b, row tile i). At i = 0 the body fills three scratch buffers from the batch's whole
  block of node features — the features themselves, their linear image, their squared norms as a row —
  and every point of the batch then reads them; the output tile is a function of the feature block, the
  linear map and those three buffers.
-/
import proofs.«111871_j84447646974566_1_alg».proof.Proof.Gen.KernelIdeal.Launch
import proofs.«111871_j84447646974566_1_alg».proof.Proof.Gen.KernelIdeal.Skeleton
import proofs.«111871_j84447646974566_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the batch's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The linear map's staging buffer holds the whole map at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: the row tile is the batch's first. -/
abbrev cond0_0 (i : grid0.Coords) : Prop := (Scalar.cmpi .ne (Scalar.extui (Scalar.cmpi .eq (BitVec.ofNat 32 (i 1).val) 0#32)) 0#32) = 1#1
/-- It holds at the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of the output window, through which its contents are stated. -/
abbrev VO0_2 : View sig .tc .vmem S1x256x256 .f32 := (Memref.whole cc0_stg2_0 : Memref sig .tc .vmem S1x256x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The three scratch buffers: the linear image, the features, the squared norms. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S1x2048 .f32 := Memref.whole cc0_scratch2
abbrev VS0_0 : View sig .tc .vmem S2048x256 .bf16 := scM0_0.view
abbrev VS0_1 : View sig .tc .vmem S2048x256 .bf16 := scM0_1.view
abbrev VS0_2 : View sig .tc .vmem S1x2048 .f32 := scM0_2.view

/-- The core's scoped buffers this region never touches (the other regions' staging and scratch), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The region's entry invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 (F := F) c) ∗ (∃ r, prngReg c r)) := by
  unfold Pipeline.ΦA Rest0; rw [scopedRest0_eq]; simp only [scM0_0, scM0_1, scM0_2, owns_whole]; try rfl

end Cert.KernelIdeal.Hand

end
-- ==== Proof.Body0RunA.lean ====
/-
  The first region's body at a batch's first row tile: the three scratch buffers are filled from the
  feature block and the linear map, then the output tile is computed from them.
-/
import proofs.«111871_j84447646974566_1_alg».proof.Proof.Body0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in each scratch buffer when the branch is taken,
    with the body's triple on whole memrefs: the two inputs at their contents, everything else at anything. -/
noncomputable def kernelRun0_A (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i)
    (x0 : Vec F S1x2048x256 .f32) (x1 : Vec F S256x256 .f32) :
    Σ' (L2 : List (View.Piece (Elt F) S1x256x256 .f32)) (LS0 : List (View.Piece (Elt F) S2048x256 .bf16)) (LS1 : List (View.Piece (Elt F) S2048x256 .bf16)), { LS2 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__sim_agg_kernel i arg2 harg2 arg3 harg3 arg4 harg4 arg5 harg5 arg6 harg6 arg7 harg7) K } := by
  refine ⟨?_, ?_, ?_, ?_, fun E K => ?run⟩
  case run =>
    simp only [cc0__sim_agg_kernel_eq_skeleton]; unfold cc0__sim_agg_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.Body0RunB.lean ====
/-
  The first region's body at a later row tile of a batch: the three scratch buffers are read as the batch's
  first tile left them and handed back untouched; only the output tile is stored.
-/
import proofs.«111871_j84447646974566_1_alg».proof.Proof.Body0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer when the branch is not taken, with the body's triple:
    the two inputs and the three scratch buffers at their contents, in and out. -/
noncomputable def kernelRun0_B (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i)
    (x0 : Vec F S1x2048x256 .f32) (x1 : Vec F S256x256 .f32) (xs0 : Vec F S2048x256 .bf16) (xs1 : Vec F S2048x256 .bf16) (xs2 : Vec F S1x2048 .f32) :
    { L2 : List (View.Piece (Elt F) S1x256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ owns (c : Thread nD τ) arg6 fullShare xs1 ∗ owns (c : Thread nD τ) arg7 fullShare xs2) -∗ K ⟨⟩))
          ⊢ wp frame (wpE (defs₀ (F := F)) Variants.none c none) E (cc0__sim_agg_kernel i arg2 harg2 arg3 harg3 arg4 harg4 arg5 harg5 arg6 harg6 arg7 harg7) K } := by
  refine ⟨?_, fun E K => ?run⟩
  case run =>
    simp only [cc0__sim_agg_kernel_eq_skeleton]; unfold cc0__sim_agg_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.KernelIdeal.Hand

end
-- ==== Proof.Body0.lean ====
/-
  The first region as a pipeline's proof data: what the output tile and the three scratch buffers hold after
  every grid point, the invariant that carries the scratch from a batch's first row tile to its later ones,
  and the body's obligation at every point.
-/
import proofs.«111871_j84447646974566_1_alg».proof.Proof.Body0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S1x256x256.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x256x256.size (by sl_kernel_rfl) y
/-- The output tile after a batch's first point. -/
def out0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S1x256x256 .f32 :=
  VO0_2.read (Elt F) (VO0_2.writes (Elt F) VO0_2.junk (kernelRun0_A c i arg2 harg2 arg3 harg3 arg4 harg4 arg5 harg5 arg6 harg6 arg7 harg7 hc0 x0 x1).1)
theorem scover0_A_0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S2048x256.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S2048x256.size (by sl_kernel_rfl) y
/-- The linear image of the batch's nodes, as the first point leaves it. -/
def sout0_A_0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S2048x256 .bf16 :=
  VS0_0.read (Elt F) (VS0_0.writes (Elt F) VS0_0.junk (kernelRun0_A c i arg2 harg2 arg3 harg3 arg4 harg4 arg5 harg5 arg6 harg6 arg7 harg7 hc0 x0 x1).2.1)
theorem scover0_A_1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S2048x256.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S2048x256.size (by sl_kernel_rfl) y
/-- The batch's node features, as the first point leaves them. -/
def sout0_A_1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S2048x256 .bf16 :=
  VS0_1.read (Elt F) (VS0_1.writes (Elt F) VS0_1.junk (kernelRun0_A c i arg2 harg2 arg3 harg3 arg4 harg4 arg5 harg5 arg6 harg6 arg7 harg7 hc0 x0 x1).2.2.1)
theorem scover0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) (y : S1x2048.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x2048.size (by sl_kernel_rfl) y
/-- The batch's squared norms as a row, as the first point leaves them. -/
def sout0_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) : Vec F S1x2048 .f32 :=
  VS0_2.read (Elt F) (VS0_2.writes (Elt F) VS0_2.junk (kernelRun0_A c i arg2 harg2 arg3 harg3 arg4 harg4 arg5 harg5 arg6 harg6 arg7 harg7 hc0 x0 x1).2.2.2.1)

theorem cover0_B_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i) (x0 : Vec F S1x2048x256 .f32) (x1 : Vec F S256x256 .f32) (xs0 : Vec F S2048x256 .bf16) (xs1 : Vec F S2048x256 .bf16) (xs2 : Vec F S1x2048 .f32) (y : S1x256x256.Idx) :
    ∃ pc ∈ (kernelRun0_B c i arg2 harg2 arg3 harg3 arg4 harg4 arg5 harg5 arg6 harg6 arg7 harg7 hc0 x0 x1 xs0 xs1 xs2).1, y ∈ pc.1.set :=
  View.cover_of_tiledL (kernelRun0_B c i arg2 harg2 arg3 harg3 arg4 harg4 arg5 harg5 arg6 harg6 arg7 harg7 hc0 x0 x1 xs0 xs1 xs2).1 S1x256x256.size (by sl_kernel_rfl) y
/-- The output tile after a later point of a batch, from the scratch the first point left. -/
def out0_B_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i) (x0 : Vec F S1x2048x256 .f32) (x1 : Vec F S256x256 .f32) (xs0 : Vec F S2048x256 .bf16) (xs1 : Vec F S2048x256 .bf16) (xs2 : Vec F S1x2048 .f32) : Vec F S1x256x256 .f32 :=
  VO0_2.read (Elt F) (VO0_2.writes (Elt F) VO0_2.junk (kernelRun0_B c i arg2 harg2 arg3 harg3 arg4 harg4 arg5 harg5 arg6 harg6 arg7 harg7 hc0 x0 x1 xs0 xs1 xs2).1)

/-! ## What the output and the scratch hold after each point -/

/-- After position n: the output tile, then the three scratch buffers. A multiple of 8 refills the scratch; the
    other positions keep what the position before left. -/
def outsAt0 (c : Dev nD) : (n : ℕ) → n < cfg0.N → Vec F S1x256x256 .f32 × Vec F S2048x256 .bf16 × Vec F S2048x256 .bf16 × Vec F S1x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2.1, (outsAt0 c n (Nat.lt_of_succ_lt hn)).2.2.1, (outsAt0 c n (Nat.lt_of_succ_lt hn)).2.2.2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
      (outsAt0 V c (t.val - 1) (Nat.lt_of_le_of_lt (Nat.sub_le _ _) t.isLt)).2.1, (outsAt0 V c (t.val - 1) (Nat.lt_of_le_of_lt (Nat.sub_le _ _) t.isLt)).2.2.1, (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before position n: at the start the region's entry invariant (every scratch at anything); afterwards the three
    scratch buffers at what the position before left, the buffers the region never touches, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  have hN : t.val < 64 := lt_of_lt_of_eq t.isLt (show cfg0.N = 64 from N_0)
  by_cases h0 : t.val % 8 = 0
  · rw [outsAt0_A V c t h0]
    unfold out0_A_2 sout0_A_0 sout0_A_1 sout0_A_2; (try dsimp only)
    by_cases hz : t.val = 0
    · rw [PhiS0_castSucc V c t, PhiS0_zero V c _ _ hz, PhiA0_eq]
      iintro ⟨⟨⟨HS0, HS1, HS2, HR⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (iblk0 V c 0 t) (iblk0 V c 1 t)).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _ _ _)
    · rw [PhiS0_castSucc V c t, PhiS0_pos V c _ _ hz]
      iintro ⟨⟨⟨HS0, HS1, HS2, HR⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (iblk0 V c 0 t) (iblk0 V c 1 t)).2.2.2.2 Set.univ _)
      isplitl [H0]; · iexact H0
      isplitl [H1]; · iexact H1
      isplitl [H2]; · iexists _; iexact H2
      isplitl [HS0]; · iexists _; iexact HS0
      isplitl [HS1]; · iexists _; iexact HS1
      isplitl [HS2]; · iexists _; iexact HS2
      iintro ⟨H0, H1, ⟨%e2, H2⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _ _ _)
  · have hz : t.val ≠ 0 := fun h => h0 (by rw [h])
    rw [outsAt0_B V c t h0]
    unfold out0_B_2; (try dsimp only)
    rw [PhiS0_castSucc V c t, PhiS0_pos V c _ _ hz]
    iintro ⟨⟨⟨HS0, HS1, HS2, HR⟩, Hg⟩, Ho, ⟨%d0, H0⟩, ⟨%d1, H1⟩, ⟨%d2, H2⟩⟩
    iapply ((kernelRun0_B c (grid0.coords t) _ _ _ _ _ _ _ _ _ _ _ _ (fun h => h0 ((hcond0_0 t).mp h)) (iblk0 V c 0 t) (iblk0 V c 1 t) _ _ _).2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, HS0, HS1, HS2⟩
    isplitl [HS0 HS1 HS2 HR Hg]
    · isplitr [Hg]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- The region's entry invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.Body1Runs.lean ====
/-
  The second region (the statistics kernel: per-channel sums and sums of squares over all rows, accumulated in two
  scratch rows across the eight grid points): what its three control cases share, and the body's run in each case.

  The body at a grid point t: at t = 0 both accumulators are zeroed; at every point the block's column sums (and the
  column sums of its squares) are added to the accumulators; at t = 7 the accumulators are copied to the two outputs.
  Case A is t = 0, case B is 0 < t < 7, case C is t = 7.
-/
import proofs.«111871_j84447646974566_1_alg».proof.Proof.Gen.KernelIdeal.Launch
import proofs.«111871_j84447646974566_1_alg».proof.Proof.Gen.KernelIdeal.Skeleton
import proofs.«111871_j84447646974566_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the point is the first), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the point is the last). -/
abbrev cond1_1 (i : grid1.Coords) : Prop := k1_cond2 i = 1#1
/-- It holds at point 7 only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input is never idle. -/
theorem liveAt1_0 : ∀ t : Fin cfg1.N, cfg1.idle 0 (grid1.coords t) = false := by decide +kernel
/-- Off the last point each output is idle and not written back; at the last point it is live. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- Each window's current staging memref at point `t`, spelled as the pipeline passes it, and its wholeness. -/
abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S1x256 .f32 := Memref.whole cc1_scratch0
abbrev scM1_1 : Memref sig .tc .vmem S1x256 .f32 := Memref.whole cc1_scratch1

/-! ## The body's run, case by case -/

set_option maxHeartbeats 1000000 in
/-- Case A (the first point): the stores each accumulator ends with, as pieces (last first), with the proof that from
    the input's buffer at its block, the two outputs' buffers at any contents (handed back untouched) and the two
    accumulators at any contents, the body runs to the continuation. -/
noncomputable def kernelRun1_A (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond1_0 i) (hc1 : ¬cond1_1 i)
    (x0 : Vec F S2048x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- Case B (a middle point): as case A, but the accumulators are handed over at the contents the point before left. -/
noncomputable def kernelRun1_B (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond1_0 i) (hc1 : ¬cond1_1 i)
    (x0 : Vec F S2048x256 .f32) (xs0 xs1 : Vec F S1x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- Case C (the last point): the accumulators are handed over at the contents the point before left, the outputs'
    buffers at any contents; the outputs end with the pieces `L1`, `L2`. -/
noncomputable def kernelRun1_C (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond1_0 i) (hc1 : cond1_1 i)
    (x0 : Vec F S2048x256 .f32) (xs0 xs1 : Vec F S1x256 .f32) :
    Σ' (L1 : List (View.Piece (Elt F) S1x256 .f32)), Σ' (L2 : List (View.Piece (Elt F) S1x256 .f32)),
    Σ' (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.Body1.lean ====
/-
  The second region (the statistics kernel), its half of the frame at region-entry contents V: what the two
  accumulators hold after each grid point, the proof data, the body obligation, and the invariant's two ends.

  After point n the first accumulator holds the column sums of blocks 0..n added one block at a time onto the
  zero row, the second the same for the squares; at the last point they are copied to the two outputs, which are
  idle (neither stored nor written back) at every other point.
-/
import proofs.«111871_j84447646974566_1_alg».proof.Proof.Body1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading back whole-buffer stores -/

/-- The two-coordinate zero offset, however it is spelt. -/
theorem off0 : (![0, 0] : Fin 2 → ℕ) = fun _ => 0 := by funext a; fin_cases a <;> rfl

/-- After writes whose last went through the whole shape, the buffer reads that last write's value. -/
theorem read_writes_cons_unit_zero {Val : EltTy → Type} {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole shape of a whole buffer held at `x` reads `x`. -/
theorem readAt_unread {S : Shape} {e : EltTy} {sp : Space} (m : Memref sig .tc sp S e) (h : m.IsWhole)
    {off : Fin S.rank → ℕ} (hoff : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hoff]

section Pieces

variable {κ : Kind} {sp : Space} (v : View sig κ sp S1x256 .f32) (f : v.ty.Contents (Elt F))
variable (c : Dev nD) (i : grid1.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole)
variable (x0 : Vec F S2048x256 .f32) (xs0 xs1 : Vec F S1x256 .f32)

/-- Case A leaves the first accumulator at the block's column sums added to the zero row, -/
theorem sread1_A_0 (hc0 : cond1_0 i) (hc1 : ¬cond1_1 i) :
    v.read (Elt F) (v.writes (Elt F) f (kernelRun1_A c i arg1 harg1 arg2 harg2 arg3 harg3 arg4 harg4 arg5 harg5 hc0 hc1 x0).1) = k1_pay4 x0 k1_pay1 := by
  have hL : (kernelRun1_A c i arg1 harg1 arg2 harg2 arg3 harg3 arg4 harg4 arg5 harg5 hc0 hc1 x0).1
      = (⟨Rect.unit ![0, 0] S1x256.size inb_S1x256_S1x256_0_0, k1_pay4 (View.readAt (Elt F) arg1.view (Rect.unit ![0, 0] S2048x256.size inb_S2048x256_S2048x256_0_0).toLoadRect (harg1.unread x0)) (arg4.view.readCov [(⟨Rect.unit ![0, 0] S1x256.size inb_S1x256_S1x256_0_0, k1_pay1⟩ : View.Piece (Elt F) S1x256 .f32)] (Rect.unit ![0, 0] S1x256.size inb_S1x256_S1x256_0_0).toLoadRect)⟩ : View.Piece (Elt F) S1x256 .f32)
        :: [(⟨Rect.unit ![0, 0] S1x256.size inb_S1x256_S1x256_0_0, k1_pay1⟩ : View.Piece (Elt F) S1x256 .f32)] := rfl
  rw [hL, read_writes_cons_unit_zero v f off0, readAt_unread arg1 harg1 off0, View.readCov_cons_toLoadRect]
/-- and the second at the column sums of its squares added to the zero row. -/
theorem sread1_A_1 (hc0 : cond1_0 i) (hc1 : ¬cond1_1 i) :
    v.read (Elt F) (v.writes (Elt F) f (kernelRun1_A c i arg1 harg1 arg2 harg2 arg3 harg3 arg4 harg4 arg5 harg5 hc0 hc1 x0).2.1) = k1_pay5 x0 k1_pay2 := by
  have hL : (kernelRun1_A c i arg1 harg1 arg2 harg2 arg3 harg3 arg4 harg4 arg5 harg5 hc0 hc1 x0).2.1
      = (⟨Rect.unit ![0, 0] S1x256.size inb_S1x256_S1x256_0_0, k1_pay5 (View.readAt (Elt F) arg1.view (Rect.unit ![0, 0] S2048x256.size inb_S2048x256_S2048x256_0_0).toLoadRect (harg1.unread x0)) (arg5.view.readCov [(⟨Rect.unit ![0, 0] S1x256.size inb_S1x256_S1x256_0_0, k1_pay2⟩ : View.Piece (Elt F) S1x256 .f32)] (Rect.unit ![0, 0] S1x256.size inb_S1x256_S1x256_0_0).toLoadRect)⟩ : View.Piece (Elt F) S1x256 .f32)
        :: [(⟨Rect.unit ![0, 0] S1x256.size inb_S1x256_S1x256_0_0, k1_pay2⟩ : View.Piece (Elt F) S1x256 .f32)] := rfl
  rw [hL, read_writes_cons_unit_zero v f off0, readAt_unread arg1 harg1 off0, View.readCov_cons_toLoadRect]

/-- Case B adds the block's column sums (of the entries, of their squares) to what the accumulators held. -/
theorem sread1_B_0 (hc0 : ¬cond1_0 i) (hc1 : ¬cond1_1 i) :
    v.read (Elt F) (v.writes (Elt F) f (kernelRun1_B c i arg1 harg1 arg2 harg2 arg3 harg3 arg4 harg4 arg5 harg5 hc0 hc1 x0 xs0 xs1).1) = k1_pay4 x0 xs0 := by
  have hL : (kernelRun1_B c i arg1 harg1 arg2 harg2 arg3 harg3 arg4 harg4 arg5 harg5 hc0 hc1 x0 xs0 xs1).1
      = [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] := rfl
  rw [hL, read_writes_cons_unit_zero v f off0, readAt_unread arg1 harg1 off0, readAt_unread arg4 harg4 off0]
theorem sread1_B_1 (hc0 : ¬cond1_0 i) (hc1 : ¬cond1_1 i) :
    v.read (Elt F) (v.writes (Elt F) f (kernelRun1_B c i arg1 harg1 arg2 harg2 arg3 harg3 arg4 harg4 arg5 harg5 hc0 hc1 x0 xs0 xs1).2.1) = k1_pay5 x0 xs1 := by
  have hL : (kernelRun1_B c i arg1 harg1 arg2 harg2 arg3 harg3 arg4 harg4 arg5 harg5 hc0 hc1 x0 xs0 xs1).2.1
      = [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] := rfl
  rw [hL, read_writes_cons_unit_zero v f off0, readAt_unread arg1 harg1 off0, readAt_unread arg5 harg5 off0]

/-- Case C does the same to the accumulators, -/
theorem sread1_C_0 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.2.1) = k1_pay4 x0 xs0 := by
  have hL : (kernelRun1_C c i arg1 harg1 arg2 harg2 arg3 harg3 arg4 harg4 arg5 harg5 hc0 hc1 x0 xs0 xs1).2.2.1
      = [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] := rfl
  rw [hL, read_writes_cons_unit_zero v f off0, readAt_unread arg1 harg1 off0, readAt_unread arg4 harg4 off0]
theorem sread1_C_1 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.2.2.1) = k1_pay5 x0 xs1 := by
  have hL : (kernelRun1_C c i arg1 harg1 arg2 harg2 arg3 harg3 arg4 harg4 arg5 harg5 hc0 hc1 x0 xs0 xs1).2.2.2.1
      = [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] := rfl
  rw [hL, read_writes_cons_unit_zero v f off0, readAt_unread arg1 harg1 off0, readAt_unread arg5 harg5 off0]
/-- and copies each accumulator, as just updated, to its output. -/
theorem oread1_C_1 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).1) = k1_pay4 x0 xs0 := by
  have hL : (kernelRun1_C c i arg1 harg1 arg2 harg2 arg3 harg3 arg4 harg4 arg5 harg5 hc0 hc1 x0 xs0 xs1).1
      = [(⟨Rect.unit ![0, 0] S1x256.size inb_S1x256_S1x256_0_0, arg4.view.readCov [(⟨Rect.unit ![0, 0] S1x256.size inb_S1x256_S1x256_0_0, k1_pay4 (View.readAt (Elt F) arg1.view (Rect.unit ![0, 0] S2048x256.size inb_S2048x256_S2048x256_0_0).toLoadRect (harg1.unread x0)) (View.readAt (Elt F) arg4.view (Rect.unit ![0, 0] S1x256.size inb_S1x256_S1x256_0_0).toLoadRect (harg4.unread xs0))⟩ : View.Piece (Elt F) S1x256 .f32)] (Rect.unit ![0, 0] S1x256.size inb_S1x256_S1x256_0_0).toLoadRect⟩ : View.Piece (Elt F) S1x256 .f32)] := rfl
  rw [hL, read_writes_cons_unit_zero v f off0, View.readCov_cons_toLoadRect, readAt_unread arg1 harg1 off0, readAt_unread arg4 harg4 off0]
theorem oread1_C_2 (hc0 : ¬cond1_0 i) (hc1 : cond1_1 i) :
    v.read (Elt F) (v.writes (Elt F) f (kernelRun1_C c i arg1 harg1 arg2 harg2 arg3 harg3 arg4 harg4 arg5 harg5 hc0 hc1 x0 xs0 xs1).2.1) = k1_pay5 x0 xs1 := by
  have hL : (kernelRun1_C c i arg1 harg1 arg2 harg2 arg3 harg3 arg4 harg4 arg5 harg5 hc0 hc1 x0 xs0 xs1).2.1
      = [(⟨Rect.unit ![0, 0] S1x256.size inb_S1x256_S1x256_0_0, arg5.view.readCov [(⟨Rect.unit ![0, 0] S1x256.size inb_S1x256_S1x256_0_0, k1_pay5 (View.readAt (Elt F) arg1.view (Rect.unit ![0, 0] S2048x256.size inb_S2048x256_S2048x256_0_0).toLoadRect (harg1.unread x0)) (View.readAt (Elt F) arg5.view (Rect.unit ![0, 0] S1x256.size inb_S1x256_S1x256_0_0).toLoadRect (harg5.unread xs1))⟩ : View.Piece (Elt F) S1x256 .f32)] (Rect.unit ![0, 0] S1x256.size inb_S1x256_S1x256_0_0).toLoadRect⟩ : View.Piece (Elt F) S1x256 .f32)] := rfl
  rw [hL, read_writes_cons_unit_zero v f off0, View.readCov_cons_toLoadRect, readAt_unread arg1 harg1 off0, readAt_unread arg5 harg5 off0]

end Pieces

/-! ## What the accumulators hold after each point -/

/-- The two accumulators after the body at point `n`: the block's column sums (of the entries; of their squares)
    added to the zero rows at the first point, to what the point before left afterwards. -/
def acc1 (c : Dev nD) : (n : ℕ) → n < cfg1.N → Vec F S1x256 .f32 × Vec F S1x256 .f32
  | 0, hn => (k1_pay4 (iblk1 V c 0 ⟨0, hn⟩) k1_pay1, k1_pay5 (iblk1 V c 0 ⟨0, hn⟩) k1_pay2)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) k1_pay1, k1_pay5 (iblk1 V c 0 t) k1_pay2) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl hz
  | succ n => rfl

/-! ## The region invariant -/

/-- Every scoped buffer of the core that is neither a staging buffer of this region nor one of its two accumulators
    (the other regions' staging and scratch buffers), each whole at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f))

/-- What the launch hands the region sets the two accumulators apart as memrefs owned at some contents, -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_eq]; simp only [scM1_0, scM1_1, owns_whole]; unfold others1
  iintro ⟨⟨A1, A2, A3, A4, A5, A6, A7, A8, S0, S1, B1, B2, B3, B4, B5, B6, B7, B8, B9, B10⟩, Hg⟩
  isplitr [Hg]; swap; · iexact Hg
  isplitl [S0]; · iexact S0
  isplitl [S1]; · iexact S1
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

/-- and is got back from them. -/
theorem PhiA1_join (c : Dev nD) :
    iprop(iprop((∃ d, owns (c : Thread nD τ) scM1_0 fullShare d) ∗ (∃ d, owns (c : Thread nD τ) scM1_1 fullShare d) ∗ others1 c) ∗ (∃ r, prngReg c r)) ⊢ (Pipeline.ΦA spec1 c : sProp 𝕄) := by
  unfold Pipeline.ΦA; rw [scopedRest1_eq]; simp only [scM1_0, scM1_1, owns_whole]; unfold others1
  iintro ⟨⟨S0, S1, A1, A2, A3, A4, A5, A6, A7, A8, B1, B2, B3, B4, B5, B6, B7, B8, B9, B10⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexact S0
  isplitl [S1]; · iexact S1
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

theorem PhiA1_eq (c : Dev nD) :
    (Pipeline.ΦA spec1 c : sProp 𝕄) = iprop(iprop((∃ d, owns (c : Thread nD τ) scM1_0 fullShare d) ∗ (∃ d, owns (c : Thread nD τ) scM1_1 fullShare d) ∗ others1 c) ∗ (∃ r, prngReg c r)) :=
  BI.equiv_iff.mp ⟨PhiA1_split c, PhiA1_join c⟩

/-- The region invariant before position `n`: before the first point what the launch hands over; afterwards the two
    accumulators at what the point before left in them, every other scoped buffer at some contents, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((acc1 V c n hn).1) ∗ owns (c : Thread nD τ) scM1_1 fullShare ((acc1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((acc1 V c n hn).1) ∗ owns (c : Thread nD τ) scM1_1 fullShare ((acc1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((acc1 V c (n - 1) (by omega)).1) ∗ owns (c : Thread nD τ) scM1_1 fullShare ((acc1 V c (n - 1) (by omega)).2) ∗ others1 c) ∗ (∃ r, prngReg c r)) := by
  cases n with
  | zero => exact absurd rfl hz
  | succ n => rfl

/-! ## The proof data -/

/-- The proof data of the region on core `c`: the arrays as the region finds them; after the body at point `t` the
    input's buffer at its block and the outputs' at the accumulators' contents (consulted at the last point only: at the
    others the outputs are idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the point's position says which case it is in; the
    invariant hands the body the accumulators (at anything at the first point, at what the point before left afterwards)
    and takes them back at this point's contents; the outputs are handed back untouched off the last point and hold the
    accumulators' contents at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  by_cases h1 : t.val % 8 = 7
  · have h0 : ¬t.val % 8 = 0 := by omega
    have hz : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_pos V c t hz]; (try dsimp only)
    rw [PhiS1_castSucc V c t, PhiS1_pos V c _ _ hz]
    iintro ⟨⟨⟨HS0, HS1, Hoth⟩, Hg⟩, Ho, ⟨%d0, H0⟩, ⟨%d1, H1⟩, ⟨%d2, H2⟩⟩
    iapply ((kernelRun1_C c (grid1.coords t) _ _ _ _ _ _ _ _ _ _ (fun h => h0 ((hcond1_0 t).mp h)) ((hcond1_1 t).mpr h1) (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hoth Hg]
    · isplitr [Hg]; swap; · iexact Hg
      isplitl [HS0]
      · unfold owns; iexists _; isplitr
        swap; · iexact HS0
        ipureintro; exact sread1_C_0 _ _ c ..
      isplitl [HS1]
      · unfold owns; iexists _; isplitr
        swap; · iexact HS1
        ipureintro; exact sread1_C_1 _ _ c ..
      iexact Hoth
    isplitl [Ho]; · iexact Ho
    isplitl [H0]; · iexact H0
    isplitl [H1]
    · unfold owns; iexists _; isplitr
      swap; · iexact H1
      ipureintro; exact oread1_C_1 _ _ c ..
    unfold owns; iexists _; isplitr
    swap; · iexact H2
    ipureintro; exact oread1_C_2 _ _ c ..
  · rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    by_cases h0 : t.val % 8 = 0
    · have hz : t.val = 0 := by omega
      rw [acc1_zero V c t hz]; (try dsimp only)
      rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitr [Hg]; swap; · iexact Hg
        isplitl [HS0]
        · unfold owns; iexists _; isplitr
          swap; · iexact HS0
          ipureintro; exact sread1_A_0 _ _ c ..
        isplitl [HS1]
        · unfold owns; iexists _; isplitr
          swap; · iexact HS1
          ipureintro; exact sread1_A_1 _ _ c ..
        iexact Hoth
      isplitl [Ho]; · iexact Ho
      isplitl [H0]; · iexact H0
      isplitl [H1]; · iexists _; iexact H1
      iexists _; iexact H2
    · have hz : t.val ≠ 0 := by omega
      rw [acc1_pos V c t hz]; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitr [Hg]; swap; · iexact Hg
        isplitl [HS0]
        · unfold owns; iexists _; isplitr
          swap; · iexact HS0
          ipureintro; exact sread1_B_0 _ _ c ..
        isplitl [HS1]
        · unfold owns; iexists _; isplitr
          swap; · iexact HS1
          ipureintro; exact sread1_B_1 _ _ c ..
        iexact Hoth
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulators' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitr [Hg]; swap; · iexact Hg
  isplitl [HS0]; · iexists _; iexact HS0
  isplitl [HS1]; · iexists _; iexact HS1
  iexact Hoth

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.Body2.lean ====
/-
  The third pallas_call of the graph layer (the batch normalisation applied, the leaky rectifier and the
  residual blend), as one region of the program's main function, at a PARAMETER `V`: the TensorCore's buffer
  contents when the region is entered.

  The region has seven windows over a grid of 8 × 4 points: the node features and the aggregated features,
  each in blocks of 1 × 512 × 256; four per-channel rows of shape 1 × 256 (the mean, the inverse standard
  deviation, the scale and the shift), fetched once; and the result, in blocks of 1 × 512 × 256. At every point
  the body loads the six input blocks whole, loads the output block (a value it never uses) and stores ONE
  value, a pure function of the six loads, through the whole-block rectangle. So what the body leaves in the
  output window's buffer is that function of the six input blocks at the point, each input buffer is left as
  it was found, and nothing else of the core's state is touched.

  This file states that as the pipeline's proof data and proves the body obligation at every grid point,
  for any float instance.
-/
import proofs.«111871_j84447646974566_1_alg».proof.Proof.Gen.KernelIdeal.Launch
import proofs.«111871_j84447646974566_1_alg».proof.Proof.Gen.KernelIdeal.Skeleton
import proofs.«111871_j84447646974566_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents' and whose body leaves the block in place: where the window is not
    fetched its block index has not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents' and whose body leaves the block in place: where the window is not
    fetched its block index has not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents' and whose body leaves the block in place: where the window is not
    fetched its block index has not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents' and whose body leaves the block in place: where the window is not
    fetched its block index has not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents' and whose body leaves the block in place: where the window is not
    fetched its block index has not moved, so the previous point's block is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents' and whose body leaves the block in place: where the window is not
    fetched its block index has not moved, so the previous point's block is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1 × 512 × 256 block: the rectangle of the two block loads, of the load of the output and of the store. -/
abbrev r2_blk : Rect S1x512x256 := Rect.unit (s := S1x512x256) ![0, 0, 0] S1x512x256.size inb_S1x512x256_S1x512x256_0_0_0
/-- The whole 1 × 256 row: the rectangle of the four per-channel loads. -/
abbrev r2_row : Rect S1x256 := Rect.unit (s := S1x256) ![0, 0] S1x256.size inb_S1x256_S1x256_0_0

/-! ## What the body leaves in the output window's buffer -/

/-- The output window's staging buffer after the body, from the six input windows' blocks (in the windows' order:
    the node features, the aggregated features, the mean, the inverse deviation, the scale, the shift): its one
    store as a piece, the payload applied to the loads in the order the body makes them (the aggregated features
    first, the node features last). -/
def out2_6 (x0 x1 : Vec F S1x512x256 .f32) (x2 x3 x4 x5 : Vec F S1x256 .f32) : Vec F S1x512x256 .f32 :=
  View.canon [⟨r2_blk, k2_pay1 (View.ld x1 r2_blk) (View.ld x2 r2_row) (View.ld x3 r2_row) (View.ld x4 r2_row) (View.ld x5 r2_row) (View.ld x0 r2_blk)⟩]

/-- The store's rectangle is the whole block, so it covers it. -/
theorem cover2_6 (p0 : Vec F S1x512x256 .f32) (y : S1x512x256.Idx) :
    ∃ pc ∈ ([⟨r2_blk, p0⟩] : List (View.Piece (Elt F) S1x512x256 .f32)), y ∈ pc.1.set :=
  View.cover_of_tiled [⟨r2_blk, p0⟩] S1x512x256.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords) (arg2 : Memref sig .tc .vmem S1x512x256 .f32) (harg2 : arg2.IsWhole) (arg3 : Memref sig .tc .vmem S1x512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole)
    (x0 x1 : Vec F S1x512x256 .f32) (x2 x3 x4 x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__apply_kernel i arg2 harg2 arg3 harg3 arg4 harg4 arg5 harg5 arg6 harg6 arg7 harg7 arg8 harg8) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at
    point `t` each input's buffer at its block and the output's at `out2_6` of the six input blocks; the
    invariant the core's other scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Regions.lean ====
/-
  The whole program as a list of segments: the three kernel regions and the two stretches of host operations
  between them, each entered from the buffer contents the one before left; and from it every execution's end:
  each unscoped buffer holds the last segment's contents.
-/
import proofs.«111871_j84447646974566_1_alg».proof.Proof.Body0
import proofs.«111871_j84447646974566_1_alg».proof.Proof.Body1
import proofs.«111871_j84447646974566_1_alg».proof.Proof.Body2
import proofs.«111871_j84447646974566_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the statistics' host arithmetic (the third region's entry). -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (E4 m ρ) c).arrAt_in 0 rfl _).trans (A_eq2 (E4 m ρ) c 0))
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at their exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m ρ 0 c).Φ (Fin.last _) ⊢ Pipeline.ΦA spec0 c := hout0 (E0 m ρ) c
    have h2 : (Pipeline.ΦA spec0 c : sProp 𝕄) ⊢ iprop((∃ r, prngReg c r) ∗ (BI.emp : sProp 𝕄) ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ Pipeline.ΦA spec1 c := hout1 (E2 m ρ) c
    have h2 : (Pipeline.ΦA spec1 c : sProp 𝕄) ⊢ iprop((∃ r, prngReg c r) ∗ (BI.emp : sProp 𝕄) ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at their exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Val0Pieces.lean ====
/-
  What the first region's two control cases leave, as the body's arithmetic of its loaded blocks: at a batch's
  first row tile the three scratch buffers are the features, their linear image and their squared norms; at
  every tile the output is the aggregate of the tile's rows against those three.
-/
import proofs.«111871_j84447646974566_1_alg».proof.Proof.Body0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzS : (![0, 0] : Fin 2 → Nat) = fun _ => 0 := funext fun a => by fin_cases a <;> rfl
theorem hzO : (![0, 0, 0] : Fin 3 → Nat) = fun _ => 0 := funext fun a => by fin_cases a <;> rfl

/-- The output tile as a function of the tile's rows, the features, the squared norms and the linear image. -/
def tile0 (v6 : Vec F S1x256x256 .f32) (xs0 xs1 : Vec F S2048x256 .bf16) (xs2 : Vec F S1x2048 .f32) : Vec F S1x256x256 .f32 :=
  k0_pay1 (k0_pay6 v6 xs1 xs2) xs0 (constant S256x256 .f32 0x00000000#32)

theorem sout0_A_0_eq (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) :
    sout0_A_0 c i arg2 harg2 arg3 harg3 arg4 harg4 arg5 harg5 arg6 harg6 arg7 harg7 hc0 x0 x1 = k0_pay4 x1 (k0_pay3 x0) := by
  unfold sout0_A_0
  rw [View.read_writes_eq_canon _ _ _ (scover0_A_0 c i arg2 harg2 arg3 harg3 arg4 harg4 arg5 harg5 arg6 harg6 arg7 harg7 hc0 x0 x1)]
  unfold kernelRun0_A
  dsimp only
  sl_unfold_words
  rw [View.canon_unit_zero hzS]
  simp only [View.readCov_unit_zero (S := S2048x256) _ hzS, View.readCov_unit_zero (S := S1x2048) _ hzS, View.readAt_eq_ld, Memref.IsWhole.read_unread, View.ld_unit_zero (S := S2048x256) hzS, View.ld_unit_zero (S := S256x256) hzS, View.ld_unit_zero (S := S1x2048) hzS, View.ld_unit_zero (S := S1x2048x256) hzO]

theorem sout0_A_1_eq (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) :
    sout0_A_1 c i arg2 harg2 arg3 harg3 arg4 harg4 arg5 harg5 arg6 harg6 arg7 harg7 hc0 x0 x1 = k0_pay3 x0 := by
  unfold sout0_A_1
  rw [View.read_writes_eq_canon _ _ _ (scover0_A_1 c i arg2 harg2 arg3 harg3 arg4 harg4 arg5 harg5 arg6 harg6 arg7 harg7 hc0 x0 x1)]
  unfold kernelRun0_A
  dsimp only
  sl_unfold_words
  rw [View.canon_unit_zero hzS]
  simp only [View.readCov_unit_zero (S := S2048x256) _ hzS, View.readCov_unit_zero (S := S1x2048) _ hzS, View.readAt_eq_ld, Memref.IsWhole.read_unread, View.ld_unit_zero (S := S2048x256) hzS, View.ld_unit_zero (S := S256x256) hzS, View.ld_unit_zero (S := S1x2048) hzS, View.ld_unit_zero (S := S1x2048x256) hzO]

theorem sout0_A_2_eq (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) :
    sout0_A_2 c i arg2 harg2 arg3 harg3 arg4 harg4 arg5 harg5 arg6 harg6 arg7 harg7 hc0 x0 x1 = k0_pay5 x0 := by
  unfold sout0_A_2
  rw [View.read_writes_eq_canon _ _ _ (scover0_A_2 c i arg2 harg2 arg3 harg3 arg4 harg4 arg5 harg5 arg6 harg6 arg7 harg7 hc0 x0 x1)]
  unfold kernelRun0_A
  dsimp only
  sl_unfold_words
  rw [View.canon_unit_zero hzS]
  simp only [View.readCov_unit_zero (S := S2048x256) _ hzS, View.readCov_unit_zero (S := S1x2048) _ hzS, View.readAt_eq_ld, Memref.IsWhole.read_unread, View.ld_unit_zero (S := S2048x256) hzS, View.ld_unit_zero (S := S256x256) hzS, View.ld_unit_zero (S := S1x2048) hzS, View.ld_unit_zero (S := S1x2048x256) hzO]

theorem out0_A_2_eq (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : cond0_0 i) (x0 : Vec F S1x2048x256 .f32) (x1 : Vec F S256x256 .f32) :
    out0_A_2 c i arg2 harg2 arg3 harg3 arg4 harg4 arg5 harg5 arg6 harg6 arg7 harg7 hc0 x0 x1 = tile0 (View.ld x0 (Rect.unit (s := S1x2048x256) (k0_off1 i) S1x256x256.size (k0_off1_inb i))) (k0_pay4 x1 (k0_pay3 x0)) (k0_pay3 x0) (k0_pay5 x0) := by
  unfold out0_A_2 tile0
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_unit_zero hzO]
  simp only [View.readCov_unit_zero (S := S2048x256) _ hzS, View.readCov_unit_zero (S := S1x2048) _ hzS, View.readAt_eq_ld, Memref.IsWhole.read_unread, View.ld_unit_zero (S := S2048x256) hzS, View.ld_unit_zero (S := S256x256) hzS, View.ld_unit_zero (S := S1x2048) hzS, View.ld_unit_zero (S := S1x2048x256) hzO]

theorem out0_B_2_eq (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x2048 .f32) (harg7 : arg7.IsWhole) (hc0 : ¬cond0_0 i) (x0 : Vec F S1x2048x256 .f32) (x1 : Vec F S256x256 .f32) (xs0 xs1 : Vec F S2048x256 .bf16) (xs2 : Vec F S1x2048 .f32) :
    out0_B_2 c i arg2 harg2 arg3 harg3 arg4 harg4 arg5 harg5 arg6 harg6 arg7 harg7 hc0 x0 x1 xs0 xs1 xs2 = tile0 (View.ld x0 (Rect.unit (s := S1x2048x256) (k0_off1 i) S1x256x256.size (k0_off1_inb i))) xs0 xs1 xs2 := by
  unfold out0_B_2 tile0
  rw [View.read_writes_eq_canon _ _ _ (cover0_B_2 c i arg2 harg2 arg3 harg3 arg4 harg4 arg5 harg5 arg6 harg6 arg7 harg7 hc0 x0 x1 xs0 xs1 xs2)]
  unfold kernelRun0_B
  dsimp only
  sl_unfold_words
  rw [View.canon_unit_zero hzO]
  simp only [View.readCov_unit_zero (S := S2048x256) _ hzS, View.readCov_unit_zero (S := S1x2048) _ hzS, View.readAt_eq_ld, Memref.IsWhole.read_unread, View.ld_unit_zero (S := S2048x256) hzS, View.ld_unit_zero (S := S256x256) hzS, View.ld_unit_zero (S := S1x2048) hzS, View.ld_unit_zero (S := S1x2048x256) hzO]

end Cert.KernelIdeal.Hand

end
-- ==== Proof.Spec.lean ====
/-
  The mathematics of the graph layer, stated once over the extended reals, index by index, in the two
  arrangements the two programs compute it in.

  For a batch b, a node v and a channel c, with x the node features (8 × 2048 × 256), W the linear map
  (256 × 256, rows are output channels), g and bt the normalisation's scale and shift:
    sq b v      = Σ_c x[b,v,c]²                       the squared norm of a node
    lin b v o   = Σ_c x[b,v,c] · W[o,c]               the linear image of a node
    gram b v u  = Σ_c x[b,v,c] · x[b,u,c]             the inner product of two nodes
    d² b v u    = sq v + sq u − 2 · gram v u          the squared distance, clamped below by eps
    sim b v u   = 2 / (exp (√d²) + 1)
    graph b v u = sim / max (Σ_u sim) eps             the row-normalised similarity
    agg b v c   = Σ_u graph b v u · lin b u c         the aggregated features
  and then a batch normalisation of agg over all 8·2048 rows, a leaky rectifier and a residual blend.
  The K forms read the statistics as (Σ agg)/N and (Σ agg²)/N − mean², and multiply by 1/√(var + ε);
  the R forms take |sim| in the row sum, read the variance as Σ (agg − mean)² / N, and divide by √(var + ε).
-/
import Idealize.ShloMosaic.PureOps.Ideal
import Idealize.ShloMosaic.Lib.ValueIdx

noncomputable section

namespace Cert.GraphSpec

open Idealize.ShloMosaic
open scoped BigOperators

/-- Node features, curried: batch, node, channel. -/
abbrev Feat : Type := Fin 8 → Fin 2048 → Fin 256 → EReal
/-- The linear map, curried: output channel, input channel. -/
abbrev Lin : Type := Fin 256 → Fin 256 → EReal
/-- A per-channel vector. -/
abbrev Chan : Type := Fin 256 → EReal

/-- The literals both programs share, as the words they are printed with. -/
def eps : EReal := Ideal.ofBits .f32 0x2B8CBCCC#32
def two : EReal := Ideal.ofBits .f32 0x40000000#32
def one : EReal := Ideal.ofBits .f32 0x3F800000#32
def zero : EReal := Ideal.ofBits .f32 0x00000000#32
def rows : EReal := Ideal.ofBits .f32 0x46800000#32
def bnEps : EReal := Ideal.ofBits .f32 0x3727C5AC#32
def slope : EReal := Ideal.ofBits .f32 0x3DCCCCCD#32
def keep : EReal := Ideal.ofBits .f32 0x3F666666#32

/-- An array of shape 8 × 2048 × 256 as curried features, and back. -/
def cur3 (a : (⟨3, ![8, 2048, 256]⟩ : Shape).Idx → EReal) : Feat := fun b v c => a (ValueIdx.ix3 b v c)
def unc3 (f : Feat) : (⟨3, ![8, 2048, 256]⟩ : Shape).Idx → EReal := fun i => f (i 0) (i 1) (i 2)
def cur2 (a : (⟨2, ![256, 256]⟩ : Shape).Idx → EReal) : Lin := fun o c => a (ValueIdx.ix2 o c)
def cur1 (a : (⟨1, ![256]⟩ : Shape).Idx → EReal) : Chan := fun c => a (ValueIdx.ix1 c)

section
variable (x : Feat) (W : Lin) (g bt : Chan)

def sq (b : Fin 8) (v : Fin 2048) : EReal := ∑ c : Fin 256, x b v c * x b v c
def lin (b : Fin 8) (v : Fin 2048) (o : Fin 256) : EReal := ∑ c : Fin 256, x b v c * W o c
def gram (b : Fin 8) (v u : Fin 2048) : EReal := ∑ c : Fin 256, x b v c * x b u c

/-- The leaky rectifier as both programs spell it: a comparison against zero choosing z or slope · z. -/
def leaky (z : EReal) : EReal := Scalar.select (Ideal.cmp .oge z zero) z (slope * z)

/-! ### The kernel's arrangement -/

def simK (b : Fin 8) (v u : Fin 2048) : EReal :=
  Ideal.div two (Ideal.exp (Ideal.sqrt (max ((sq x b v + sq x b u) - two * gram x b v u) eps)) + one)
def graphK (b : Fin 8) (v u : Fin 2048) : EReal :=
  Ideal.div (simK x b v u) (max (∑ u' : Fin 2048, simK x b v u') eps)
def aggK (b : Fin 8) (v : Fin 2048) (c : Fin 256) : EReal := ∑ u : Fin 2048, graphK x b v u * lin x W b u c
def meanK (c : Fin 256) : EReal := Ideal.div (∑ b : Fin 8, ∑ v : Fin 2048, aggK x W b v c) rows
def varK (c : Fin 256) : EReal :=
  Ideal.div (∑ b : Fin 8, ∑ v : Fin 2048, aggK x W b v c * aggK x W b v c) rows - meanK x W c * meanK x W c
def invK (c : Fin 256) : EReal := Ideal.div one (Ideal.sqrt (varK x W c + bnEps))
def normK (b : Fin 8) (v : Fin 2048) (c : Fin 256) : EReal :=
  ((aggK x W b v c - meanK x W c) * invK x W c) * g c + bt c
def outK (b : Fin 8) (v : Fin 2048) (c : Fin 256) : EReal :=
  keep * x b v c + slope * leaky (normK x W g bt b v c)

/-! ### The reference's arrangement -/

def simR (b : Fin 8) (v u : Fin 2048) : EReal :=
  Ideal.div two (Ideal.exp (Ideal.sqrt (max eps ((sq x b u + sq x b v) - two * gram x b v u))) + one)
def graphR (b : Fin 8) (v u : Fin 2048) : EReal :=
  Ideal.div (simR x b v u) (max eps (∑ u' : Fin 2048, max (simR x b v u') (-(simR x b v u'))))
def aggR (b : Fin 8) (v : Fin 2048) (c : Fin 256) : EReal := ∑ u : Fin 2048, graphR x b v u * lin x W b u c
def meanR (c : Fin 256) : EReal := Ideal.div (∑ b : Fin 8, ∑ v : Fin 2048, aggR x W b v c) rows
def varR (c : Fin 256) : EReal :=
  Ideal.div (∑ b : Fin 8, ∑ v : Fin 2048, (aggR x W b v c - meanR x W c) * (aggR x W b v c - meanR x W c)) rows
def normR (b : Fin 8) (v : Fin 2048) (c : Fin 256) : EReal :=
  (Ideal.div (aggR x W b v c - meanR x W c) (Ideal.sqrt (varR x W c + bnEps))) * g c + bt c
def outR (b : Fin 8) (v : Fin 2048) (c : Fin 256) : EReal :=
  keep * x b v c + slope * leaky (normR x W g bt b v c)

end

end Cert.GraphSpec

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibTransposedColumn.lean ====
/-
  A column of row statistics turned into a row, a shape cast that changes nothing, a row sum, and a product of two
  matrices along their rows, each read at an index given by coordinates. Independent of any program.

  * `shapeCast_same_apply` — a shape cast between equal shapes reads the operand at the same index.
  * `transposedColumn_apply` — a vector `[a]` kept as the column `[a, 1]` and then transposed to the row `[1, a]`
    holds, at `(u, i)`, the vector's entry `i`.
  * `lift_row`, `multiReduction_add_row` — a sum over the columns of an `[m, n]` array of extended reals, read at
    row `p`, is the sum over `k : Fin n` of the entries `(p, k)`.
  * `matmul_rows_rows_apply` — a product `[a, n] · [b, n]` with BOTH operands contracted along their last axis,
    into the zero accumulator, read at `(p, c)`, is the sum over `k : Fin n` of the left factor at `(p, k)` times the
    right factor at `(c, k)`: row `p` of the one against row `c` of the other. The contracted coordinates follow
    from which axes are contracted; the kept ones (`hl0`, `hr0`) are the caller's (they compute on a literal record).
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TransposedColumn

open Idealize.ShloMosaic Idealize.ShloMosaic.ValueIdx

variable {α : Type}

/-- A shape cast between equal shapes reads the operand at the same index: the row-major position is the same. -/
theorem shapeCast_same_apply {s : Shape} (x : s.Idx → α) (h : s.ShapeCasts s) (j : s.Idx) :
    shapeCast s x h j = x j :=
  shapeCast_apply x h j j rfl

/-- A vector `[a]` kept as the column `[a, 1]` and transposed to the row `[1, a]` holds, at `(u, i)`, entry `i`. -/
theorem transposedColumn_apply {a : ℕ} (x : (⟨1, ![a]⟩ : Shape).Idx → α)
    (hc : (⟨1, ![a]⟩ : Shape).ShapeCasts ⟨2, ![a, 1]⟩)
    (ht : (⟨2, ![a, 1]⟩ : Shape).Transposes [1, 0] ⟨2, ![1, a]⟩) (u : Fin 1) (i : Fin a) :
    transpose ⟨2, ![1, a]⟩ [1, 0] (shapeCast ⟨2, ![a, 1]⟩ x hc) ht (ix2 u i) = x (ix1 i) := by
  refine (transpose_ix2_apply (shapeCast ⟨2, ![a, 1]⟩ x hc) ht u i).trans ?_
  exact shapeCast_apply x hc _ _ (by
    have hu : u.val = 0 := by omega
    rw [Shape.rowMajor_val_two, Shape.rowMajor_val_one]
    show i.val = i.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A rows-by-rows product `[a, n] · [b, n]` into the zero accumulator, read at `(p, c)`: the sum over the shared
    last axis of row `p` of the left factor against row `c` of the right one. -/
theorem matmul_rows_rows_apply {a n b : ℕ} (d : DotDims ⟨2, ![a, n]⟩ ⟨2, ![b, n]⟩ ⟨2, ![a, b]⟩)
    (hr : d.contr.rank = 1) (hs : d.contr.size ⟨0, by omega⟩ = n)
    (hlc : d.lhsContracting = [1]) (hrc : d.rhsContracting = [1])
    (hl0 : ∀ (i : (⟨2, ![a, b]⟩ : Shape).Idx) (q : d.contr.Idx), (d.lhsIdx i q 0).val = (i 0).val)
    (hr0 : ∀ (i : (⟨2, ![a, b]⟩ : Shape).Idx) (q : d.contr.Idx), (d.rhsIdx i q 0).val = (i 1).val)
    {φ₁ φ₂ : FTy} (prec : Option ContractPrecision) (lhs : FVec Ideal ⟨2, ![a, n]⟩ φ₁) (rhs : FVec Ideal ⟨2, ![b, n]⟩ φ₂)
    (p : Fin a) (c : Fin b) :
    FloatOps.matmul d prec lhs rhs (constant ⟨2, ![a, b]⟩ .f32 0x00000000#32) (ix2 p c)
      = ∑ k : Fin n, lhs (ix2 p k) * rhs (ix2 c k) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 c k := by
    funext ax; apply Fin.ext
    match ax with
    | ⟨0, _⟩ => exact hr0 _ _
    | ⟨1, _⟩ => exact (d.rhsIdx_val_of_single hrc _ _).trans hk
  rw [hL, hR]

end Cert.TransposedColumn

end
-- ==== Proof.Val0Tile.lean ====
/-
  The first kernel's arithmetic, read at an index on the extended reals.

  The body's stored values are pure functions of the values it loads: the feature block without its unit batch axis
  (its change of format is the identity), the linear image `h[v, o] = Σ_c x[v, c] · W[o, c]`, the row of squared norms
  `Σ_c x[v, c]²`, the tile's row-normalised similarity block and the output tile `Σ_u graph[q, u] · h[u, c]`.
  Each is read here at an index given by coordinates, operation by operation: a pointwise operation reads its
  operands at the same index, a cast that adds or drops a unit axis keeps the row-major position, a kept column
  broadcast along the rows reads the column's entry, a row broadcast down the rows reads the row's entry, a row sum is
  the `Fin`-indexed sum over the row, and a matrix product into the zero accumulator is the sum over the one
  contracted coordinate. No finiteness is used: every step is an equation between extended reals.

  The last theorem, `tile_apply`, says that when the tile's 256 feature rows are rows `r0 .. r0 + 255` of the
  feature block, entry `(0, q, c)` of the output tile is `aggK` of node `r0 + q` at channel `c` for the features read
  at that batch: `Σ_u graphK v u · lin u c` with `graphK = simK / max (Σ_u simK) eps` and
  `simK = 2 / (exp √(max ((sq v + sq u) − 2 · gram v u) eps) + 1)`.
-/
import proofs.«111871_j84447646974566_1_alg».proof.Proof.Gen.KernelIdeal.Skeleton
import proofs.«111871_j84447646974566_1_alg».proof.Proof.Spec
import proofs.«111871_j84447646974566_1_alg».proof.Proof.LibRowSoftmax
import proofs.«111871_j84447646974566_1_alg».proof.Proof.LibTransposedColumn
import Idealize.ShloMosaic.Lib.ValueLayout

noncomputable section

open scoped BigOperators

namespace Cert.KernelIdeal.HandValue

open Idealize.ShloMosaic Idealize.ShloMosaic.ValueIdx Cert.KernelIdeal Cert.KernelIdeal.Gen
open Cert.TransposedColumn

/-- The feature block without its unit batch axis. -/
theorem k0_pay2_apply (x0 : Vec Ideal S1x2048x256 .f32) (v : Fin 2048) (c : Fin 256) :
    k0_pay2 x0 (ix2 v c) = x0 (ix3 (0 : Fin 1) v c) :=
  shapeCast_1ab_ab_apply x0 shapeCasts_S1x2048x256_S2048x256 v c

/-- The stored features: a change of format is the identity on extended reals. -/
theorem k0_pay3_apply (x0 : Vec Ideal S1x2048x256 .f32) (v : Fin 2048) (c : Fin 256) :
    k0_pay3 x0 (ix2 v c) = x0 (ix3 (0 : Fin 1) v c) :=
  (shapeCast_same_apply (truncf .bf16 (k0_pay2 x0) bitsLt_bf16_f32) shapeCasts_S2048x256_S2048x256 (ix2 v c)).trans
    (k0_pay2_apply x0 v c)

/-- The linear image: entry `(v, o)` is the sum over the input channels of feature times weight. -/
theorem k0_pay4_apply (x1 : Vec Ideal S256x256 .f32) (xb : Vec Ideal S2048x256 .bf16) (v : Fin 2048) (o : Fin 256) :
    k0_pay4 x1 xb (ix2 v o) = ∑ c : Fin 256, xb (ix2 v c) * x1 (ix2 o c) := by
  unfold k0_pay4
  refine (shapeCast_same_apply _ shapeCasts_S2048x256_S2048x256 (ix2 v o)).trans ?_
  exact matmul_rows_rows_apply (φ₁ := .bf16) (φ₂ := .bf16) dot_S2048x256_S256x256_S2048x256_1_1_0_0_n_n rfl rfl rfl rfl
    (fun _ _ => rfl) (fun _ _ => rfl) none xb (truncf .bf16 x1 bitsLt_bf16_f32) v o

/-- The squared norms, laid out as a row: entry `(0, v)` is the sum of the squares of node `v`'s features. -/
theorem k0_pay5_apply (x0 : Vec Ideal S1x2048x256 .f32) (u : Fin 1) (v : Fin 2048) :
    k0_pay5 x0 (ix2 u v) = ∑ c : Fin 256, x0 (ix3 (0 : Fin 1) v c) * x0 (ix3 (0 : Fin 1) v c) := by
  unfold k0_pay5
  refine (shapeCast_same_apply _ shapeCasts_S1x2048_S1x2048 (ix2 u v)).trans ?_
  refine (transposedColumn_apply _ shapeCasts_S2048_S2048x1 transposes_S2048x1_p1_0_S1x2048 u v).trans ?_
  refine (multiReduction_add_row (mulf (k0_pay2 x0) (k0_pay2 x0)) 0x00000000#32 reduces_S2048x256_S2048 (.inl rfl) rfl
    v).trans ?_
  exact Finset.sum_congr rfl fun c _ => by rw [mulf_apply, k0_pay2_apply]

/-! ### The tile's similarity block -/

section Generic
variable {F : FTy → Type} [FloatOps F]

/-- The tile's own squared norms, spread along the rows of the block. -/
def tileSq (v6 : Vec F S1x256x256 .f32) : FVec F S256x2048 .f32 :=
  broadcastTo S256x2048
    (shapeCast S256x1
      (multiReduction .add [1] S256
        (mulf (shapeCast S256x256 v6 shapeCasts_S1x256x256_S256x256) (shapeCast S256x256 v6 shapeCasts_S1x256x256_S256x256))
        0x00000000#32 reduces_S256x256_S256 (.inl rfl) rfl)
      shapeCasts_S256_S256x1)
    broadcasts_S256x1_S256x2048

/-- The inner products of the tile's rows with every node's features. -/
def tileGram (v6 : Vec F S1x256x256 .f32) (v12 : Vec F S2048x256 .bf16) : FVec F S256x2048 .f32 :=
  matmul dot_S256x256_S2048x256_S256x2048_1_1_0_0_n_n none
    (truncf .bf16 (shapeCast S256x256 v6 shapeCasts_S1x256x256_S256x256) bitsLt_bf16_f32) v12
    (constant S256x2048 .f32 0x00000000#32)

/-- The unnormalised similarities of the tile's rows with every node. -/
def simVec (v6 : Vec F S1x256x256 .f32) (v12 : Vec F S2048x256 .bf16) (v14 : Vec F S1x2048 .f32) :
    FVec F S256x2048 .f32 :=
  divf (broadcast S256x2048 (Scalar.ofBits .f32 0x40000000#32))
    (addf
      (exp (sqrt (maximumf
        (subf (addf (tileSq v6) (broadcastTo S256x2048 v14 broadcasts_S1x2048_S256x2048))
          (mulf (broadcast S256x2048 (Scalar.ofBits .f32 0x40000000#32)) (tileGram v6 v12)))
        (broadcast S256x2048 (Scalar.ofBits .f32 0x2B8CBCCC#32)))))
      (broadcast S256x2048 (Scalar.ofBits .f32 0x3F800000#32)))

/-- The row sums of a block, kept as a column and clamped below. -/
def normCol (s : FVec F S256x2048 .f32) : FVec F S256x1 .f32 :=
  maximumf
    (shapeCast S256x1 (multiReduction .add [1] S256 s 0x00000000#32 reduces_S256x2048_S256 (.inl rfl) rfl)
      shapeCasts_S256_S256x1)
    (broadcast S256x1 (Scalar.ofBits .f32 0x2B8CBCCC#32))

/-- The body's similarity payload is the similarity block over its clamped row sums. -/
theorem k0_pay6_eq (v6 : Vec F S1x256x256 .f32) (v12 : Vec F S2048x256 .bf16) (v14 : Vec F S1x2048 .f32) :
    k0_pay6 v6 v12 v14
      = truncf .bf16
          (divf (simVec v6 v12 v14) (broadcastTo S256x2048 (normCol (simVec v6 v12 v14)) broadcasts_S256x1_S256x2048))
          bitsLt_bf16_f32 :=
  rfl

end Generic

/-- The similarity of tile row `q` with node `u`, from the tile's features `v6`, all the features `v12` and the
    row of squared norms `v14`. -/
def simOf (v6 : Vec Ideal S1x256x256 .f32) (v12 : Vec Ideal S2048x256 .bf16) (v14 : Vec Ideal S1x2048 .f32)
    (q : Fin 256) (u : Fin 2048) : EReal :=
  Ideal.div GraphSpec.two
    (Ideal.exp (Ideal.sqrt (max
      (((∑ c : Fin 256, v6 (ix3 (0 : Fin 1) q c) * v6 (ix3 (0 : Fin 1) q c)) + v14 (ix2 (0 : Fin 1) u))
        - GraphSpec.two * ∑ c : Fin 256, v6 (ix3 (0 : Fin 1) q c) * v12 (ix2 u c))
      GraphSpec.eps)) + GraphSpec.one)

theorem tileSq_apply (v6 : Vec Ideal S1x256x256 .f32) (q : Fin 256) (u : Fin 2048) :
    tileSq v6 (ix2 q u) = ∑ c : Fin 256, v6 (ix3 (0 : Fin 1) q c) * v6 (ix3 (0 : Fin 1) q c) := by
  unfold tileSq
  refine (Cert.RowSoftmax.column_broadcast_apply _ broadcasts_S256x1_S256x2048 q u).trans ?_
  refine (Cert.RowSoftmax.column_apply _ shapeCasts_S256_S256x1 q 0).trans ?_
  refine (multiReduction_add_row _ 0x00000000#32 reduces_S256x256_S256 (.inl rfl) rfl q).trans ?_
  exact Finset.sum_congr rfl fun c _ => by rw [mulf_apply, shapeCast_1ab_ab_apply]

theorem tileGram_apply (v6 : Vec Ideal S1x256x256 .f32) (v12 : Vec Ideal S2048x256 .bf16) (q : Fin 256) (u : Fin 2048) :
    tileGram v6 v12 (ix2 q u) = ∑ c : Fin 256, v6 (ix3 (0 : Fin 1) q c) * v12 (ix2 u c) := by
  unfold tileGram
  refine (matmul_rows_rows_apply (φ₁ := .bf16) (φ₂ := .bf16) dot_S256x256_S2048x256_S256x2048_1_1_0_0_n_n rfl rfl rfl rfl
    (fun _ _ => rfl) (fun _ _ => rfl) none _ v12 q u).trans ?_
  exact Finset.sum_congr rfl fun c _ => by rw [truncf_apply, shapeCast_1ab_ab_apply]

theorem sim_apply (v6 : Vec Ideal S1x256x256 .f32) (v12 : Vec Ideal S2048x256 .bf16) (v14 : Vec Ideal S1x2048 .f32)
    (q : Fin 256) (u : Fin 2048) : simVec v6 v12 v14 (ix2 q u) = simOf v6 v12 v14 q u := by
  show Ideal.div GraphSpec.two
      (Ideal.exp (Ideal.sqrt (max
        ((tileSq v6 (ix2 q u) + broadcastTo S256x2048 v14 broadcasts_S1x2048_S256x2048 (ix2 q u))
          - GraphSpec.two * tileGram v6 v12 (ix2 q u))
        GraphSpec.eps)) + GraphSpec.one) = _
  rw [tileSq_apply, broadcastTo_1b_ab_apply, tileGram_apply]
  rfl

theorem normCol_apply (s : FVec Ideal S256x2048 .f32) (q : Fin 256) (w : Fin 1) :
    normCol s (ix2 q w) = max (∑ u : Fin 2048, s (ix2 q u)) GraphSpec.eps := by
  show max (shapeCast S256x1 (multiReduction .add [1] S256 s 0x00000000#32 reduces_S256x2048_S256 (.inl rfl) rfl)
      shapeCasts_S256_S256x1 (ix2 q w)) GraphSpec.eps = _
  refine congrArg (fun t => max t GraphSpec.eps) ?_
  refine (Cert.RowSoftmax.column_apply _ shapeCasts_S256_S256x1 q w).trans ?_
  exact multiReduction_add_row s 0x00000000#32 reduces_S256x2048_S256 (.inl rfl) rfl q

/-- The similarity payload at `(q, u)`: the similarity over the clamped sum of row `q`'s similarities. -/
theorem k0_pay6_apply (v6 : Vec Ideal S1x256x256 .f32) (v12 : Vec Ideal S2048x256 .bf16) (v14 : Vec Ideal S1x2048 .f32)
    (q : Fin 256) (u : Fin 2048) :
    k0_pay6 v6 v12 v14 (ix2 q u)
      = Ideal.div (simOf v6 v12 v14 q u) (max (∑ u' : Fin 2048, simOf v6 v12 v14 q u') GraphSpec.eps) := by
  rw [k0_pay6_eq]
  show Ideal.div (simVec v6 v12 v14 (ix2 q u))
      (broadcastTo S256x2048 (normCol (simVec v6 v12 v14)) broadcasts_S256x1_S256x2048 (ix2 q u)) = _
  rw [Cert.RowSoftmax.column_broadcast_apply, normCol_apply, sim_apply]
  exact congrArg (fun t => Ideal.div (simOf v6 v12 v14 q u) (max t GraphSpec.eps))
    (Finset.sum_congr rfl fun u' _ => sim_apply v6 v12 v14 q u')

/-! ### The output tile -/

/-- The output tile: entry `(0, q, c)` is the sum over the nodes of the left block's row `q` against the right
    block's column `c`. -/
theorem k0_pay1_apply (v35 : FVec Ideal S256x2048 .bf16) (v36 : Vec Ideal S2048x256 .bf16) (w : Fin 1) (q c : Fin 256) :
    k0_pay1 (F := Ideal) v35 v36 (constant (F := Ideal) S256x256 .f32 0x00000000#32) (ix3 w q c)
      = ∑ u : Fin 2048, v35 (ix2 q u) * v36 (ix2 u c) := by
  unfold k0_pay1
  refine (shapeCast_ab_1ab_apply _ shapeCasts_S256x256_S1x256x256 w q c).trans ?_
  exact Cert.RowSoftmax.matmul_rows_cols_apply (φ₁ := .bf16) (φ₂ := .bf16)
    dot_S256x2048_S2048x256_S256x256_1_0_0_1_n_n rfl rfl rfl rfl (fun _ _ => rfl) (fun _ _ => rfl) none v35 v36 q c

/-- With the tile's rows being rows `r0 + q` of the features, the similarity is the specification's. -/
theorem simOf_eq (x0 : Vec Ideal S1x2048x256 .f32) (v6 : Vec Ideal S1x256x256 .f32)
    (r0 : ℕ) (hr0 : r0 + 256 ≤ 2048)
    (hv6 : ∀ (q c : Fin 256), v6 (ix3 (0 : Fin 1) q c) = x0 (ix3 (0 : Fin 1) ⟨r0 + q.val, by omega⟩ c))
    (q : Fin 256) (u : Fin 2048) :
    simOf v6 (k0_pay3 x0) (k0_pay5 x0) q u
      = GraphSpec.simK (fun _ v ch => x0 (ix3 (0 : Fin 1) v ch)) 0 ⟨r0 + q.val, by omega⟩ u := by
  unfold simOf GraphSpec.simK GraphSpec.sq GraphSpec.gram
  simp only [hv6, k0_pay3_apply, k0_pay5_apply]

/-- THE FIRST KERNEL'S OUTPUT TILE AT AN INDEX: with the tile's rows being rows `r0 + q` of the feature block, the
    stored entry `(0, q, c)` is the aggregated feature of node `r0 + q` at channel `c`, in the kernel's arrangement. -/
theorem tile_apply (x0 : Vec Ideal S1x2048x256 .f32) (x1 : Vec Ideal S256x256 .f32) (v6 : Vec Ideal S1x256x256 .f32)
    (r0 : ℕ) (hr0 : r0 + 256 ≤ 2048)
    (hv6 : ∀ (q c : Fin 256), v6 (ix3 (0 : Fin 1) q c) = x0 (ix3 (0 : Fin 1) ⟨r0 + q.val, by omega⟩ c))
    (q c : Fin 256) :
    k0_pay1 (F := Ideal) (k0_pay6 v6 (k0_pay3 x0) (k0_pay5 x0)) (k0_pay4 x1 (k0_pay3 x0))
        (constant (F := Ideal) S256x256 .f32 0x00000000#32) (ix3 (0 : Fin 1) q c)
      = GraphSpec.aggK (fun _ v ch => x0 (ix3 (0 : Fin 1) v ch)) (GraphSpec.cur2 x1) 0 ⟨r0 + q.val, by omega⟩ c := by
  refine (k0_pay1_apply _ _ 0 q c).trans ?_
  unfold GraphSpec.aggK
  refine Finset.sum_congr rfl fun u _ => ?_
  rw [k0_pay6_apply, k0_pay4_apply]
  unfold GraphSpec.graphK GraphSpec.lin GraphSpec.cur2
  simp only [simOf_eq x0 v6 r0 hr0 hv6, k0_pay3_apply]

end Cert.KernelIdeal.HandValue

end
-- ==== Proof.Val0.lean ====
/-
  What the first region leaves in its output array: at every index the aggregated features of the batch's
  similarity graph — each grid point writes back the block of that one function its tile covers, and the 64
  blocks tile the array.
-/
import proofs.«111871_j84447646974566_1_alg».proof.Proof.Val0Pieces
import proofs.«111871_j84447646974566_1_alg».proof.Proof.Val0Tile
import proofs.«111871_j84447646974566_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

open Cert.GraphSpec in
/-- The array the first region leaves: the aggregated features, index by index. -/
def G0 (c : Dev nD) : S8x2048x256.Idx → EReal :=
  fun i => Cert.GraphSpec.aggK (Cert.GraphSpec.cur3 (V c main_arg0)) (Cert.GraphSpec.cur2 (V c main_arg1)) (i 0) (i 1) (i 2)

/-- The printed index maps over the 64 grid points: point t is batch t / 8, row tile t % 8. -/
theorem idx_facts0 : ∀ t : Fin cfg0.N, win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0
    ∧ k0_off1 (grid0.coords t) (0 : Fin 3) = 0 ∧ k0_off1 (grid0.coords t) (1 : Fin 3) = (t.val % 8) * 256 ∧ k0_off1 (grid0.coords t) (2 : Fin 3) = 0 :=
  (by decide +kernel : ∀ t : Fin grid0.N, _)

theorem idx_onto0 : ∀ (q0 : Fin 8) (q1 : Fin 8), ∃ t : Fin cfg0.N, t.val = q0.val * 8 + q1.val :=
  fun q0 q1 => ⟨⟨q0.val * 8 + q1.val, by rw [show cfg0.N = 64 from N_0]; omega⟩, rfl⟩

/-- A batch's feature block. -/
def featB (c : Dev nD) (b : Fin 8) : Vec Ideal S1x2048x256 .f32 := fun y => V c main_arg0 (ValueIdx.ix3 b (y 1) (y 2))

theorem iblk0_0_eq (c : Dev nD) (t : Fin cfg0.N) (b : Fin 8) (hb : b.val = t.val / 8) : iblk0 V c 0 t = featB V c b := by
  obtain ⟨e0, e1, e2, -⟩ := idx_facts0 t
  funext y
  show V c main_arg0 (((cfg0.win 0).blk t).view.emb y) = V c main_arg0 (ValueIdx.ix3 b (y 1) (y 2))
  refine congrArg _ (funext fun a => Fin.ext ?_)
  match a with
  | ⟨0, _⟩ => show win0_0.index t (0 : Fin 3) * 1 + 1 * (y 0).val = b.val; have hy : (y 0).val < 1 := (y 0).isLt; omega
  | ⟨1, _⟩ => show win0_0.index t (1 : Fin 3) * 2048 + 1 * (y 1).val = (y 1).val; omega
  | ⟨2, _⟩ => show win0_0.index t (2 : Fin 3) * 256 + 1 * (y 2).val = (y 2).val; omega

theorem iblk0_1_eq (c : Dev nD) (t : Fin cfg0.N) : iblk0 V c 1 t = V c main_arg1 := by
  obtain ⟨-, -, -, e3, e4, -⟩ := idx_facts0 t
  funext y
  show V c main_arg1 (((cfg0.win 1).blk t).view.emb y) = V c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- After every point the three scratch buffers hold the linear image, the features and the squared norms of the point's batch. -/
theorem scratch0_eq (c : Dev nD) : ∀ (n : ℕ) (hn : n < cfg0.N) (b : Fin 8), b.val = n / 8 →
    (outsAt0 V c n hn).2 = (k0_pay4 (V c main_arg1) (k0_pay3 (featB V c b)), k0_pay3 (featB V c b), k0_pay5 (featB V c b)) := by
  intro n
  induction n with
  | zero =>
    intro hn b hb
    rw [show (outsAt0 V c 0 hn) = outsAt0 V c (⟨0, hn⟩ : Fin cfg0.N).val (⟨0, hn⟩ : Fin cfg0.N).isLt from rfl, outsAt0_A V c ⟨0, hn⟩ (Nat.zero_mod _)]
    rw [sout0_A_0_eq, sout0_A_1_eq, sout0_A_2_eq, iblk0_0_eq V c ⟨0, hn⟩ b hb, iblk0_1_eq V c ⟨0, hn⟩]
  | succ n ih =>
    intro hn b hb
    by_cases h0 : (n + 1) % 8 = 0
    · rw [show (outsAt0 V c (n + 1) hn) = outsAt0 V c (⟨n + 1, hn⟩ : Fin cfg0.N).val (⟨n + 1, hn⟩ : Fin cfg0.N).isLt from rfl, outsAt0_A V c ⟨n + 1, hn⟩ h0]
      rw [sout0_A_0_eq, sout0_A_1_eq, sout0_A_2_eq, iblk0_0_eq V c ⟨n + 1, hn⟩ b hb, iblk0_1_eq V c ⟨n + 1, hn⟩]
    · rw [show (outsAt0 V c (n + 1) hn) = outsAt0 V c (⟨n + 1, hn⟩ : Fin cfg0.N).val (⟨n + 1, hn⟩ : Fin cfg0.N).isLt from rfl, outsAt0_B V c ⟨n + 1, hn⟩ h0]
      have hb' : b.val = n / 8 := by omega
      exact ih (Nat.lt_of_succ_lt hn) b hb'

/-- The output tile after every point: the aggregate of the tile's rows against the batch's three scratch contents. -/
theorem out0_eq (c : Dev nD) (t : Fin cfg0.N) (b : Fin 8) (hb : b.val = t.val / 8) :
    (outsAt0 V c t.val t.isLt).1 = tile0 (View.ld (featB V c b) (Rect.unit (s := S1x2048x256) (k0_off1 (grid0.coords t)) S1x256x256.size (k0_off1_inb (grid0.coords t))))
      (k0_pay4 (V c main_arg1) (k0_pay3 (featB V c b))) (k0_pay3 (featB V c b)) (k0_pay5 (featB V c b)) := by
  by_cases h0 : t.val % 8 = 0
  · rw [outsAt0_A V c t h0, out0_A_2_eq, iblk0_0_eq V c t b hb, iblk0_1_eq V c t]
  · have hz : t.val ≠ 0 := fun h => h0 (by rw [h])
    have hN : t.val < 64 := lt_of_lt_of_eq t.isLt (show cfg0.N = 64 from N_0)
    rw [outsAt0_B V c t h0, out0_B_2_eq, iblk0_0_eq V c t b hb]
    have hs := scratch0_eq V c (t.val - 1) (Nat.lt_of_le_of_lt (Nat.sub_le _ _) t.isLt) b (by omega)
    rw [Prod.ext_iff, Prod.ext_iff] at hs
    dsimp only at hs
    rw [hs.1, hs.2.1, hs.2.2]

theorem aggK_batch (X : Cert.GraphSpec.Feat) (W : Cert.GraphSpec.Lin) (b : Fin 8) (v : Fin 2048) (ch : Fin 256) :
    Cert.GraphSpec.aggK (fun _ v' c' => X b v' c') W 0 v ch = Cert.GraphSpec.aggK X W b v ch := rfl

theorem mem_blk0_2 (t : Fin cfg0.N) (i : S8x2048x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0).slice (win0_2.rect t)).set ↔ _
  rw [View.set_slice_whole, Rect.mem_set_unit]
  exact Iff.rfl

/-- What point t writes back is block t of the aggregated features. -/
theorem flushed0_2_eq (c : Dev nD) (t : Fin cfg0.N) :
    (dat0 V c).flushed 2 t = ((cfg0.win 2).blk t).view.read (Elt Ideal) (G0 V c) := by
  have hN : t.val < 64 := lt_of_lt_of_eq t.isLt (show cfg0.N = 64 from N_0)
  show (cfg0.win 2).cut (grid0.coords t) ((dat0 V c).after 2 t) = _
  rw [after0_2, out0_eq V c t ⟨t.val / 8, by omega⟩ rfl]
  obtain ⟨-, -, -, -, -, e5, e6, e7, o0, o1, o2⟩ := idx_facts0 t
  funext j
  obtain ⟨j0, q, ch, rfl⟩ : ∃ (j0 : Fin 1) (q : Fin 256) (ch : Fin 256), j = ValueIdx.ix3 j0 q ch := ⟨j 0, j 1, j 2, ValueIdx.eq_ix3 j⟩
  obtain rfl : j0 = 0 := Subsingleton.elim _ _
  show tile0 (F := Ideal) _ _ _ _ (ValueIdx.ix3 0 q ch) = G0 V c (((cfg0.win 2).blk t).view.emb (ValueIdx.ix3 0 q ch))
  unfold tile0
  refine (Cert.KernelIdeal.HandValue.tile_apply (featB V c ⟨t.val / 8, by omega⟩) (V c main_arg1) _ ((t.val % 8) * 256) (by omega) (fun q' c' => ?_) q ch).trans ?_
  · show featB V c _ ((Rect.unit (s := S1x2048x256) (k0_off1 (grid0.coords t)) S1x256x256.size (k0_off1_inb (grid0.coords t))).emb (ValueIdx.ix3 0 q' c')) = _
    refine congrArg _ (funext fun a => Fin.ext ?_)
    match a with
    | ⟨0, _⟩ => show k0_off1 (grid0.coords t) (0 : Fin 3) + 1 * 0 = 0; omega
    | ⟨1, _⟩ => show k0_off1 (grid0.coords t) (1 : Fin 3) + 1 * q'.val = (t.val % 8) * 256 + q'.val; omega
    | ⟨2, _⟩ => show k0_off1 (grid0.coords t) (2 : Fin 3) + 1 * c'.val = c'.val; omega
  · unfold G0
    have hemb : ((cfg0.win 2).blk t).view.emb (ValueIdx.ix3 0 q ch) = ValueIdx.ix3 (⟨t.val / 8, by omega⟩ : Fin 8) (⟨(t.val % 8) * 256 + q.val, by omega⟩ : Fin 2048) ch := by
      funext a; apply Fin.ext
      match a with
      | ⟨0, _⟩ => show win0_2.index t (0 : Fin 3) * 1 + 1 * 0 = t.val / 8; omega
      | ⟨1, _⟩ => show win0_2.index t (1 : Fin 3) * 256 + 1 * q.val = (t.val % 8) * 256 + q.val; omega
      | ⟨2, _⟩ => show win0_2.index t (2 : Fin 3) * 256 + 1 * ch.val = ch.val; omega
    rw [hemb]
    exact aggK_batch (Cert.GraphSpec.cur3 (V c main_arg0)) (Cert.GraphSpec.cur2 (V c main_arg1)) ⟨t.val / 8, by omega⟩ _ ch

/-- The array the first region leaves is the aggregated features. -/
theorem final0_2 (c : Dev nD) : (dat0 (F := Ideal) V c).arrAt 2 cfg0.N = G0 V c := by
  refine (dat0 V c).arrAt_eq_of_cover 2 (G0 V c) (fun t _ => flushed0_2_eq V c t) (fun i => ?_)
  have hi0 : (i 0).val < 8 := (i 0).isLt
  have hi1 : (i 1).val < 2048 := (i 1).isLt
  have hi2 : (i 2).val < 256 := (i 2).isLt
  obtain ⟨t, ht⟩ := idx_onto0 ⟨(i 0).val, hi0⟩ ⟨(i 1).val / 256, by omega⟩
  have ht' : t.val = (i 0).val * 8 + (i 1).val / 256 := ht
  obtain ⟨-, -, -, -, -, e5, e6, e7, -⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

end Cert.KernelIdeal.Hand

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.LibRunningSum.lean ====
/-
  A running sum over the points of a grid.

  If a value starts at `z + s 0` and every later point `n + 1` adds `s (n + 1)` to what the point before left, then
  after point `n` it is `z` plus the sum of `s t` over the points `t ≤ n`, and after the last point `z` plus the sum over
  all points. Addition only needs to be commutative and associative, so this holds on the extended reals as well.
-/
import Mathlib.Algebra.BigOperators.Fin
import Mathlib.Data.Fintype.Basic

open scoped BigOperators

namespace Cert.RunningSum

/-- After point `n` the running value is `z` plus the terms of the points up to `n`. -/
theorem running_sum {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩) :
    ∀ (n : ℕ) (h : n < N), A n h = z + ∑ t ∈ Finset.univ.filter (fun t : Fin N => t.val ≤ n), s t := by
  intro n
  induction n with
  | zero =>
    intro h
    have e : Finset.univ.filter (fun t : Fin N => t.val ≤ 0) = {⟨0, h⟩} := by
      ext t
      simp only [Finset.mem_filter, Finset.mem_univ, true_and, Finset.mem_singleton, Fin.ext_iff]
      omega
    rw [h0 h, e, Finset.sum_singleton]
  | succ n ih =>
    intro h
    have e : Finset.univ.filter (fun t : Fin N => t.val ≤ n + 1)
        = insert ⟨n + 1, h⟩ (Finset.univ.filter (fun t : Fin N => t.val ≤ n)) := by
      ext t
      simp only [Finset.mem_filter, Finset.mem_univ, true_and, Finset.mem_insert, Fin.ext_iff]
      omega
    have hn : (⟨n + 1, h⟩ : Fin N) ∉ Finset.univ.filter (fun t : Fin N => t.val ≤ n) := by
      simp only [Finset.mem_filter, Finset.mem_univ, true_and]
      omega
    rw [hs n h, ih (Nat.lt_of_succ_lt h), e, Finset.sum_insert hn, add_assoc]
    exact congrArg (z + ·) (add_comm _ _)

/-- After the last point the running value is `z` plus the terms of all points. -/
theorem running_sum_last {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩)
    (n : ℕ) (h : n < N) (hlast : n + 1 = N) : A n h = z + ∑ t : Fin N, s t := by
  rw [running_sum s z A h0 hs n h]
  congr 1
  refine Finset.sum_congr (Finset.filter_true_of_mem fun t _ => ?_) fun _ _ => rfl
  have := t.isLt
  omega

end Cert.RunningSum
-- ==== Proof.Val1.lean ====
/-
  What the statistics region leaves in its two result rows, read at the extended reals: the per-channel sum over all
  8 · 2048 rows of the region's input, and the per-channel sum of squares.

  Each result row's one block is the whole row and is written back once, after the last grid point, so the row ends
  holding the accumulator's contents after that point. At the extended reals a grid point adds to each channel of the
  accumulator the sum of that channel over the point's 2048 rows (the column sum of the block), starting from the zero
  row; the eight points' column sums together are the sum over all rows.
-/
import proofs.«111871_j84447646974566_1_alg».proof.Proof.Body1
import proofs.«111871_j84447646974566_1_alg».proof.Proof.LibColumnReads
import proofs.«111871_j84447646974566_1_alg».proof.Proof.LibRunningSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## The result rows end at the accumulators' last contents (any float instance) -/

section Final

variable {F : FTy → Type} [FloatOps F]
variable (V : (c : Dev nD) → (b : Ref sig .tc) → Buf (Elt F) ((c : Thread nD τ).loc b))

/-- The accumulators after the last point, as contents of the two result rows. -/
abbrev result1_1 (c : Dev nD) : Buf (Elt F) ((c : Thread nD τ).loc main_v2_0) := (acc1 V c t1_7.val t1_7.isLt).1
abbrev result1_2 (c : Dev nD) : Buf (Elt F) ((c : Thread nD τ).loc main_v2_1) := (acc1 V c t1_7.val t1_7.isLt).2

/-- The one write-back of the first result row, at the last point, writes the first accumulator: the row's block at
    zero offsets is the row. -/
theorem flushed1_1_eq (c : Dev nD) (t : Fin cfg1.N) (hf : (cfg1.win 1).flush t = true) :
    (dat1 V c).flushed 1 t = ((cfg1.win 1).blk t).view.read (Elt F) (result1_1 V c) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1]
  have hz' : (fun a => win1_1.index t1_7 a * main_v2_0.ty.shape.size a) = fun _ => 0 := funext fun a => by fin_cases a <;> decide
  exact (Memref.read_access_unit_zero (Elt F) main_v2_0 hz' (fun a => by rw [congrFun hz' a]; simp) (result1_1 V c)).symm

/-- The same for the second result row and the second accumulator. -/
theorem flushed1_2_eq (c : Dev nD) (t : Fin cfg1.N) (hf : (cfg1.win 2).flush t = true) :
    (dat1 V c).flushed 2 t = ((cfg1.win 2).blk t).view.read (Elt F) (result1_2 V c) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2]
  have hz' : (fun a => win1_2.index t1_7 a * main_v2_1.ty.shape.size a) = fun _ => 0 := funext fun a => by fin_cases a <;> decide
  exact (Memref.read_access_unit_zero (Elt F) main_v2_1 hz' (fun a => by rw [congrFun hz' a]; simp) (result1_2 V c)).symm

/-- So the first result row ends holding the first accumulator's contents after the last point, -/
theorem final1_1_acc (c : Dev nD) : (dat1 V c).arrAt 1 cfg1.N = result1_1 V c :=
  (dat1 V c).arrAt_eq_of_cover 1 (result1_1 V c) (flushed1_1_eq V c) fun i =>
    ⟨t1_7, (flush1_1 t1_7).mpr rfl, by
      show i ∈ ((View.whole main_v2_0).slice (win1_1.rect t1_7)).set
      rw [View.set_slice_whole, Rect.mem_set_unit]
      intro a
      have h0 : (i 0 : Nat) < 1 := (i 0).isLt
      have h1 : (i 1 : Nat) < 256 := (i 1).isLt
      match a with
      | ⟨0, _⟩ => show win1_1.index t1_7 0 * win1_1.size 0 ≤ (i 0 : Nat) ∧ (i 0 : Nat) < win1_1.index t1_7 0 * win1_1.size 0 + win1_1.xsize (grid1.coords t1_7) 0
                  rw [show win1_1.index t1_7 0 * win1_1.size 0 = 0 from by decide +kernel, show win1_1.xsize (grid1.coords t1_7) 0 = 1 from by decide +kernel]; omega
      | ⟨1, _⟩ => show win1_1.index t1_7 1 * win1_1.size 1 ≤ (i 1 : Nat) ∧ (i 1 : Nat) < win1_1.index t1_7 1 * win1_1.size 1 + win1_1.xsize (grid1.coords t1_7) 1
                  rw [show win1_1.index t1_7 1 * win1_1.size 1 = 0 from by decide +kernel, show win1_1.xsize (grid1.coords t1_7) 1 = 256 from by decide +kernel]; omega⟩

/-- and the second the second's. -/
theorem final1_2_acc (c : Dev nD) : (dat1 V c).arrAt 2 cfg1.N = result1_2 V c :=
  (dat1 V c).arrAt_eq_of_cover 2 (result1_2 V c) (flushed1_2_eq V c) fun i =>
    ⟨t1_7, (flush1_2 t1_7).mpr rfl, by
      show i ∈ ((View.whole main_v2_1).slice (win1_2.rect t1_7)).set
      rw [View.set_slice_whole, Rect.mem_set_unit]
      intro a
      have h0 : (i 0 : Nat) < 1 := (i 0).isLt
      have h1 : (i 1 : Nat) < 256 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 1 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 256 from by decide +kernel]; omega⟩

end Final

/-! ## The accumulators at the extended reals -/

section Values

variable (V : (c : Dev nD) → (b : Ref sig .tc) → Buf (Elt Ideal) ((c : Thread nD τ).loc b))

/-- The region's input on core `c` (all 8 · 2048 rows by 256 channels), as an array of extended reals. -/
abbrev xin1 (c : Dev nD) : Vec Ideal S16384x256 .f32 := V c main_v1

/-- The zero rows the first point stores are zero. -/
theorem k1_pay1_apply (u : Fin 1) (j : Fin 256) : k1_pay1 (F := Ideal) (ix2 u j) = 0 := by
  unfold k1_pay1
  simp only [shapeCast_self]
  exact Ideal.ofBits_zero_f32
theorem k1_pay2_apply (u : Fin 1) (j : Fin 256) : k1_pay2 (F := Ideal) (ix2 u j) = 0 := by
  unfold k1_pay2
  simp only [shapeCast_self]
  exact Ideal.ofBits_zero_f32

/-- A point adds to channel `j` of the first accumulator the sum of the block's column `j`, -/
theorem k1_pay4_apply (x : Vec Ideal S2048x256 .f32) (a : Vec Ideal S1x256 .f32) (u : Fin 1) (j : Fin 256) :
    k1_pay4 (F := Ideal) x a (ix2 u j) = a (ix2 u j) + ∑ k : Fin 2048, x (ix2 k j) := by
  unfold k1_pay4 k1_pay3
  simp only [shapeCast_self]
  rw [addf_apply, shapeCast_a_1a_apply]
  exact congrArg (a (ix2 u j) + ·) (Cert.ColumnReads.multiReduction_add_col x _ reduces_S2048x256_S256 _ _ j)

/-- and to channel `j` of the second the sum of the squares of the block's column `j`. -/
theorem k1_pay5_apply (x : Vec Ideal S2048x256 .f32) (a : Vec Ideal S1x256 .f32) (u : Fin 1) (j : Fin 256) :
    k1_pay5 (F := Ideal) x a (ix2 u j) = a (ix2 u j) + ∑ k : Fin 2048, x (ix2 k j) * x (ix2 k j) := by
  unfold k1_pay5 k1_pay3
  simp only [shapeCast_self]
  rw [addf_apply, shapeCast_a_1a_apply]
  exact congrArg (a (ix2 u j) + ·) (Cert.ColumnReads.multiReduction_add_col (mulf x x) _ reduces_S2048x256_S256 _ _ j)

/-- Row `k` of the block at point `t` is row `2048 t + k` of the region's input. -/
theorem iblk1_apply (c : Dev nD) (t : Fin cfg1.N) (k : Fin 2048) (j : Fin 256) :
    (iblk1 V c 0 t : Vec Ideal S2048x256 .f32) (ix2 k j)
      = xin1 V c (ix2 (⟨t.val * 2048 + k.val, by have := t.isLt; have hN : cfg1.N = 8 := N_1; have := k.isLt; omega⟩ : Fin 16384) j) := by
  have hi : win1_0.index t 0 = t.val ∧ win1_0.index t 1 = 0 := by
    rcases fin_N1 t with rfl | rfl | rfl | rfl | rfl | rfl | rfl | rfl <;> decide
  unfold iblk1
  rw [View.read_apply]
  show V c main_v1 _ = V c main_v1 _
  congr 1
  funext a
  apply Fin.ext
  match a with
  | ⟨0, _⟩ => show win1_0.index t 0 * 2048 + 1 * k.val = t.val * 2048 + k.val; rw [hi.1]; omega
  | ⟨1, _⟩ => show win1_0.index t 1 * 256 + 1 * j.val = j.val; rw [hi.2]; omega

/-- Channel `j` of the first accumulator after the last point: the sum of channel `j` over all rows. -/
theorem result1_1_apply (c : Dev nD) (j : Fin 256) :
    result1_1 V c (ix2 (0 : Fin 1) j)
      = ∑ b : Fin 8, ∑ v : Fin 2048, xin1 V c (ix2 (⟨b.val * 2048 + v.val, by have := b.isLt; have := v.isLt; omega⟩ : Fin 16384) j) := by
  have h := Cert.RunningSum.running_sum_last (N := 8)
    (fun b : Fin 8 => ∑ v : Fin 2048, xin1 V c (ix2 (⟨b.val * 2048 + v.val, by have := b.isLt; have := v.isLt; omega⟩ : Fin 16384) j)) 0
    (fun n hn => (acc1 V c n (lt_of_lt_of_eq hn N_1.symm)).1 (ix2 (0 : Fin 1) j))
    (fun h => by
      show k1_pay4 (F := Ideal) (iblk1 V c 0 ⟨0, _⟩) (k1_pay1 (F := Ideal)) (ix2 (0 : Fin 1) j) = _
      rw [k1_pay4_apply, k1_pay1_apply]
      exact congrArg (0 + ·) (Finset.sum_congr rfl fun k _ => iblk1_apply V c ⟨0, _⟩ k j))
    (fun n h => by
      show k1_pay4 (F := Ideal) (iblk1 V c 0 ⟨n + 1, _⟩) (acc1 V c n _).1 (ix2 (0 : Fin 1) j) = _
      rw [k1_pay4_apply]
      exact congrArg (_ + ·) (Finset.sum_congr rfl fun k _ => iblk1_apply V c ⟨n + 1, _⟩ k j))
    7 (by decide) rfl
  rw [zero_add] at h
  exact h

/-- Channel `j` of the second accumulator after the last point: the sum of the squares of channel `j` over all rows. -/
theorem result1_2_apply (c : Dev nD) (j : Fin 256) :
    result1_2 V c (ix2 (0 : Fin 1) j)
      = ∑ b : Fin 8, ∑ v : Fin 2048, (xin1 V c (ix2 (⟨b.val * 2048 + v.val, by have := b.isLt; have := v.isLt; omega⟩ : Fin 16384) j)
          * xin1 V c (ix2 (⟨b.val * 2048 + v.val, by have := b.isLt; have := v.isLt; omega⟩ : Fin 16384) j)) := by
  have h := Cert.RunningSum.running_sum_last (N := 8)
    (fun b : Fin 8 => ∑ v : Fin 2048, (xin1 V c (ix2 (⟨b.val * 2048 + v.val, by have := b.isLt; have := v.isLt; omega⟩ : Fin 16384) j)
          * xin1 V c (ix2 (⟨b.val * 2048 + v.val, by have := b.isLt; have := v.isLt; omega⟩ : Fin 16384) j))) 0
    (fun n hn => (acc1 V c n (lt_of_lt_of_eq hn N_1.symm)).2 (ix2 (0 : Fin 1) j))
    (fun h => by
      show k1_pay5 (F := Ideal) (iblk1 V c 0 ⟨0, _⟩) (k1_pay2 (F := Ideal)) (ix2 (0 : Fin 1) j) = _
      rw [k1_pay5_apply, k1_pay2_apply]
      exact congrArg (0 + ·) (Finset.sum_congr rfl fun k _ => by rw [iblk1_apply V c ⟨0, _⟩ k j]))
    (fun n h => by
      show k1_pay5 (F := Ideal) (iblk1 V c 0 ⟨n + 1, _⟩) (acc1 V c n _).2 (ix2 (0 : Fin 1) j) = _
      rw [k1_pay5_apply]
      exact congrArg (_ + ·) (Finset.sum_congr rfl fun k _ => by rw [iblk1_apply V c ⟨n + 1, _⟩ k j]))
    7 (by decide) rfl
  rw [zero_add] at h
  exact h

/-! ## What the region leaves in its two result rows -/

/-- The first result row ends holding, at channel `i 1`, the sum of that channel over all 8 · 2048 rows of the input. -/
theorem final1_1 (c : Dev nD) : (dat1 (F := Ideal) V c).arrAt 1 cfg1.N
    = fun i : S1x256.Idx => ∑ b : Fin 8, ∑ v : Fin 2048, xin1 V c (ix2 (⟨b.val * 2048 + v.val, by have := b.isLt; have := v.isLt; omega⟩ : Fin 16384) (i 1)) := by
  rw [final1_1_acc]
  funext i
  obtain ⟨u, j, rfl⟩ : ∃ (u : Fin 1) (j : Fin 256), i = ix2 u j := ⟨i 0, i 1, eq_ix2 i⟩
  obtain rfl : u = 0 := Subsingleton.elim _ _
  exact result1_1_apply V c j

/-- The second result row ends holding, at channel `i 1`, the sum of that channel's squares over all rows. -/
theorem final1_2 (c : Dev nD) : (dat1 (F := Ideal) V c).arrAt 2 cfg1.N
    = fun i : S1x256.Idx => ∑ b : Fin 8, ∑ v : Fin 2048, (xin1 V c (ix2 (⟨b.val * 2048 + v.val, by have := b.isLt; have := v.isLt; omega⟩ : Fin 16384) (i 1))
        * xin1 V c (ix2 (⟨b.val * 2048 + v.val, by have := b.isLt; have := v.isLt; omega⟩ : Fin 16384) (i 1))) := by
  rw [final1_2_acc]
  funext i
  obtain ⟨u, j, rfl⟩ : ∃ (u : Fin 1) (j : Fin 256), i = ix2 u j := ⟨i 0, i 1, eq_ix2 i⟩
  obtain rfl : u = 0 := Subsingleton.elim _ _
  exact result1_2_apply V c j

end Values

end Cert.KernelIdeal.Hand

end
-- ==== Proof.Val2.lean ====
/-
  What the third region of the graph layer leaves in its result array, as ONE function of the arrays it reads,
  index by index, over the extended reals.

  At batch b, node v and channel ch the region computes, from the node features x, the aggregated features h and
  the four per-channel rows (mean, inverse deviation, scale, shift), each row read at (0, ch):
      keep · x[b,v,ch] + slope · leaky ((((h[b,v,ch] − mean[ch]) · inv[ch]) · scale[ch]) + shift[ch]).
  The body's one stored value is that expression of its six loaded blocks at every index of the block; the blocks
  of the two three-axis inputs sit where the output's block sits, the four rows are whole at every point, and the
  output's 8 × 4 blocks tile the array. So the array ends holding that function everywhere.
-/
import proofs.«111871_j84447646974566_1_alg».proof.Proof.Body2
import proofs.«111871_j84447646974566_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's stored value at an index -/

/-- The region's arithmetic at one element: the residual blend of the feature `x` with the leaky rectifier of the
    normalised aggregate `h` (mean `mu`, inverse deviation `inv`, scale `g`, shift `bt`). -/
def blend2 (x h mu inv g bt : EReal) : EReal :=
  Cert.GraphSpec.keep * x + Cert.GraphSpec.slope * Cert.GraphSpec.leaky ((((h - mu) * inv) * g) + bt)

/-- The stored value at (u, p, q) of the block is the blend of the loads at (0, p, q) and of the rows at (0, q):
    the leading unit axis is dropped and added back by casts, each row is broadcast over the 512 rows, and every
    other operation is pointwise. -/
theorem pay2_apply (v0 : Vec Ideal S1x512x256 .f32) (v2 v6 v10 v14 : Vec Ideal S1x256 .f32) (v23 : Vec Ideal S1x512x256 .f32)
    (u : Fin 1) (p : Fin 512) (q : Fin 256) :
    k2_pay1 v0 v2 v6 v10 v14 v23 (ix3 u p q)
      = blend2 (v23 (ix3 (0 : Fin 1) p q)) (v0 (ix3 (0 : Fin 1) p q)) (v2 (ix2 (0 : Fin 1) q)) (v6 (ix2 (0 : Fin 1) q))
          (v10 (ix2 (0 : Fin 1) q)) (v14 (ix2 (0 : Fin 1) q)) := by
  unfold k2_pay1
  simp only [shapeCast_ab_1ab_apply, addf_apply, mulf_apply, subf_apply, select_apply, cmpf_apply, broadcast_apply,
    shapeCast_1ab_ab_apply, broadcastTo_1b_ab_apply, shapeCast_self]
  rfl

/-! ## The result array as one function of the arrays the region reads -/

-- the TensorCore's buffer contents when the region is entered
variable (V : (c : Dev nD) → (b : Ref sig .tc) → Buf (Elt Ideal) ((c : Thread nD τ).loc b))

/-- The blend at every index (b, v, ch) of the 8 × 2048 × 256 array, the four rows read at (0, ch). -/
def G2_6 (a0 a1 : S8x2048x256.Idx → EReal) (a2 a3 a4 a5 : S1x256.Idx → EReal) : S8x2048x256.Idx → EReal :=
  fun i => blend2 (a0 i) (a1 i) (a2 (ix2 (0 : Fin 1) (i 2))) (a3 (ix2 (0 : Fin 1) (i 2))) (a4 (ix2 (0 : Fin 1) (i 2))) (a5 (ix2 (0 : Fin 1) (i 2)))

theorem zero3_r2 : (![0, 0, 0] : Fin 3 → Nat) = fun _ => 0 := funext fun a => by fin_cases a <;> rfl
theorem zero2_r2 : (![0, 0] : Fin 2 → Nat) = fun _ => 0 := funext fun a => by fin_cases a <;> rfl

/-- The printed index maps over the grid of 8 × 4 points, decided: the output's block index at point `t` is
    (t / 4, t % 4, 0); the two three-axis inputs move with it; the four rows stay at block (0, 0). -/
theorem idx_facts_r2 : ∀ t : Fin cfg2.N,
    (win2_6.index t (0 : Fin 3) = t.val / 4 ∧ win2_6.index t (1 : Fin 3) = t.val % 4 ∧ win2_6.index t (2 : Fin 3) = 0)
    ∧ (win2_0.index t (0 : Fin 3) = t.val / 4 ∧ win2_0.index t (1 : Fin 3) = t.val % 4 ∧ win2_0.index t (2 : Fin 3) = 0)
    ∧ (win2_1.index t (0 : Fin 3) = t.val / 4 ∧ win2_1.index t (1 : Fin 3) = t.val % 4 ∧ win2_1.index t (2 : Fin 3) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- WHAT POINT `t` WRITES BACK is block `t` of `G2_6` of the arrays as the region finds them. -/
theorem flushed2_6_eq (c : Dev nD) (t : Fin cfg2.N) :
    (dat2 V c).flushed 6 t = ((cfg2.win 6).blk t).view.read (Elt Ideal) (G2_6 (V c main_arg0) (V c main_v0) (V c main_v4) (V c main_v13) (V c main_v14) (V c main_v15)) := by
  show (cfg2.win 6).cut (grid2.coords t) ((dat2 V c).after 6 t) = _
  rw [after2_6]
  unfold out2_6
  rw [View.canon_unit_zero zero3_r2]
  simp only [View.ld_unit_zero (S := S1x512x256) zero3_r2, View.ld_unit_zero (S := S1x256) zero2_r2]
  obtain ⟨⟨o0, o1, o2⟩, ⟨a0, a1, a2⟩, ⟨b0, b1, b2⟩, ⟨c0, c1⟩, ⟨d0, d1⟩, ⟨e0, e1⟩, ⟨f0, f1⟩⟩ := idx_facts_r2 t
  funext j
  obtain ⟨u, p, q, rfl⟩ : ∃ (u : Fin 1) (p : Fin 512) (q : Fin 256), j = ix3 u p q := ⟨j 0, j 1, j 2, eq_ix3 j⟩
  have hu : u.val = 0 := by omega
  show k2_pay1 (iblk2 V c 1 t) (iblk2 V c 2 t) (iblk2 V c 3 t) (iblk2 V c 4 t) (iblk2 V c 5 t) (iblk2 V c 0 t) (ix3 u p q)
    = G2_6 (V c main_arg0) (V c main_v0) (V c main_v4) (V c main_v13) (V c main_v14) (V c main_v15) (((cfg2.win 6).blk t).view.emb (ix3 u p q))
  rw [pay2_apply]
  unfold G2_6
  have h0 : iblk2 V c 0 t (ix3 (0 : Fin 1) p q) = V c main_arg0 (((cfg2.win 6).blk t).view.emb (ix3 u p q)) := by
    show V c main_arg0 (((cfg2.win 0).blk t).view.emb (ix3 (0 : Fin 1) p q)) = _
    congr 1; funext a; apply Fin.ext
    match a with
    | ⟨0, _⟩ => show win2_0.index t (0 : Fin 3) * 1 + 1 * 0 = win2_6.index t (0 : Fin 3) * 1 + 1 * u.val; omega
    | ⟨1, _⟩ => show win2_0.index t (1 : Fin 3) * 512 + 1 * p.val = win2_6.index t (1 : Fin 3) * 512 + 1 * p.val; omega
    | ⟨2, _⟩ => show win2_0.index t (2 : Fin 3) * 256 + 1 * q.val = win2_6.index t (2 : Fin 3) * 256 + 1 * q.val; omega
  have h1 : iblk2 V c 1 t (ix3 (0 : Fin 1) p q) = V c main_v0 (((cfg2.win 6).blk t).view.emb (ix3 u p q)) := by
    show V c main_v0 (((cfg2.win 1).blk t).view.emb (ix3 (0 : Fin 1) p q)) = _
    congr 1; funext a; apply Fin.ext
    match a with
    | ⟨0, _⟩ => show win2_1.index t (0 : Fin 3) * 1 + 1 * 0 = win2_6.index t (0 : Fin 3) * 1 + 1 * u.val; omega
    | ⟨1, _⟩ => show win2_1.index t (1 : Fin 3) * 512 + 1 * p.val = win2_6.index t (1 : Fin 3) * 512 + 1 * p.val; omega
    | ⟨2, _⟩ => show win2_1.index t (2 : Fin 3) * 256 + 1 * q.val = win2_6.index t (2 : Fin 3) * 256 + 1 * q.val; omega
  have h2 : iblk2 V c 2 t (ix2 (0 : Fin 1) q) = V c main_v4 (ix2 (0 : Fin 1) (((cfg2.win 6).blk t).view.emb (ix3 u p q) 2)) := by
    show V c main_v4 (((cfg2.win 2).blk t).view.emb (ix2 (0 : Fin 1) q)) = _
    congr 1; funext a; apply Fin.ext
    match a with
    | ⟨0, _⟩ => show win2_2.index t (0 : Fin 2) * 1 + 1 * 0 = 0; omega
    | ⟨1, _⟩ => show win2_2.index t (1 : Fin 2) * 256 + 1 * q.val = win2_6.index t (2 : Fin 3) * 256 + 1 * q.val; omega
  have h3 : iblk2 V c 3 t (ix2 (0 : Fin 1) q) = V c main_v13 (ix2 (0 : Fin 1) (((cfg2.win 6).blk t).view.emb (ix3 u p q) 2)) := by
    show V c main_v13 (((cfg2.win 3).blk t).view.emb (ix2 (0 : Fin 1) q)) = _
    congr 1; funext a; apply Fin.ext
    match a with
    | ⟨0, _⟩ => show win2_3.index t (0 : Fin 2) * 1 + 1 * 0 = 0; omega
    | ⟨1, _⟩ => show win2_3.index t (1 : Fin 2) * 256 + 1 * q.val = win2_6.index t (2 : Fin 3) * 256 + 1 * q.val; omega
  have h4 : iblk2 V c 4 t (ix2 (0 : Fin 1) q) = V c main_v14 (ix2 (0 : Fin 1) (((cfg2.win 6).blk t).view.emb (ix3 u p q) 2)) := by
    show V c main_v14 (((cfg2.win 4).blk t).view.emb (ix2 (0 : Fin 1) q)) = _
    congr 1; funext a; apply Fin.ext
    match a with
    | ⟨0, _⟩ => show win2_4.index t (0 : Fin 2) * 1 + 1 * 0 = 0; omega
    | ⟨1, _⟩ => show win2_4.index t (1 : Fin 2) * 256 + 1 * q.val = win2_6.index t (2 : Fin 3) * 256 + 1 * q.val; omega
  have h5 : iblk2 V c 5 t (ix2 (0 : Fin 1) q) = V c main_v15 (ix2 (0 : Fin 1) (((cfg2.win 6).blk t).view.emb (ix3 u p q) 2)) := by
    show V c main_v15 (((cfg2.win 5).blk t).view.emb (ix2 (0 : Fin 1) q)) = _
    congr 1; funext a; apply Fin.ext
    match a with
    | ⟨0, _⟩ => show win2_5.index t (0 : Fin 2) * 1 + 1 * 0 = 0; omega
    | ⟨1, _⟩ => show win2_5.index t (1 : Fin 2) * 256 + 1 * q.val = win2_6.index t (2 : Fin 3) * 256 + 1 * q.val; omega
  rw [h0, h1, h2, h3, h4, h5]

/-- An index of the array is in point `t`'s block iff each coordinate is in the block's range on its axis. -/
theorem mem_blk2_6 (t : Fin cfg2.N) (i : S8x2048x256.Idx) :
    i ∈ ((cfg2.win 6).blk t).view.set ↔ ∀ a : Fin 3, win2_6.index t a * S1x512x256.size a ≤ (i a).val ∧ (i a).val < win2_6.index t a * S1x512x256.size a + S1x512x256.size a := by
  show i ∈ ((View.whole main_v16).slice (win2_6.rect t)).set ↔ _
  rw [View.set_slice_whole, Rect.mem_set_unit]
  exact Iff.rfl

/-- The output's blocks tile the array: the index (b, v, ch) is in the block of point 4 · b + v / 512. -/
theorem cover2_6_arr (i : S8x2048x256.Idx) :
    ∃ t : Fin cfg2.N, (cfg2.win 6).flush t = true ∧ i ∈ ((cfg2.win 6).blk t).view.set := by
  have hi0 : (i 0).val < 8 := (i 0).isLt
  have hi1 : (i 1).val < 2048 := (i 1).isLt
  have hi2 : (i 2).val < 256 := (i 2).isLt
  have hN : cfg2.N = 32 := N_2
  let t : Fin cfg2.N := ⟨4 * (i 0).val + (i 1).val / 512, by rw [hN]; omega⟩
  have ht : t.val = 4 * (i 0).val + (i 1).val / 512 := rfl
  obtain ⟨⟨o0, o1, o2⟩, -⟩ := idx_facts_r2 t
  refine ⟨t, flush2_6 t, ?_⟩
  rw [mem_blk2_6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 256 ≤ (i 2).val ∧ (i 2).val < win2_6.index t (2 : Fin 3) * 256 + 256; omega

/-- THE RESULT ARRAY after the region: `G2_6` of the arrays the region reads, as it finds them, everywhere. -/
theorem final2_6_G (c : Dev nD) : (dat2 V c).arrAt 6 cfg2.N = G2_6 (V c main_arg0) (V c main_v0) (V c main_v4) (V c main_v13) (V c main_v14) (V c main_v15) :=
  (dat2 V c).arrAt_eq_of_cover 6 (G2_6 (V c main_arg0) (V c main_v0) (V c main_v4) (V c main_v13) (V c main_v14) (V c main_v15)) (fun t _ => flushed2_6_eq V c t) cover2_6_arr

/-- The same, index by index. -/
theorem final2_6 (c : Dev nD) : (dat2 V c).arrAt 6 cfg2.N = fun i : S8x2048x256.Idx =>
    blend2 (V c main_arg0 i) (V c main_v0 i) (V c main_v4 (ix2 (0 : Fin 1) (i 2))) (V c main_v13 (ix2 (0 : Fin 1) (i 2))) (V c main_v14 (ix2 (0 : Fin 1) (i 2))) (V c main_v15 (ix2 (0 : Fin 1) (i 2))) :=
  final2_6_G V c

/-- The same at an index written by its coordinates. -/
theorem final2_6_apply (c : Dev nD) (b : Fin 8) (v : Fin 2048) (ch : Fin 256) :
    (dat2 V c).arrAt 6 cfg2.N (ix3 b v ch) =
      blend2 (V c main_arg0 (ix3 b v ch)) (V c main_v0 (ix3 b v ch)) (V c main_v4 (ix2 (0 : Fin 1) ch)) (V c main_v13 (ix2 (0 : Fin 1) ch)) (V c main_v14 (ix2 (0 : Fin 1) ch)) (V c main_v15 (ix2 (0 : Fin 1) ch)) :=
  congrFun (final2_6_G V c) (ix3 b v ch)

/-- The blend is the residual form the specification spells: keep · x + slope · leaky of the normalised value. -/
theorem blend2_eq (x h mu inv g bt : EReal) :
    blend2 x h mu inv g bt = Cert.GraphSpec.keep * x + Cert.GraphSpec.slope * Cert.GraphSpec.leaky ((((h - mu) * inv) * g) + bt) := rfl

end Cert.KernelIdeal.Hand

end
-- ==== Proof.HostVal.lean ====
/-
  The host arithmetic between the kernel's regions, read at an index over the extended reals.

  Between the first and the second region the aggregated features are reshaped from 8 × 2048 × 256 to
  16384 × 256: row b · 2048 + v of the result is node v of batch b, both being position
  (b · 2048 + v) · 256 + c in row-major order.  Between the second and the third region the two column
  sums s₀ = Σ a and s₁ = Σ a² (each 1 × 256) become the mean s₀ / N, the variance s₁ / N − mean · mean and
  the scale 1 / √(variance + ε), N and ε and 1 being literals broadcast to 1 × 256; and the scale and shift
  vectors are reshaped from 256 to 1 × 256, column c of the result being entry c.  No other buffer is
  written by either stretch.
-/
import proofs.«111871_j84447646974566_1_alg».proof.Proof.Gen.KernelIdeal.Launch
import proofs.«111871_j84447646974566_1_alg».proof.Proof.Gen.KernelIdeal.Regions
import proofs.«111871_j84447646974566_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.TcCoe
open Cert.KernelIdeal Cert.KernelIdeal.Gen Cert.GraphSpec

variable (W : Valuation τ sig (Elt Ideal))

/-! ### The reshape between the first and the second region -/

/-- Row b · 2048 + v, column c of the reshaped array is entry (b, v, c) of the operand. -/
theorem host1_v1 (b : Fin 8) (v : Fin 2048) (ch : Fin 256) :
    (StableHlo.after hostOps1 W main_v1 : S16384x256.Idx → EReal)
        (ValueIdx.ix2 (⟨b.val * 2048 + v.val, by have := b.isLt; have := v.isLt; omega⟩ : Fin 16384) ch)
      = (W main_v0 : S8x2048x256.Idx → EReal) (ValueIdx.ix3 b v ch) := by
  have e : (StableHlo.after hostOps1 W (Proc.devRef .tc main_v1) : S16384x256.Idx → EReal)
      = shapeCast S16384x256 (W (Proc.devRef .tc main_v0) : S8x2048x256.Idx → EReal)
          shapeCasts_S8x2048x256_S16384x256 := by
    dsimp only [hostOps1]; after_results <;> rfl
  refine (congrFun e _).trans ?_
  refine shapeCast_apply (s := S8x2048x256) (t := S16384x256) _ _ _ _ ?_
  rw [Shape.rowMajor_val_three, Shape.rowMajor_val_two]
  show (b.val * 2048 + v.val) * 256 + ch.val = (b.val * 2048 + v.val) * 256 + ch.val
  rfl

/-! ### The statistics between the second and the third region -/

/-- The mean: the column sum divided by the row count. -/
theorem host2_v4 (ch : Fin 256) :
    (StableHlo.after hostOps2 W main_v4 : S1x256.Idx → EReal) (ValueIdx.ix2 (0 : Fin 1) ch)
      = Ideal.div ((W main_v2_0 : S1x256.Idx → EReal) (ValueIdx.ix2 (0 : Fin 1) ch)) rows := by
  have e : (StableHlo.after hostOps2 W (Proc.devRef .tc main_v4) : S1x256.Idx → EReal)
      = Host.divf (F := Ideal) (W (Proc.devRef .tc main_v2_0))
          (broadcastInDim S1x256 ![] bcast_S_S1x256 (constant (F := Ideal) S_ .f32 0x46800000#32)) := by
    dsimp only [hostOps2]; after_results <;> rfl
  exact (congrFun e _).trans rfl

/-- The scale: one over the root of (sum of squares / N − mean · mean + ε). -/
theorem host2_v13 (ch : Fin 256) :
    (StableHlo.after hostOps2 W main_v13 : S1x256.Idx → EReal) (ValueIdx.ix2 (0 : Fin 1) ch)
      = Ideal.div one (Ideal.sqrt ((Ideal.div ((W main_v2_1 : S1x256.Idx → EReal) (ValueIdx.ix2 (0 : Fin 1) ch)) rows
          - Ideal.div ((W main_v2_0 : S1x256.Idx → EReal) (ValueIdx.ix2 (0 : Fin 1) ch)) rows
            * Ideal.div ((W main_v2_0 : S1x256.Idx → EReal) (ValueIdx.ix2 (0 : Fin 1) ch)) rows) + bnEps)) := by
  have e : (StableHlo.after hostOps2 W (Proc.devRef .tc main_v13) : S1x256.Idx → EReal)
      = Host.divf (F := Ideal)
          (broadcastInDim S1x256 ![] bcast_S_S1x256 (constant (F := Ideal) S_ .f32 0x3F800000#32))
          (Host.sqrt (F := Ideal)
            (addf
              (subf
                (Host.divf (F := Ideal) (W (Proc.devRef .tc main_v2_1))
                  (broadcastInDim S1x256 ![] bcast_S_S1x256 (constant (F := Ideal) S_ .f32 0x46800000#32)))
                (mulf
                  (Host.divf (F := Ideal) (W (Proc.devRef .tc main_v2_0))
                    (broadcastInDim S1x256 ![] bcast_S_S1x256 (constant (F := Ideal) S_ .f32 0x46800000#32)))
                  (Host.divf (F := Ideal) (W (Proc.devRef .tc main_v2_0))
                    (broadcastInDim S1x256 ![] bcast_S_S1x256 (constant (F := Ideal) S_ .f32 0x46800000#32)))))
              (broadcastInDim S1x256 ![] bcast_S_S1x256 (constant (F := Ideal) S_ .f32 0x3727C5AC#32)))) := by
    dsimp only [hostOps2]; after_results <;> rfl
  exact (congrFun e _).trans rfl

/-- The scale vector with a leading unit axis: column c is entry c. -/
theorem host2_v14 (ch : Fin 256) :
    (StableHlo.after hostOps2 W main_v14 : S1x256.Idx → EReal) (ValueIdx.ix2 (0 : Fin 1) ch)
      = (W main_arg2 : S256.Idx → EReal) (ValueIdx.ix1 ch) := by
  have e : (StableHlo.after hostOps2 W (Proc.devRef .tc main_v14) : S1x256.Idx → EReal)
      = shapeCast S1x256 (W (Proc.devRef .tc main_arg2) : S256.Idx → EReal) shapeCasts_S256_S1x256 := by
    dsimp only [hostOps2]; after_results <;> rfl
  exact (congrFun e _).trans (ValueIdx.shapeCast_a_1a_apply _ _ _ _)

/-- The shift vector with a leading unit axis: column c is entry c. -/
theorem host2_v15 (ch : Fin 256) :
    (StableHlo.after hostOps2 W main_v15 : S1x256.Idx → EReal) (ValueIdx.ix2 (0 : Fin 1) ch)
      = (W main_arg3 : S256.Idx → EReal) (ValueIdx.ix1 ch) := by
  have e : (StableHlo.after hostOps2 W (Proc.devRef .tc main_v15) : S1x256.Idx → EReal)
      = shapeCast S1x256 (W (Proc.devRef .tc main_arg3) : S256.Idx → EReal) shapeCasts_S256_S1x256 := by
    dsimp only [hostOps2]; after_results <;> rfl
  exact (congrFun e _).trans (ValueIdx.shapeCast_a_1a_apply _ _ _ _)

/-! ### What the stretches do not write -/

theorem host1_keep_v0 : StableHlo.after hostOps1 W main_v0 = W main_v0 :=
  StableHlo.after_of_writes_sub hostOps1 _ hostOps1_writes (by decide)
theorem host1_keep_arg0 : StableHlo.after hostOps1 W main_arg0 = W main_arg0 :=
  StableHlo.after_of_writes_sub hostOps1 _ hostOps1_writes (by decide)
theorem host1_keep_arg1 : StableHlo.after hostOps1 W main_arg1 = W main_arg1 :=
  StableHlo.after_of_writes_sub hostOps1 _ hostOps1_writes (by decide)
theorem host1_keep_arg2 : StableHlo.after hostOps1 W main_arg2 = W main_arg2 :=
  StableHlo.after_of_writes_sub hostOps1 _ hostOps1_writes (by decide)
theorem host1_keep_arg3 : StableHlo.after hostOps1 W main_arg3 = W main_arg3 :=
  StableHlo.after_of_writes_sub hostOps1 _ hostOps1_writes (by decide)
theorem host2_keep_v0 : StableHlo.after hostOps2 W main_v0 = W main_v0 :=
  StableHlo.after_of_writes_sub hostOps2 _ hostOps2_writes (by decide)
theorem host2_keep_arg0 : StableHlo.after hostOps2 W main_arg0 = W main_arg0 :=
  StableHlo.after_of_writes_sub hostOps2 _ hostOps2_writes (by decide)
theorem host2_keep_arg1 : StableHlo.after hostOps2 W main_arg1 = W main_arg1 :=
  StableHlo.after_of_writes_sub hostOps2 _ hostOps2_writes (by decide)
theorem host2_keep_arg2 : StableHlo.after hostOps2 W main_arg2 = W main_arg2 :=
  StableHlo.after_of_writes_sub hostOps2 _ hostOps2_writes (by decide)
theorem host2_keep_arg3 : StableHlo.after hostOps2 W main_arg3 = W main_arg3 :=
  StableHlo.after_of_writes_sub hostOps2 _ hostOps2_writes (by decide)
theorem host2_keep_v1 : StableHlo.after hostOps2 W main_v1 = W main_v1 :=
  StableHlo.after_of_writes_sub hostOps2 _ hostOps2_writes (by decide)
theorem host2_keep_v2_0 : StableHlo.after hostOps2 W main_v2_0 = W main_v2_0 :=
  StableHlo.after_of_writes_sub hostOps2 _ hostOps2_writes (by decide)
theorem host2_keep_v2_1 : StableHlo.after hostOps2 W main_v2_1 = W main_v2_1 :=
  StableHlo.after_of_writes_sub hostOps2 _ hostOps2_writes (by decide)

end Cert.KernelIdeal.HandValue

end
-- ==== Proof.KernelValue.lean ====
/-
  The kernel program's result, index by index: the third region blends each input entry with the leaky rectifier
  of the normalised aggregate; the aggregate is what the first region left; the mean and the inverse deviation are
  the host's arithmetic on the column sums the second region left, and those are sums of the aggregate and of its
  square over all rows.
-/
import proofs.«111871_j84447646974566_1_alg».proof.Proof.Regions
import proofs.«111871_j84447646974566_1_alg».proof.Proof.Val0
import proofs.«111871_j84447646974566_1_alg».proof.Proof.Val1
import proofs.«111871_j84447646974566_1_alg».proof.Proof.Val2
import proofs.«111871_j84447646974566_1_alg».proof.Proof.HostVal
import proofs.«111871_j84447646974566_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GraphSpec Cert.KernelIdeal.HandValue

variable (m : (ℓ : Loc nD τ sig) → Buf (Elt Ideal) ℓ) (ρ : Dev nD → PrngReg)

/-- The four argument arrays of core c, curried. -/
abbrev argX (c : Dev nD) : Feat := cur3 (m ((c : Thread nD τ).loc main_arg0))
abbrev argW (c : Dev nD) : Lin := cur2 (m ((c : Thread nD τ).loc main_arg1))
abbrev argG (c : Dev nD) : Chan := cur1 (m ((c : Thread nD τ).loc main_arg2))
abbrev argB (c : Dev nD) : Chan := cur1 (m ((c : Thread nD τ).loc main_arg3))

theorem W1_main_arg (c : Dev nD) : W1 m ρ c (Proc.devRef .tc main_arg0) = m ((c : Thread nD τ).loc main_arg0) :=
  (W1_arr m ρ c 0).trans (((dat0 (E0 m ρ) c).arrAt_in 0 rfl _).trans (A_eq0 (E0 m ρ) c 0))

/-- The first region's output array, before and after the later segments that do not write it. -/
theorem W1_v0 (c : Dev nD) (b : Fin 8) (v : Fin 2048) (ch : Fin 256) :
    W1 m ρ c (Proc.devRef .tc main_v0) (ValueIdx.ix3 b v ch) = aggK (argX m c) (argW m c) b v ch :=
  (congrFun ((W1_arr m ρ c 2).trans (final0_2 (E0 m ρ) c)) (ValueIdx.ix3 b v ch))
theorem W3_v0 (c : Dev nD) : W3 m ρ c (Proc.devRef .tc main_v0) = W1 m ρ c (Proc.devRef .tc main_v0) :=
  (W3_of_ne m ρ c main_v0 (by decide)).trans (host1_keep_v0 (W1 m ρ c))
theorem W4_v0 (c : Dev nD) (b : Fin 8) (v : Fin 2048) (ch : Fin 256) :
    W4 m ρ c (Proc.devRef .tc main_v0) (ValueIdx.ix3 b v ch) = aggK (argX m c) (argW m c) b v ch :=
  (congrFun ((host2_keep_v0 (W3 m ρ c)).trans (W3_v0 m ρ c)) _).trans (W1_v0 m ρ c b v ch)

/-- The flattened aggregate the second region reads. -/
theorem W2_v1 (c : Dev nD) (b : Fin 8) (v : Fin 2048) (ch : Fin 256) :
    W2 m ρ c (Proc.devRef .tc main_v1) (ValueIdx.ix2 ⟨b.val * 2048 + v.val, by omega⟩ ch) = aggK (argX m c) (argW m c) b v ch :=
  (host1_v1 (W1 m ρ c) b v ch).trans (W1_v0 m ρ c b v ch)

/-- The column sums the second region leaves. -/
theorem W3_sum (c : Dev nD) (ch : Fin 256) :
    (W3 m ρ c (Proc.devRef .tc main_v2_0) : S1x256.Idx → EReal) (ValueIdx.ix2 0 ch) = ∑ b : Fin 8, ∑ v : Fin 2048, aggK (argX m c) (argW m c) b v ch := by
  have h : (W3 m ρ c (Proc.devRef .tc main_v2_0) : S1x256.Idx → EReal)
      = fun i : S1x256.Idx => ∑ b : Fin 8, ∑ v : Fin 2048, xin1 (E2 m ρ) c (ValueIdx.ix2 (⟨b.val * 2048 + v.val, by have := b.isLt; have := v.isLt; omega⟩ : Fin 16384) (i 1)) :=
    (W3_arr m ρ c 1).trans (final1_1 (E2 m ρ) c)
  rw [h]
  show (∑ b : Fin 8, ∑ v : Fin 2048, xin1 (E2 m ρ) c (ValueIdx.ix2 (⟨b.val * 2048 + v.val, by have := b.isLt; have := v.isLt; omega⟩ : Fin 16384) ch) : EReal) = _
  exact Finset.sum_congr rfl fun b _ => Finset.sum_congr rfl fun v _ => W2_v1 m ρ c b v ch
theorem W3_sumsq (c : Dev nD) (ch : Fin 256) :
    (W3 m ρ c (Proc.devRef .tc main_v2_1) : S1x256.Idx → EReal) (ValueIdx.ix2 0 ch) = ∑ b : Fin 8, ∑ v : Fin 2048, aggK (argX m c) (argW m c) b v ch * aggK (argX m c) (argW m c) b v ch := by
  have h : (W3 m ρ c (Proc.devRef .tc main_v2_1) : S1x256.Idx → EReal)
      = fun i : S1x256.Idx => ∑ b : Fin 8, ∑ v : Fin 2048, (xin1 (E2 m ρ) c (ValueIdx.ix2 (⟨b.val * 2048 + v.val, by have := b.isLt; have := v.isLt; omega⟩ : Fin 16384) (i 1)) * xin1 (E2 m ρ) c (ValueIdx.ix2 (⟨b.val * 2048 + v.val, by have := b.isLt; have := v.isLt; omega⟩ : Fin 16384) (i 1))) :=
    (W3_arr m ρ c 2).trans (final1_2 (E2 m ρ) c)
  rw [h]
  show (∑ b : Fin 8, ∑ v : Fin 2048, (xin1 (E2 m ρ) c (ValueIdx.ix2 (⟨b.val * 2048 + v.val, by have := b.isLt; have := v.isLt; omega⟩ : Fin 16384) ch) * xin1 (E2 m ρ) c (ValueIdx.ix2 (⟨b.val * 2048 + v.val, by have := b.isLt; have := v.isLt; omega⟩ : Fin 16384) ch)) : EReal) = _
  exact Finset.sum_congr rfl fun b _ => Finset.sum_congr rfl fun v _ => by
    have h' : (W2 m ρ c (Proc.devRef .tc main_v1) : S16384x256.Idx → EReal) (ValueIdx.ix2 ⟨b.val * 2048 + v.val, by omega⟩ ch) = aggK (argX m c) (argW m c) b v ch := W2_v1 m ρ c b v ch
    exact congrArg₂ (fun p q : EReal => p * q) h' h'

/-- The host's statistics. -/
theorem W4_mean (c : Dev nD) (ch : Fin 256) : W4 m ρ c (Proc.devRef .tc main_v4) (ValueIdx.ix2 0 ch) = meanK (argX m c) (argW m c) ch := by
  rw [show W4 m ρ c (Proc.devRef .tc main_v4) (ValueIdx.ix2 0 ch) = _ from host2_v4 (W3 m ρ c) ch, W3_sum]; rfl
theorem W4_inv (c : Dev nD) (ch : Fin 256) : W4 m ρ c (Proc.devRef .tc main_v13) (ValueIdx.ix2 0 ch) = invK (argX m c) (argW m c) ch := by
  rw [show W4 m ρ c (Proc.devRef .tc main_v13) (ValueIdx.ix2 0 ch) = _ from host2_v13 (W3 m ρ c) ch, W3_sum, W3_sumsq]; rfl

theorem W3_keep_arg (c : Dev nD) (r : Ref sig .tc) (h1 : ∀ w, Pipeline.arrRef spec1 w ≠ r) (h0 : ∀ w, Pipeline.arrRef spec0 w ≠ r)
    (hk : StableHlo.after hostOps1 (W1 m ρ c) (Proc.devRef .tc r) = W1 m ρ c (Proc.devRef .tc r)) :
    W3 m ρ c (Proc.devRef .tc r) = m ((c : Thread nD τ).loc r) :=
  (W3_of_ne m ρ c r h1).trans (hk.trans (W1_of_ne m ρ c r h0))

theorem W4_scale (c : Dev nD) (ch : Fin 256) : W4 m ρ c (Proc.devRef .tc main_v14) (ValueIdx.ix2 0 ch) = argG m c ch := by
  rw [show W4 m ρ c (Proc.devRef .tc main_v14) (ValueIdx.ix2 0 ch) = _ from host2_v14 (W3 m ρ c) ch,
    W3_keep_arg m ρ c main_arg2 (by decide) (by decide) (host1_keep_arg2 (W1 m ρ c))]; rfl
theorem W4_shift (c : Dev nD) (ch : Fin 256) : W4 m ρ c (Proc.devRef .tc main_v15) (ValueIdx.ix2 0 ch) = argB m c ch := by
  rw [show W4 m ρ c (Proc.devRef .tc main_v15) (ValueIdx.ix2 0 ch) = _ from host2_v15 (W3 m ρ c) ch,
    W3_keep_arg m ρ c main_arg3 (by decide) (by decide) (host1_keep_arg3 (W1 m ρ c))]; rfl
theorem W4_x (c : Dev nD) : W4 m ρ c (Proc.devRef .tc main_arg0) = m ((c : Thread nD τ).loc main_arg0) :=
  (host2_keep_arg0 (W3 m ρ c)).trans ((W3_of_ne m ρ c main_arg0 (by decide)).trans ((host1_keep_arg0 (W1 m ρ c)).trans (W1_main_arg m ρ c)))

/-- The program's result array on core c is the kernel arrangement of the graph layer. -/
theorem kernel_value (c : Dev nD) :
    W5 m ρ c (Proc.devRef .tc main_v16) = unc3 (outK (argX m c) (argW m c) (argG m c) (argB m c)) := by
  funext i
  obtain ⟨b, v, ch, rfl⟩ : ∃ (b : Fin 8) (v : Fin 2048) (ch : Fin 256), i = ValueIdx.ix3 b v ch := ⟨i 0, i 1, i 2, ValueIdx.eq_ix3 i⟩
  refine (congrFun (W5_arr m ρ c 6) (ValueIdx.ix3 b v ch)).trans ?_
  refine (final2_6_apply (E4 m ρ) c b v ch).trans ?_
  show blend2 (W4 m ρ c (Proc.devRef .tc main_arg0) (ValueIdx.ix3 b v ch)) (W4 m ρ c (Proc.devRef .tc main_v0) (ValueIdx.ix3 b v ch))
      (W4 m ρ c (Proc.devRef .tc main_v4) (ValueIdx.ix2 0 ch)) (W4 m ρ c (Proc.devRef .tc main_v13) (ValueIdx.ix2 0 ch))
      (W4 m ρ c (Proc.devRef .tc main_v14) (ValueIdx.ix2 0 ch)) (W4 m ρ c (Proc.devRef .tc main_v15) (ValueIdx.ix2 0 ch)) = _
  rw [W4_x, W4_v0, W4_mean, W4_inv, W4_scale, W4_shift]
  rfl

end Cert.KernelIdeal.Hand

end
-- ==== Proof.RefTerm.lean ====
/-
  The reference's result as one pure term of its four argument arrays, at the ideal instance.

  Each definition below is one printed operation of @main (or of a function @main calls, written at the call
  site over the call's operands), applied to the definitions of its operands: the names follow the printed
  values (`v12` is `%12`; `clipA_v1` is `%1` of the first call of @clip, `var_v5` is `%5` of @_var,
  `where_v1` is `%1` of the @_where called inside @_var). `result` is the value @main returns.
  Operand order is the printed one throughout (a clip is `maximum (broadcast eps) x`, the similarity's
  numerator is the broadcast constant, and so on).
-/
import proofs.«111871_j84447646974566_1_alg».proof.ReferenceIdeal
import Idealize.ShloMosaic.PureOps.Ideal

noncomputable section

namespace Cert.ReferenceIdeal.RefValue

open Idealize.ShloMosaic Cert.ReferenceIdeal

variable [Facts]
open Facts₀ Facts

variable (a0 : FVec Ideal S8x2048x256 .f32) (a1 : FVec Ideal S256x256 .f32) (a2 a3 : FVec Ideal S256 .f32)

/-! ### The scalar constants, by their printed names -/

def cst : FVec Ideal S_ .f32 := constant (F := Ideal) S_ .f32 0x00000000#32
def cst_0 : FVec Ideal S_ .f32 := constant (F := Ideal) S_ .f32 0x40000000#32
def cst_1 : FVec Ideal S_ .f32 := constant (F := Ideal) S_ .f32 0x2B8CBCCC#32
def cst_2 : FVec Ideal S_ .f32 := constant (F := Ideal) S_ .f32 0x3F800000#32
def cst_3 : FVec Ideal S_ .f32 := constant (F := Ideal) S_ .f32 0x40000000#32
def cst_4 : FVec Ideal S_ .f32 := constant (F := Ideal) S_ .f32 0x00000000#32
def cst_5 : FVec Ideal S_ .f32 := constant (F := Ideal) S_ .f32 0x2B8CBCCC#32
def cst_6 : FVec Ideal S_ .f32 := constant (F := Ideal) S_ .f32 0x00000000#32
def cst_7 : FVec Ideal S_ .f32 := constant (F := Ideal) S_ .f32 0x46800000#32
def cst_8 : FVec Ideal S_ .f32 := constant (F := Ideal) S_ .f32 0x3727C5AC#32
def cst_9 : FVec Ideal S_ .f32 := constant (F := Ideal) S_ .f32 0x00000000#32
def cst_10 : FVec Ideal S_ .f32 := constant (F := Ideal) S_ .f32 0x3DCCCCCD#32
def cst_11 : FVec Ideal S_ .f32 := constant (F := Ideal) S_ .f32 0x3F666666#32
def cst_12 : FVec Ideal S_ .f32 := constant (F := Ideal) S_ .f32 0x3DCCCCCD#32
def c : IVec S_ 32 := constantI S_ 32 0#32

/-! ### The linear image, the squared norms and the squared distances -/

/-- %0: the linear image x · Wᵀ. -/
def v0 : FVec Ideal S8x2048x256 .f32 :=
  Host.dotGeneral dot_S8x2048x256_S256x256_S8x2048x256_2_1_01_0_n_n none a0 a1
/-- %1: x · x, elementwise. -/
def v1 : FVec Ideal S8x2048x256 .f32 := mulf a0 a0
/-- %2: the squared norm of each node. -/
def v2 : FVec Ideal S8x2048 .f32 := Host.reduceAdd (v1 a0) cst reducesTo_S8x2048x256_S8x2048_d2 h_S_
def v3 : FVec Ideal S8x1x2048 .f32 := broadcastInDim S8x1x2048 ![0, 2] bcast_S8x2048_S8x1x2048_0_2 (v2 a0)
def v4 : FVec Ideal S8x2048x1 .f32 := broadcastInDim S8x2048x1 ![0, 1] bcast_S8x2048_S8x2048x1_0_1 (v2 a0)
def v5 : FVec Ideal S8x2048x2048 .f32 :=
  broadcastInDim S8x2048x2048 ![0, 1, 2] bcast_S8x1x2048_S8x2048x2048_0_1_2 (v3 a0)
def v6 : FVec Ideal S8x2048x2048 .f32 :=
  broadcastInDim S8x2048x2048 ![0, 1, 2] bcast_S8x2048x1_S8x2048x2048_0_1_2 (v4 a0)
def v7 : FVec Ideal S8x2048x2048 .f32 := addf (v5 a0) (v6 a0)
/-- %8: the inner products of the nodes of one batch. -/
def v8 : FVec Ideal S8x2048x2048 .f32 :=
  Host.dotGeneral dot_S8x2048x256_S8x2048x256_S8x2048x2048_2_2_1_1_0_0 none a0 a0
def v9 : FVec Ideal S8x2048x2048 .f32 := broadcastInDim S8x2048x2048 ![] bcast_S_S8x2048x2048 cst_0
def v10 : FVec Ideal S8x2048x2048 .f32 := mulf v9 (v8 a0)
def v11 : FVec Ideal S8x2048x2048 .f32 := subf (v7 a0) (v10 a0)

/-! ### The first clip (@clip of %11 and eps), the similarity and its row sums -/

def clipA_v0 : FVec Ideal S_ .f32 := id cst_1
def clipA_v1 : FVec Ideal S8x2048x2048 .f32 := broadcastInDim S8x2048x2048 ![] bcast_S_S8x2048x2048 clipA_v0
/-- %12: max eps d². -/
def v12 : FVec Ideal S8x2048x2048 .f32 := maximumf clipA_v1 (v11 a0)
def v13 : FVec Ideal S8x2048x2048 .f32 := Host.sqrt (v12 a0)
def v14 : FVec Ideal S8x2048x2048 .f32 := Host.exp (v13 a0)
def v15 : FVec Ideal S8x2048x2048 .f32 := broadcastInDim S8x2048x2048 ![] bcast_S_S8x2048x2048 cst_2
def v16 : FVec Ideal S8x2048x2048 .f32 := addf (v14 a0) v15
def v17 : FVec Ideal S8x2048x2048 .f32 := broadcastInDim S8x2048x2048 ![] bcast_S_S8x2048x2048 cst_3
/-- %18: the similarity 2 / (exp √d² + 1). -/
def v18 : FVec Ideal S8x2048x2048 .f32 := Host.divf v17 (v16 a0)
def v19 : FVec Ideal S8x2048x2048 .f32 := Host.absf (v18 a0)
/-- %20: the row sums of |sim|. -/
def v20 : FVec Ideal S8x2048 .f32 := Host.reduceAdd (v19 a0) cst_4 reducesTo_S8x2048x2048_S8x2048_d2 h_S_
def v21 : FVec Ideal S8x2048x1 .f32 := broadcastInDim S8x2048x1 ![0, 1] bcast_S8x2048_S8x2048x1_0_1 (v20 a0)

/-! ### The second clip (@clip_0 of %21 and eps), the graph and the aggregation -/

def clipB_v0 : FVec Ideal S_ .f32 := id cst_5
def clipB_v1 : FVec Ideal S8x2048x1 .f32 := broadcastInDim S8x2048x1 ![] bcast_S_S8x2048x1 clipB_v0
/-- %22: max eps (row sum). -/
def v22 : FVec Ideal S8x2048x1 .f32 := maximumf clipB_v1 (v21 a0)
def v23 : FVec Ideal S8x2048x2048 .f32 :=
  broadcastInDim S8x2048x2048 ![0, 1, 2] bcast_S8x2048x1_S8x2048x2048_0_1_2 (v22 a0)
/-- %24: the row-normalised similarity. -/
def v24 : FVec Ideal S8x2048x2048 .f32 := Host.divf (v18 a0) (v23 a0)
/-- %25: the aggregated features graph · lin. -/
def v25 : FVec Ideal S8x2048x256 .f32 :=
  Host.dotGeneral dot_S8x2048x2048_S8x2048x256_S8x2048x256_2_1_1_2_0_0 none (v24 a0) (v0 a0 a1)
/-- %26: the same, with batch and node flattened to one row axis. -/
def v26 : FVec Ideal S16384x256 .f32 := shapeCast S16384x256 (v25 a0 a1) shapeCasts_S8x2048x256_S16384x256

/-! ### The mean -/

def v27 : FVec Ideal S256 .f32 := Host.reduceAdd (v26 a0 a1) cst_6 reducesTo_S16384x256_S256_d0 h_S_
def v28 : FVec Ideal S256 .f32 := broadcastInDim S256 ![] bcast_S_S256 cst_7
/-- %29: the per-channel mean. -/
def v29 : FVec Ideal S256 .f32 := Host.divf (v27 a0 a1) v28

/-! ### The variance (@_var of %26 and the correction %c = 0), with the @_where it calls -/

def var_cst : FVec Ideal S_ .f32 := constant (F := Ideal) S_ .f32 0x00000000#32
def var_v0 : FVec Ideal S256 .f32 := Host.reduceAdd (v26 a0 a1) var_cst reducesTo_S16384x256_S256_d0 h_S_
def var_v1 : FVec Ideal S1x256 .f32 := broadcastInDim S1x256 ![1] bcast_S256_S1x256_1 (var_v0 a0 a1)
def var_cst_0 : FVec Ideal S_ .f32 := constant (F := Ideal) S_ .f32 0x46800000#32
def var_v2 : FVec Ideal S1x256 .f32 := broadcastInDim S1x256 ![] bcast_S_S1x256 var_cst_0
def var_v3 : FVec Ideal S1x256 .f32 := Host.divf (var_v1 a0 a1) var_v2
def var_v4 : FVec Ideal S16384x256 .f32 :=
  broadcastInDim S16384x256 ![0, 1] bcast_S1x256_S16384x256_0_1 (var_v3 a0 a1)
def var_v5 : FVec Ideal S16384x256 .f32 := subf (v26 a0 a1) (var_v4 a0 a1)
def var_v6 : FVec Ideal S16384x256 .f32 := mulf (var_v5 a0 a1) (var_v5 a0 a1)
def var_v7 : FVec Ideal S_ .f32 := sitofp (F := Ideal) .f32 c
def var_cst_1 : FVec Ideal S_ .f32 := constant (F := Ideal) S_ .f32 0x46800000#32
def var_v8 : FVec Ideal S_ .f32 := subf var_cst_1 var_v7
def var_cst_2 : FVec Ideal S_ .f32 := constant (F := Ideal) S_ .f32 0x00000000#32
def var_v9 : FVec Ideal S256 .f32 := Host.reduceAdd (var_v6 a0 a1) var_cst_2 reducesTo_S16384x256_S256_d0 h_S_
def var_v10 : FVec Ideal S256 .f32 := broadcastInDim S256 ![] bcast_S_S256 var_v8
def var_v11 : FVec Ideal S256 .f32 := Host.divf (var_v9 a0 a1) var_v10
def var_cst_3 : FVec Ideal S_ .f32 := constant (F := Ideal) S_ .f32 0x00000000#32
def var_v12 : IVec S_ 1 := cmpf .ogt var_v8 var_cst_3
def var_cst_4 : FVec Ideal S_ .f32 := constant (F := Ideal) S_ .f32 0x7FC00000#32
def where_v0 : FVec Ideal S_ .f32 := id var_cst_4
def where_v1 : FVec Ideal S256 .f32 := broadcastInDim S256 ![] bcast_S_S256 where_v0
/-- %30: the per-channel variance (the select keeps the quotient when rows − correction > 0). -/
def v30 : FVec Ideal S256 .f32 :=
  select (broadcastInDim S256 ![] bcast_S_S256 var_v12) (var_v11 a0 a1) where_v1

/-! ### The normalisation -/

def v31 : FVec Ideal S1x256 .f32 := broadcastInDim S1x256 ![1] bcast_S256_S1x256_1 (v29 a0 a1)
def v32 : FVec Ideal S16384x256 .f32 := broadcastInDim S16384x256 ![0, 1] bcast_S1x256_S16384x256_0_1 (v31 a0 a1)
def v33 : FVec Ideal S16384x256 .f32 := subf (v26 a0 a1) (v32 a0 a1)
def v34 : FVec Ideal S256 .f32 := broadcastInDim S256 ![] bcast_S_S256 cst_8
def v35 : FVec Ideal S256 .f32 := addf (v30 a0 a1) v34
def v36 : FVec Ideal S256 .f32 := Host.sqrt (v35 a0 a1)
def v37 : FVec Ideal S1x256 .f32 := broadcastInDim S1x256 ![1] bcast_S256_S1x256_1 (v36 a0 a1)
def v38 : FVec Ideal S16384x256 .f32 := broadcastInDim S16384x256 ![0, 1] bcast_S1x256_S16384x256_0_1 (v37 a0 a1)
def v39 : FVec Ideal S16384x256 .f32 := Host.divf (v33 a0 a1) (v38 a0 a1)
def v40 : FVec Ideal S1x256 .f32 := broadcastInDim S1x256 ![1] bcast_S256_S1x256_1 a2
def v41 : FVec Ideal S16384x256 .f32 := broadcastInDim S16384x256 ![0, 1] bcast_S1x256_S16384x256_0_1 (v40 a2)
def v42 : FVec Ideal S16384x256 .f32 := mulf (v39 a0 a1) (v41 a2)
def v43 : FVec Ideal S1x256 .f32 := broadcastInDim S1x256 ![1] bcast_S256_S1x256_1 a3
def v44 : FVec Ideal S16384x256 .f32 := broadcastInDim S16384x256 ![0, 1] bcast_S1x256_S16384x256_0_1 (v43 a3)
def v45 : FVec Ideal S16384x256 .f32 := addf (v42 a0 a1 a2) (v44 a3)
/-- %46: the normalised features, back in batch × node × channel. -/
def v46 : FVec Ideal S8x2048x256 .f32 := shapeCast S8x2048x256 (v45 a0 a1 a2 a3) shapeCasts_S16384x256_S8x2048x256

/-! ### The leaky rectifier (with @_where_1) and the residual blend -/

def v47 : FVec Ideal S8x2048x256 .f32 := broadcastInDim S8x2048x256 ![] bcast_S_S8x2048x256 cst_9
def v48 : IVec S8x2048x256 1 := cmpf .oge (v46 a0 a1 a2 a3) v47
def v49 : FVec Ideal S8x2048x256 .f32 := broadcastInDim S8x2048x256 ![] bcast_S_S8x2048x256 cst_10
def v50 : FVec Ideal S8x2048x256 .f32 := mulf v49 (v46 a0 a1 a2 a3)
/-- %51: the rectified features. -/
def v51 : FVec Ideal S8x2048x256 .f32 := select (v48 a0 a1 a2 a3) (v46 a0 a1 a2 a3) (v50 a0 a1 a2 a3)
def v52 : FVec Ideal S8x2048x256 .f32 := broadcastInDim S8x2048x256 ![] bcast_S_S8x2048x256 cst_11
def v53 : FVec Ideal S8x2048x256 .f32 := mulf v52 a0
def v54 : FVec Ideal S8x2048x256 .f32 := broadcastInDim S8x2048x256 ![] bcast_S_S8x2048x256 cst_12
def v55 : FVec Ideal S8x2048x256 .f32 := mulf v54 (v51 a0 a1 a2 a3)
/-- %56: what @main returns. -/
def v56 : FVec Ideal S8x2048x256 .f32 := addf (v53 a0) (v55 a0 a1 a2 a3)

/-- The reference's result as a function of its four arguments. -/
def result (a0 : FVec Ideal S8x2048x256 .f32) (a1 : FVec Ideal S256x256 .f32) (a2 a3 : FVec Ideal S256 .f32) :
    FVec Ideal S8x2048x256 .f32 := v56 a0 a1 a2 a3

end Cert.ReferenceIdeal.RefValue

end
-- ==== Proof.RefOps.lean ====
/-
  The reference program as a list of operations: @main is a straight line of 97 host operations once the five
  module-local functions it calls (two clips, the variance with the select it calls, the rectifier's select)
  are written at their call sites over the calls' own buffers. This module states the list, that @main is
  the list run in order, and the list's side conditions; the run itself is read back in RefRun.
-/
import proofs.«111871_j84447646974566_1_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable [Facts]
open Facts₀ Facts

section Generic

variable {F : FTy → Type} [FloatOps F]

/-- @main's operations in order, each called function's operations standing in its call's place over that
    call's buffers (the callee's arguments are the caller's buffers at the callee's argument types). -/
abbrev ops : List (HloOp τ sig (Elt F)) :=
  [ StableHlo.binary main_arg0 main_arg1 main_v0 ((fun l r => Host.dotGeneral dot_S8x2048x256_S256x256_S8x2048x256_2_1_01_0_n_n none l r) : (⟨S8x2048x256, .f32⟩ : BufTy).Contents (Elt F) → (⟨S256x256, .f32⟩ : BufTy).Contents (Elt F) → (⟨S8x2048x256, .f32⟩ : BufTy).Contents (Elt F)),
    StableHlo.binary main_arg0 main_arg0 main_v1 (mulf : (⟨S8x2048x256, .f32⟩ : BufTy).Contents (Elt F) → (⟨S8x2048x256, .f32⟩ : BufTy).Contents (Elt F) → (⟨S8x2048x256, .f32⟩ : BufTy).Contents (Elt F)),
    StableHlo.nullary main_cst (constant S_ .f32 0x00000000#32),
    StableHlo.binary main_v1 main_cst main_v2 ((fun x v => Host.reduceAdd x v reducesTo_S8x2048x256_S8x2048_d2 h_S_) : (⟨S8x2048x256, .f32⟩ : BufTy).Contents (Elt F) → (⟨S_, .f32⟩ : BufTy).Contents (Elt F) → (⟨S8x2048, .f32⟩ : BufTy).Contents (Elt F)),
    StableHlo.unary main_v2 main_v3 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v2 main_v4 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v3 main_v5 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.unary main_v4 main_v6 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v5 main_v6 main_v7 (addf : (⟨S8x2048x2048, .f32⟩ : BufTy).Contents (Elt F) → (⟨S8x2048x2048, .f32⟩ : BufTy).Contents (Elt F) → (⟨S8x2048x2048, .f32⟩ : BufTy).Contents (Elt F)),
    StableHlo.binary main_arg0 main_arg0 main_v8 ((fun l r => Host.dotGeneral dot_S8x2048x256_S8x2048x256_S8x2048x2048_2_2_1_1_0_0 none l r) : (⟨S8x2048x256, .f32⟩ : BufTy).Contents (Elt F) → (⟨S8x2048x256, .f32⟩ : BufTy).Contents (Elt F) → (⟨S8x2048x2048, .f32⟩ : BufTy).Contents (Elt F)),
    StableHlo.nullary main_cst_0 (constant S_ .f32 0x40000000#32),
    StableHlo.unary main_cst_0 main_v9 (broadcastInDim S8x2048x2048 ![] bcast_S_S8x2048x2048 : (⟨S_, .f32⟩ : BufTy).Contents (Elt F) → (⟨S8x2048x2048, .f32⟩ : BufTy).Contents (Elt F)),
    StableHlo.binary main_v9 main_v8 main_v10 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_v7 main_v10 main_v11 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_1 (constant S_ .f32 0x2B8CBCCC#32),
    StableHlo.TRef.unary (StableHlo.TRef.of main_cst_1 : StableHlo.TRef sig ⟨S_, .f32⟩) main_call0.v0 id,
    StableHlo.TRef.unary main_call0.v0 main_call0.v1 (broadcastInDim S8x2048x2048 ![] bcast_S_S8x2048x2048),
    StableHlo.TRef.binary main_call0.v1 (StableHlo.TRef.of main_v11 : StableHlo.TRef sig ⟨S8x2048x2048, .f32⟩) main_call0.v2 maximumf,
    StableHlo.unary main_v12 main_v13 (Host.sqrt : (⟨S8x2048x2048, .f32⟩ : BufTy).Contents (Elt F) → (⟨S8x2048x2048, .f32⟩ : BufTy).Contents (Elt F)),
    StableHlo.unary main_v13 main_v14 (Host.exp : (⟨S8x2048x2048, .f32⟩ : BufTy).Contents (Elt F) → (⟨S8x2048x2048, .f32⟩ : BufTy).Contents (Elt F)),
    StableHlo.nullary main_cst_2 (constant S_ .f32 0x3F800000#32),
    StableHlo.unary main_cst_2 main_v15 (broadcastInDim S8x2048x2048 ![] bcast_S_S8x2048x2048 : (⟨S_, .f32⟩ : BufTy).Contents (Elt F) → (⟨S8x2048x2048, .f32⟩ : BufTy).Contents (Elt F)),
    StableHlo.binary main_v14 main_v15 main_v16 (addf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_3 (constant S_ .f32 0x40000000#32),
    StableHlo.unary main_cst_3 main_v17 (broadcastInDim S8x2048x2048 ![] bcast_S_S8x2048x2048 : (⟨S_, .f32⟩ : BufTy).Contents (Elt F) → (⟨S8x2048x2048, .f32⟩ : BufTy).Contents (Elt F)),
    StableHlo.binary main_v17 main_v16 main_v18 (Host.divf : (⟨S8x2048x2048, .f32⟩ : BufTy).Contents (Elt F) → (⟨S8x2048x2048, .f32⟩ : BufTy).Contents (Elt F) → (⟨S8x2048x2048, .f32⟩ : BufTy).Contents (Elt F)),
    StableHlo.unary main_v18 main_v19 (Host.absf : (⟨S8x2048x2048, .f32⟩ : BufTy).Contents (Elt F) → (⟨S8x2048x2048, .f32⟩ : BufTy).Contents (Elt F)),
    StableHlo.nullary main_cst_4 (constant S_ .f32 0x00000000#32),
    StableHlo.binary main_v19 main_cst_4 main_v20 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    StableHlo.unary main_v20 main_v21 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_5 (constant S_ .f32 0x2B8CBCCC#32),
    StableHlo.TRef.unary (StableHlo.TRef.of main_cst_5 : StableHlo.TRef sig ⟨S_, .f32⟩) main_call1.v0 id,
    StableHlo.TRef.unary main_call1.v0 main_call1.v1 (broadcastInDim S8x2048x1 ![] bcast_S_S8x2048x1),
    StableHlo.TRef.binary main_call1.v1 (StableHlo.TRef.of main_v21 : StableHlo.TRef sig ⟨S8x2048x1, .f32⟩) main_call1.v2 maximumf,
    StableHlo.unary main_v22 main_v23 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v18 main_v23 main_v24 (Host.divf : (⟨S8x2048x2048, .f32⟩ : BufTy).Contents (Elt F) → (⟨S8x2048x2048, .f32⟩ : BufTy).Contents (Elt F) → (⟨S8x2048x2048, .f32⟩ : BufTy).Contents (Elt F)),
    StableHlo.binary main_v24 main_v0 main_v25 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    StableHlo.reshape main_v25 main_v26 rfl shapeCasts_S8x2048x256_S16384x256,
    StableHlo.nullary main_cst_6 (constant S_ .f32 0x00000000#32),
    StableHlo.binary main_v26 main_cst_6 main_v27 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_7 (constant S_ .f32 0x46800000#32),
    StableHlo.unary main_cst_7 main_v28 (broadcastInDim S256 ![] bcast_S_S256 : (⟨S_, .f32⟩ : BufTy).Contents (Elt F) → (⟨S256, .f32⟩ : BufTy).Contents (Elt F)),
    StableHlo.binary main_v27 main_v28 main_v29 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call2.cst (constant S_ .f32 0x00000000#32),
    StableHlo.TRef.binary (StableHlo.TRef.of main_v26 : StableHlo.TRef sig ⟨S16384x256, .f32⟩) main_call2.cst main_call2.v0 (fun x v => Host.reduceAdd x v reducesTo_S16384x256_S256_d0 h_S_),
    StableHlo.TRef.unary main_call2.v0 main_call2.v1 (broadcastInDim S1x256 ![1] bcast_S256_S1x256_1),
    StableHlo.TRef.nullary main_call2.cst_0 (constant S_ .f32 0x46800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S16384x256 ![0, 1] bcast_S1x256_S16384x256_0_1),
    StableHlo.TRef.binary (StableHlo.TRef.of main_v26 : StableHlo.TRef sig ⟨S16384x256, .f32⟩) main_call2.v4 main_call2.v5 subf,
    StableHlo.TRef.binary main_call2.v5 main_call2.v5 main_call2.v6 mulf,
    StableHlo.TRef.unary (StableHlo.TRef.of main_c : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v29 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S16384x256 ![0, 1] bcast_S1x256_S16384x256_0_1 : (⟨S1x256, .f32⟩ : BufTy).Contents (Elt F) → (⟨S16384x256, .f32⟩ : BufTy).Contents (Elt F)),
    StableHlo.binary main_v26 main_v32 main_v33 (subf : (⟨S16384x256, .f32⟩ : BufTy).Contents (Elt F) → (⟨S16384x256, .f32⟩ : BufTy).Contents (Elt F) → (⟨S16384x256, .f32⟩ : BufTy).Contents (Elt F)),
    StableHlo.nullary main_cst_8 (constant S_ .f32 0x3727C5AC#32),
    StableHlo.unary main_cst_8 main_v34 (broadcastInDim S256 ![] bcast_S_S256 : (⟨S_, .f32⟩ : BufTy).Contents (Elt F) → (⟨S256, .f32⟩ : BufTy).Contents (Elt F)),
    StableHlo.binary main_v30 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.sqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S16384x256 ![0, 1] bcast_S1x256_S16384x256_0_1 : (⟨S1x256, .f32⟩ : BufTy).Contents (Elt F) → (⟨S16384x256, .f32⟩ : BufTy).Contents (Elt F)),
    StableHlo.binary main_v33 main_v38 main_v39 (Host.divf : (⟨S16384x256, .f32⟩ : BufTy).Contents (Elt F) → (⟨S16384x256, .f32⟩ : BufTy).Contents (Elt F) → (⟨S16384x256, .f32⟩ : BufTy).Contents (Elt F)),
    StableHlo.unary main_arg2 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S16384x256 ![0, 1] bcast_S1x256_S16384x256_0_1 : (⟨S1x256, .f32⟩ : BufTy).Contents (Elt F) → (⟨S16384x256, .f32⟩ : BufTy).Contents (Elt F)),
    StableHlo.binary main_v39 main_v41 main_v42 (mulf : (⟨S16384x256, .f32⟩ : BufTy).Contents (Elt F) → (⟨S16384x256, .f32⟩ : BufTy).Contents (Elt F) → (⟨S16384x256, .f32⟩ : BufTy).Contents (Elt F)),
    StableHlo.unary main_arg3 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S16384x256 ![0, 1] bcast_S1x256_S16384x256_0_1 : (⟨S1x256, .f32⟩ : BufTy).Contents (Elt F) → (⟨S16384x256, .f32⟩ : BufTy).Contents (Elt F)),
    StableHlo.binary main_v42 main_v44 main_v45 (addf : (⟨S16384x256, .f32⟩ : BufTy).Contents (Elt F) → (⟨S16384x256, .f32⟩ : BufTy).Contents (Elt F) → (⟨S16384x256, .f32⟩ : BufTy).Contents (Elt F)),
    StableHlo.reshape main_v45 main_v46 rfl shapeCasts_S16384x256_S8x2048x256,
    StableHlo.nullary main_cst_9 (constant S_ .f32 0x00000000#32),
    StableHlo.unary main_cst_9 main_v47 (broadcastInDim S8x2048x256 ![] bcast_S_S8x2048x256 : (⟨S_, .f32⟩ : BufTy).Contents (Elt F) → (⟨S8x2048x256, .f32⟩ : BufTy).Contents (Elt F)),
    StableHlo.binary main_v46 main_v47 main_v48 (cmpf .oge : (⟨S8x2048x256, .f32⟩ : BufTy).Contents (Elt F) → (⟨S8x2048x256, .f32⟩ : BufTy).Contents (Elt F) → (⟨S8x2048x256, .i1⟩ : BufTy).Contents (Elt F)),
    StableHlo.nullary main_cst_10 (constant S_ .f32 0x3DCCCCCD#32),
    StableHlo.unary main_cst_10 main_v49 (broadcastInDim S8x2048x256 ![] bcast_S_S8x2048x256 : (⟨S_, .f32⟩ : BufTy).Contents (Elt F) → (⟨S8x2048x256, .f32⟩ : BufTy).Contents (Elt F)),
    StableHlo.binary main_v49 main_v46 main_v50 (mulf : (⟨S8x2048x256, .f32⟩ : BufTy).Contents (Elt F) → (⟨S8x2048x256, .f32⟩ : BufTy).Contents (Elt F) → (⟨S8x2048x256, .f32⟩ : BufTy).Contents (Elt F)),
    StableHlo.TRef.ternary (StableHlo.TRef.of main_v48 : StableHlo.TRef sig ⟨S8x2048x256, .i1⟩) (StableHlo.TRef.of main_v46 : StableHlo.TRef sig ⟨S8x2048x256, .f32⟩) (StableHlo.TRef.of main_v50 : StableHlo.TRef sig ⟨S8x2048x256, .f32⟩) main_call3.v0 select,
    StableHlo.nullary main_cst_11 (constant S_ .f32 0x3F666666#32),
    StableHlo.unary main_cst_11 main_v52 (broadcastInDim S8x2048x256 ![] bcast_S_S8x2048x256 : (⟨S_, .f32⟩ : BufTy).Contents (Elt F) → (⟨S8x2048x256, .f32⟩ : BufTy).Contents (Elt F)),
    StableHlo.binary main_v52 main_arg0 main_v53 (mulf : (⟨S8x2048x256, .f32⟩ : BufTy).Contents (Elt F) → (⟨S8x2048x256, .f32⟩ : BufTy).Contents (Elt F) → (⟨S8x2048x256, .f32⟩ : BufTy).Contents (Elt F)),
    StableHlo.nullary main_cst_12 (constant S_ .f32 0x3DCCCCCD#32),
    StableHlo.unary main_cst_12 main_v54 (broadcastInDim S8x2048x256 ![] bcast_S_S8x2048x256 : (⟨S_, .f32⟩ : BufTy).Contents (Elt F) → (⟨S8x2048x256, .f32⟩ : BufTy).Contents (Elt F)),
    StableHlo.binary main_v54 main_v51 main_v55 (mulf : (⟨S8x2048x256, .f32⟩ : BufTy).Contents (Elt F) → (⟨S8x2048x256, .f32⟩ : BufTy).Contents (Elt F) → (⟨S8x2048x256, .f32⟩ : BufTy).Contents (Elt F)),
    StableHlo.binary main_v53 main_v55 main_v56 (addf : (⟨S8x2048x256, .f32⟩ : BufTy).Contents (Elt F) → (⟨S8x2048x256, .f32⟩ : BufTy).Contents (Elt F) → (⟨S8x2048x256, .f32⟩ : BufTy).Contents (Elt F)) ]

set_option maxRecDepth 8192 in
set_option maxHeartbeats 4000000 in
/-- @main is that straight line: its two windows and the called functions unfold, and sequencing reassociates
    by computation. -/
theorem main_eq (c : Dev nD) : main (F := F) c = seq ops := rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., unary_bufs_sub .., binary_bufs_sub .., unary_bufs_sub .., binary_bufs_sub .., binary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., binary_bufs_sub ..⟩

end Generic

end Cert.ReferenceIdeal.RefValue

end
-- ==== Proof.RefRun.lean ====
/-
  The reference program's run, read back. Folding the 97 operations of RefOps over any contents of the
  device's buffers leaves the result buffer at `RefValue.result` of the four argument buffers' contents and
  each argument buffer as it was: every operation writes its own result buffer only, so reading a buffer
  after the line is reading the last operation that wrote it, at operands read the same way before it.
  With the library's run of a straight line this gives the run of @main at the ideal instance.
-/
import proofs.«111871_j84447646974566_1_alg».proof.Proof.RefOps

noncomputable section

namespace Cert.ReferenceIdeal.RefValue

open Cert.ReferenceIdeal Idealize.ShloMosaic Idealize.ShloMosaic.TcCoe Idealize.SL.Sem Idealize.ShloMosaic.StableHlo

variable [Facts]
open Facts₀ Facts

set_option maxRecDepth 8192 in
set_option maxHeartbeats 4000000 in
/-- No operation writes argument 0's buffer. -/
theorem after_arg0 (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation writes argument 1's buffer. -/
theorem after_arg1 (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation writes argument 2's buffer. -/
theorem after_arg2 (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation writes argument 3's buffer. -/
theorem after_arg3 (V : Valuation τ sig (Elt Ideal)) :
    after (ops (F := Ideal)) V (main_arg3 : DevRef τ sig) = V (main_arg3 : DevRef τ sig) := by
  after_results_simp

set_option maxRecDepth 8192 in
set_option maxHeartbeats 40000000 in
/-- The result buffer after the line: the operations' composed term, which is `result` with its named
    intermediate values unfolded (a called function's typed references add casts along `rfl`, a reshape a
    cast along its element types' `rfl`: identities by computation). -/
theorem after_v56 (V : Valuation τ sig (Elt Ideal)) :
    after (ops (F := Ideal)) V (main_v56 : DevRef τ sig)
      = result (V (main_arg0 : DevRef τ sig)) (V (main_arg1 : DevRef τ sig)) (V (main_arg2 : DevRef τ sig))
          (V (main_arg3 : DevRef τ sig)) := by
  after_results_simp <;> rfl

/-- On every device, from any memory with zero counters: every weakly fair execution of @main at the ideal
    instance terminates with the result buffer at `result` of the arguments' launch contents and the
    arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v56) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v56).trans (after_v56 (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_seq scopedRefs_eq scopedSems_eq defs main (fun _ => ops) main_eq (fun _ => ops_sub) m ρ)

/-- The same run, keeping only that the arguments end unchanged. -/
theorem run_frame (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.ReferenceIdeal.RefValue

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.RefReadOps.lean ====
/-
  The host operations of the graph layer's reference, each read at an index given by coordinates.

  Three contractions with a batch axis or a transposed right operand (the linear image x · Wᵀ, the inner
  products of the nodes of one batch, the aggregation graph · lin), each as the sum over the one contracted
  coordinate; the sums over the last axis of a rank-three array and over the rows of the flattened
  [16384, 256] array (the latter as the double sum over batch and node); the broadcasts that put a
  per-node scalar along a row or a column of the [8, 2048, 2048] arrays and a per-channel scalar along the
  rows of the flattened array; and the two reshapes between [8, 2048, 256] and [16384, 256], which match
  (b, v, c) with (2048 · b + v, c).
-/
import proofs.«111871_j84447646974566_1_alg».proof.ReferenceIdeal
import proofs.«111871_j84447646974566_1_alg».proof.Proof.LibUnitAxisSums
import proofs.«111871_j84447646974566_1_alg».proof.Proof.LibColumnReads
import proofs.«111871_j84447646974566_1_alg».proof.Proof.LibHostRowMax
import proofs.«111871_j84447646974566_1_alg».proof.Proof.LibHostRowBroadcast
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefReadOps

open Idealize.ShloMosaic Idealize.ShloMosaic.ValueIdx

/-! ## The three contractions -/

section Dots
variable [Facts₀]

/-- The dimension numbers of x · Wᵀ: the last axis of [8, 2048, 256] against the last axis of [256, 256]. -/
abbrev D1 := dot_S8x2048x256_S256x256_S8x2048x256_2_1_01_0_n_n
/-- The dimension numbers of the inner products: batch axis 0, the last axes contracted. -/
abbrev D2 := dot_S8x2048x256_S8x2048x256_S8x2048x2048_2_2_1_1_0_0
/-- The dimension numbers of the aggregation: batch axis 0, the last axis of the graph against the node axis. -/
abbrev D3 := dot_S8x2048x2048_S8x2048x256_S8x2048x256_2_1_1_2_0_0

theorem D1_rank : D1.contr.rank = 1 := rfl
theorem D1_size : D1.contr.size ⟨0, by rw [D1_rank]; exact Nat.one_pos⟩ = 256 := rfl
theorem D2_rank : D2.contr.rank = 1 := rfl
theorem D2_size : D2.contr.size ⟨0, by rw [D2_rank]; exact Nat.one_pos⟩ = 256 := rfl
theorem D3_rank : D3.contr.rank = 1 := rfl
theorem D3_size : D3.contr.size ⟨0, by rw [D3_rank]; exact Nat.one_pos⟩ = 2048 := rfl

theorem D1_lhs (b : Fin 8) (v : Fin 2048) (o : Fin 256) (k : Fin 256) :
    D1.lhsIdx (ix3 b v o) ((contrEquiv1 D1 256 D1_rank D1_size).symm k) = ix3 b v k :=
  funext fun x => Fin.ext (by
    match x with
    | ⟨0, _⟩ => rfl
    | ⟨1, _⟩ => rfl
    | ⟨2, _⟩ => exact (D1.lhsIdx_val_of_single rfl _ _).trans (contrEquiv1_symm_val D1 256 D1_rank D1_size k))

theorem D1_rhs (b : Fin 8) (v : Fin 2048) (o : Fin 256) (k : Fin 256) :
    D1.rhsIdx (ix3 b v o) ((contrEquiv1 D1 256 D1_rank D1_size).symm k) = ix2 o k :=
  funext fun x => Fin.ext (by
    match x with
    | ⟨0, _⟩ => rfl
    | ⟨1, _⟩ => exact (D1.rhsIdx_val_of_single rfl _ _).trans (contrEquiv1_symm_val D1 256 D1_rank D1_size k))

/-- x · Wᵀ at (b, v, o): the sum over the input channel c of x (b, v, c) · W (o, c). -/
theorem dotLin_apply (x : FVec Ideal S8x2048x256 .f32) (W : FVec Ideal S256x256 .f32) (b : Fin 8) (v : Fin 2048)
    (o : Fin 256) :
    Host.dotGeneral D1 none x W (ix3 b v o) = ∑ c : Fin 256, x (ix3 b v c) * W (ix2 o c) := by
  simp only [Host.dotGeneral]
  rw [Ideal.dotGeneral_apply, ← Equiv.sum_comp (contrEquiv1 D1 256 D1_rank D1_size).symm]
  refine Finset.sum_congr rfl fun k _ => ?_
  rw [D1_lhs, D1_rhs]

theorem D2_lhs (b : Fin 8) (v u : Fin 2048) (k : Fin 256) :
    D2.lhsIdx (ix3 b v u) ((contrEquiv1 D2 256 D2_rank D2_size).symm k) = ix3 b v k :=
  funext fun x => Fin.ext (by
    match x with
    | ⟨0, _⟩ => rfl
    | ⟨1, _⟩ => rfl
    | ⟨2, _⟩ => exact (D2.lhsIdx_val_of_single rfl _ _).trans (contrEquiv1_symm_val D2 256 D2_rank D2_size k))

theorem D2_rhs (b : Fin 8) (v u : Fin 2048) (k : Fin 256) :
    D2.rhsIdx (ix3 b v u) ((contrEquiv1 D2 256 D2_rank D2_size).symm k) = ix3 b u k :=
  funext fun x => Fin.ext (by
    match x with
    | ⟨0, _⟩ => rfl
    | ⟨1, _⟩ => rfl
    | ⟨2, _⟩ => exact (D2.rhsIdx_val_of_single rfl _ _).trans (contrEquiv1_symm_val D2 256 D2_rank D2_size k))

/-- The inner products at (b, v, u): the sum over the channel c of x (b, v, c) · y (b, u, c). -/
theorem dotGram_apply (x y : FVec Ideal S8x2048x256 .f32) (b : Fin 8) (v u : Fin 2048) :
    Host.dotGeneral D2 none x y (ix3 b v u) = ∑ c : Fin 256, x (ix3 b v c) * y (ix3 b u c) := by
  simp only [Host.dotGeneral]
  rw [Ideal.dotGeneral_apply, ← Equiv.sum_comp (contrEquiv1 D2 256 D2_rank D2_size).symm]
  refine Finset.sum_congr rfl fun k _ => ?_
  rw [D2_lhs, D2_rhs]

theorem D3_lhs (b : Fin 8) (v : Fin 2048) (c : Fin 256) (k : Fin 2048) :
    D3.lhsIdx (ix3 b v c) ((contrEquiv1 D3 2048 D3_rank D3_size).symm k) = ix3 b v k :=
  funext fun x => Fin.ext (by
    match x with
    | ⟨0, _⟩ => rfl
    | ⟨1, _⟩ => rfl
    | ⟨2, _⟩ => exact (D3.lhsIdx_val_of_single rfl _ _).trans (contrEquiv1_symm_val D3 2048 D3_rank D3_size k))

theorem D3_rhs (b : Fin 8) (v : Fin 2048) (c : Fin 256) (k : Fin 2048) :
    D3.rhsIdx (ix3 b v c) ((contrEquiv1 D3 2048 D3_rank D3_size).symm k) = ix3 b k c :=
  funext fun x => Fin.ext (by
    match x with
    | ⟨0, _⟩ => rfl
    | ⟨1, _⟩ => exact (D3.rhsIdx_val_of_single rfl _ _).trans (contrEquiv1_symm_val D3 2048 D3_rank D3_size k)
    | ⟨2, _⟩ => rfl)

/-- The aggregation at (b, v, c): the sum over the node u of G (b, v, u) · h (b, u, c). -/
theorem dotAgg_apply (G : FVec Ideal S8x2048x2048 .f32) (h : FVec Ideal S8x2048x256 .f32) (b : Fin 8) (v : Fin 2048)
    (c : Fin 256) :
    Host.dotGeneral D3 none G h (ix3 b v c) = ∑ u : Fin 2048, G (ix3 b v u) * h (ix3 b u c) := by
  simp only [Host.dotGeneral]
  rw [Ideal.dotGeneral_apply, ← Equiv.sum_comp (contrEquiv1 D3 2048 D3_rank D3_size).symm]
  refine Finset.sum_congr rfl fun k _ => ?_
  rw [D3_lhs, D3_rhs]

end Dots

/-! ## The sums -/

/-- A host sum over the last axis of an [l, m, n] array, read at (b, p): the initial value plus the sum over k
    of the entries (b, p, k). -/
theorem hostReduceAdd_last {l m n : ℕ} {φ : FTy} {u : Shape} (x : FVec Ideal ⟨3, ![l, m, n]⟩ φ) (init : u.Idx → Ideal φ)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduceAdd x init h' hu (ix2 b p) = init (Shape.Idx.first hu) + ∑ k : Fin n, x (ix3 b p k) := by
  rw [hostReduceAdd_apply, Ideal.hostReduceAdd_single h' h]
  exact congrArg (_ + ·) (Finset.sum_congr rfl fun k _ => congrArg x (Cert.ColumnReads.lift_last h b p k))

/-- A host sum over the rows of an [m, n] array, read at column c: the initial value plus the sum over k of the
    entries (k, c). -/
theorem hostReduceAdd_rows {m n : ℕ} {φ : FTy} {u : Shape} (x : FVec Ideal ⟨2, ![m, n]⟩ φ) (init : u.Idx → Ideal φ)
    (h' : (⟨2, ![m, n]⟩ : Shape).ReducesTo [0] (⟨1, ![n]⟩ : Shape))
    (h : (⟨2, ![m, n]⟩ : Shape).Reduces [0] (⟨1, ![n]⟩ : Shape)) (hu : 0 < u.numel) (c : Fin n) :
    Host.reduceAdd x init h' hu (ix1 c) = init (Shape.Idx.first hu) + ∑ k : Fin m, x (ix2 k c) := by
  rw [hostReduceAdd_apply, Ideal.hostReduceAdd_single h' h]
  exact congrArg (_ + ·) (Finset.sum_congr rfl fun k _ => congrArg x (Cert.ColumnReads.lift_col h c k))

/-- Row 2048 · b + v of the flattened array: the row of batch b and node v. -/
def row (b : Fin 8) (v : Fin 2048) : Fin 16384 := ⟨2048 * b.val + v.val, by have := b.isLt; have := v.isLt; omega⟩

/-- A sum over the 16384 rows is the double sum over batch and node. -/
theorem sum_rows {M : Type*} [AddCommMonoid M] (g : Fin 16384 → M) :
    ∑ r, g r = ∑ b : Fin 8, ∑ v : Fin 2048, g (row b v) :=
  sum_fin_blocks 8 2048 g

/-! ## The broadcasts -/

section Broadcasts
variable {α : Type}

/-- A per-(batch, node) array placed along the last axis of [8, 1, 2048]: at (b, z, u) it holds entry (b, u). -/
theorem bcast_row1_apply {a n : ℕ} (x : (⟨2, ![a, n]⟩ : Shape).Idx → α)
    (h : (⟨2, ![a, n]⟩ : Shape).BroadcastsInDim ⟨3, ![a, 1, n]⟩ (![0, 2] : Fin 2 → Fin 3)) (b : Fin a) (z : Fin 1)
    (u : Fin n) : broadcastInDim ⟨3, ![a, 1, n]⟩ ![0, 2] h x (ix3 b z u) = x (ix2 b u) :=
  broadcastInDim_apply _ h x _ _ fun ax => by
    match ax with
    | ⟨0, _⟩ =>
      show b.val = if a = 1 then 0 else b.val
      split
      · have := b.isLt; omega
      · rfl
    | ⟨1, _⟩ =>
      show u.val = if n = 1 then 0 else u.val
      split
      · have := u.isLt; omega
      · rfl

/-- A per-(batch, node) array placed as the columns [a, n, 1]: at (b, v, z) it holds entry (b, v). -/
theorem bcast_col1_apply {a n : ℕ} (x : (⟨2, ![a, n]⟩ : Shape).Idx → α)
    (h : (⟨2, ![a, n]⟩ : Shape).BroadcastsInDim ⟨3, ![a, n, 1]⟩ (![0, 1] : Fin 2 → Fin 3)) (b : Fin a) (v : Fin n)
    (z : Fin 1) : broadcastInDim ⟨3, ![a, n, 1]⟩ ![0, 1] h x (ix3 b v z) = x (ix2 b v) :=
  broadcastInDim_apply _ h x _ _ fun ax => by
    match ax with
    | ⟨0, _⟩ =>
      show b.val = if a = 1 then 0 else b.val
      split
      · have := b.isLt; omega
      · rfl
    | ⟨1, _⟩ =>
      show v.val = if n = 1 then 0 else v.val
      split
      · have := v.isLt; omega
      · rfl

/-- An [a, 1, n] array repeated along its middle axis: at (b, v, u) it holds entry (b, 0, u). -/
theorem bcast_mid_apply {a m n : ℕ} (x : (⟨3, ![a, 1, n]⟩ : Shape).Idx → α)
    (h : (⟨3, ![a, 1, n]⟩ : Shape).BroadcastsInDim ⟨3, ![a, m, n]⟩ (![0, 1, 2] : Fin 3 → Fin 3)) (b : Fin a) (v : Fin m)
    (u : Fin n) : broadcastInDim ⟨3, ![a, m, n]⟩ ![0, 1, 2] h x (ix3 b v u) = x (ix3 b (0 : Fin 1) u) :=
  broadcastInDim_apply _ h x _ _ fun ax => by
    match ax with
    | ⟨0, _⟩ =>
      show b.val = if a = 1 then 0 else b.val
      split
      · have := b.isLt; omega
      · rfl
    | ⟨1, _⟩ =>
      show (0 : ℕ) = if (1 : ℕ) = 1 then 0 else v.val
      simp
    | ⟨2, _⟩ =>
      show u.val = if n = 1 then 0 else u.val
      split
      · have := u.isLt; omega
      · rfl

/-- An [a, m, 1] array repeated along its last axis: at (b, v, u) it holds entry (b, v, 0). -/
theorem bcast_last_apply {a m n : ℕ} (x : (⟨3, ![a, m, 1]⟩ : Shape).Idx → α)
    (h : (⟨3, ![a, m, 1]⟩ : Shape).BroadcastsInDim ⟨3, ![a, m, n]⟩ (![0, 1, 2] : Fin 3 → Fin 3)) (b : Fin a) (v : Fin m)
    (u : Fin n) : broadcastInDim ⟨3, ![a, m, n]⟩ ![0, 1, 2] h x (ix3 b v u) = x (ix3 b v (0 : Fin 1)) :=
  broadcastInDim_apply _ h x _ _ fun ax => by
    match ax with
    | ⟨0, _⟩ =>
      show b.val = if a = 1 then 0 else b.val
      split
      · have := b.isLt; omega
      · rfl
    | ⟨1, _⟩ =>
      show v.val = if m = 1 then 0 else v.val
      split
      · have := v.isLt; omega
      · rfl
    | ⟨2, _⟩ =>
      show (0 : ℕ) = if (1 : ℕ) = 1 then 0 else u.val
      simp

end Broadcasts

/-! ## The two reshapes -/

section Reshapes
variable {α : Type}

/-- [8, 2048, 256] flattened to [16384, 256]: row 2048 · b + v, column c holds entry (b, v, c). -/
theorem flatten_apply (x : S8x2048x256.Idx → α) (h : S8x2048x256.ShapeCasts S16384x256) (b : Fin 8) (v : Fin 2048)
    (c : Fin 256) : shapeCast S16384x256 x h (ix2 (row b v) c) = x (ix3 b v c) :=
  shapeCast_apply x h _ _ (by
    rw [Shape.rowMajor_val_three, Shape.rowMajor_val_two]
    show (b.val * 2048 + v.val) * 256 + c.val = (2048 * b.val + v.val) * 256 + c.val
    omega)

/-- [16384, 256] cut back into [8, 2048, 256]: entry (b, v, c) is row 2048 · b + v, column c. -/
theorem unflatten_apply (y : S16384x256.Idx → α) (h : S16384x256.ShapeCasts S8x2048x256) (b : Fin 8) (v : Fin 2048)
    (c : Fin 256) : shapeCast S8x2048x256 y h (ix3 b v c) = y (ix2 (row b v) c) :=
  shapeCast_apply y h _ _ (by
    rw [Shape.rowMajor_val_three, Shape.rowMajor_val_two]
    show (2048 * b.val + v.val) * 256 + c.val = (b.val * 2048 + v.val) * 256 + c.val
    omega)

end Reshapes

/-! ## The host's one-operand operations and the two scalar facts of the variance's divisor -/

section Unary
variable {s : Shape} {φ : FTy}

/-- The host's square root at an index is the ideal square root of the element. -/
theorem hostSqrt_apply (x : FVec Ideal s φ) (i : s.Idx) : Host.sqrt x i = Ideal.sqrt (x i) := rfl
/-- The host's exponential at an index is the ideal exponential of the element. -/
theorem hostExp_apply (x : FVec Ideal s φ) (i : s.Idx) : Host.exp x i = Ideal.exp (x i) := rfl
/-- The host's absolute value at an index is the larger of the element and its negation. -/
theorem hostAbsf_apply (x : FVec Ideal s φ) (i : s.Idx) : Host.absf x i = max (x i) (-(x i)) := rfl

end Unary

/-- The word 0x46800000 is the real 16384 = 2¹⁴. -/
theorem ofBits_rows : Ideal.ofBits .f32 0x46800000#32 = ((16384 : ℝ) : EReal) := by
  simp [Ideal.ofBits, Ideal.ieee, -EReal.coe_mul]; norm_num

/-- … which is above zero. -/
theorem ofBits_rows_pos : (0 : EReal) < Ideal.ofBits .f32 0x46800000#32 := by
  rw [ofBits_rows]; exact EReal.coe_pos.mpr (by norm_num)

/-- The 32-bit integer zero converts to the extended real zero. -/
theorem sitofp_zero : FloatOps.sitofp (F := Ideal) .f32 (0#32 : BitVec 32) = (0 : EReal) := by
  show (((0#32 : BitVec 32).toInt : ℝ) : EReal) = 0
  simp

end Cert.ReferenceIdeal.RefReadOps

end
-- ==== Proof.RefRead.lean ====
/-
  The reference's result read index by index: every printed operation of the reference, read at an index
  given by coordinates, is the corresponding quantity of the graph layer's mathematics in the reference's
  arrangement, and so the whole result is the layer's output, element by element.

  With x the node features, W the linear map, g and bt the normalisation's scale and shift (the four
  argument arrays read by coordinates): %0 is the linear image, %2 the squared norms, %7 the sum of two
  squared norms, %8 the inner products, %12 the clamped squared distance, %18 the similarity, %20 the row
  sums of its absolute value, %24 the row-normalised similarity, %25 the aggregated features, %29 their
  per-channel mean over all 8 · 2048 rows, %30 their per-channel variance (the divisor is the number of rows
  minus a zero correction, which is positive, so the guarding select keeps the quotient), %46 the normalised
  features, %51 the leaky rectifier of them and %56 the residual blend. Nothing here uses finiteness: each
  step is the definition of one operation at one index.
-/
import proofs.«111871_j84447646974566_1_alg».proof.Proof.RefTerm
import proofs.«111871_j84447646974566_1_alg».proof.Proof.RefReadOps
import proofs.«111871_j84447646974566_1_alg».proof.Proof.Spec
import Idealize.ShloMosaic.Lib.IdealHost

noncomputable section

open scoped BigOperators

namespace Cert.ReferenceIdeal.RefValue

open Idealize.ShloMosaic Idealize.ShloMosaic.ValueIdx Cert.ReferenceIdeal Cert.ReferenceIdeal.RefReadOps

variable [Facts]
open Facts₀ Facts

variable (a0 : FVec Ideal S8x2048x256 .f32) (a1 : FVec Ideal S256x256 .f32) (a2 a3 : FVec Ideal S256 .f32)

/-- The node features, the linear map, the scale and the shift, by coordinates. -/
local notation "X" => GraphSpec.cur3 a0
local notation "W" => GraphSpec.cur2 a1
local notation "Gm" => GraphSpec.cur1 a2
local notation "Bt" => GraphSpec.cur1 a3

/-! ### The broadcast constants -/

theorem v9_apply (i : S8x2048x2048.Idx) : v9 i = GraphSpec.two := by
  unfold v9; rw [broadcastInDim_scalar_apply]; rfl
theorem clipA_v1_apply (i : S8x2048x2048.Idx) : clipA_v1 i = GraphSpec.eps := by
  unfold clipA_v1; rw [broadcastInDim_scalar_apply]; rfl
theorem v15_apply (i : S8x2048x2048.Idx) : v15 i = GraphSpec.one := by
  unfold v15; rw [broadcastInDim_scalar_apply]; rfl
theorem v17_apply (i : S8x2048x2048.Idx) : v17 i = GraphSpec.two := by
  unfold v17; rw [broadcastInDim_scalar_apply]; rfl
theorem clipB_v1_apply (i : S8x2048x1.Idx) : clipB_v1 i = GraphSpec.eps := by
  unfold clipB_v1; rw [broadcastInDim_scalar_apply]; rfl
theorem v28_apply (i : S256.Idx) : v28 i = GraphSpec.rows := by
  unfold v28; rw [broadcastInDim_scalar_apply]; rfl
theorem var_v2_apply (i : S1x256.Idx) : var_v2 i = GraphSpec.rows := by
  unfold var_v2; rw [broadcastInDim_scalar_apply]; rfl
theorem v34_apply (i : S256.Idx) : v34 i = GraphSpec.bnEps := by
  unfold v34; rw [broadcastInDim_scalar_apply]; rfl
theorem v47_apply (i : S8x2048x256.Idx) : v47 i = GraphSpec.zero := by
  unfold v47; rw [broadcastInDim_scalar_apply]; rfl
theorem v49_apply (i : S8x2048x256.Idx) : v49 i = GraphSpec.slope := by
  unfold v49; rw [broadcastInDim_scalar_apply]; rfl
theorem v52_apply (i : S8x2048x256.Idx) : v52 i = GraphSpec.keep := by
  unfold v52; rw [broadcastInDim_scalar_apply]; rfl
theorem v54_apply (i : S8x2048x256.Idx) : v54 i = GraphSpec.slope := by
  unfold v54; rw [broadcastInDim_scalar_apply]; rfl

/-! ### The linear image, the squared norms, the squared distances -/

theorem v0_apply (b : Fin 8) (v : Fin 2048) (o : Fin 256) : v0 a0 a1 (ix3 b v o) = GraphSpec.lin X W b v o := by
  unfold v0; exact dotLin_apply a0 a1 b v o

theorem v1_apply (b : Fin 8) (v : Fin 2048) (c : Fin 256) : v1 a0 (ix3 b v c) = X b v c * X b v c := rfl

theorem v2_apply (b : Fin 8) (v : Fin 2048) : v2 a0 (ix2 b v) = GraphSpec.sq X b v := by
  unfold v2
  rw [hostReduceAdd_last (v1 a0) cst reducesTo_S8x2048x256_S8x2048_d2 (by decide) h_S_ b v]
  show Ideal.ofBits .f32 0x00000000#32 + _ = _
  rw [Ideal.ofBits_zero_f32, zero_add]
  exact Finset.sum_congr rfl fun c _ => v1_apply a0 b v c

theorem v3_apply (b : Fin 8) (z : Fin 1) (u : Fin 2048) : v3 a0 (ix3 b z u) = GraphSpec.sq X b u := by
  unfold v3; rw [bcast_row1_apply]; exact v2_apply a0 b u
theorem v4_apply (b : Fin 8) (v : Fin 2048) (z : Fin 1) : v4 a0 (ix3 b v z) = GraphSpec.sq X b v := by
  unfold v4; rw [bcast_col1_apply]; exact v2_apply a0 b v
theorem v5_apply (b : Fin 8) (v u : Fin 2048) : v5 a0 (ix3 b v u) = GraphSpec.sq X b u := by
  unfold v5; rw [bcast_mid_apply]; exact v3_apply a0 b 0 u
theorem v6_apply (b : Fin 8) (v u : Fin 2048) : v6 a0 (ix3 b v u) = GraphSpec.sq X b v := by
  unfold v6; rw [bcast_last_apply]; exact v4_apply a0 b v 0
theorem v7_apply (b : Fin 8) (v u : Fin 2048) : v7 a0 (ix3 b v u) = GraphSpec.sq X b u + GraphSpec.sq X b v := by
  unfold v7; rw [addf_apply, v5_apply, v6_apply]
theorem v8_apply (b : Fin 8) (v u : Fin 2048) : v8 a0 (ix3 b v u) = GraphSpec.gram X b v u := by
  unfold v8; exact dotGram_apply a0 a0 b v u
theorem v10_apply (b : Fin 8) (v u : Fin 2048) : v10 a0 (ix3 b v u) = GraphSpec.two * GraphSpec.gram X b v u := by
  unfold v10; rw [mulf_apply, v9_apply, v8_apply]
theorem v11_apply (b : Fin 8) (v u : Fin 2048) :
    v11 a0 (ix3 b v u) = (GraphSpec.sq X b u + GraphSpec.sq X b v) - GraphSpec.two * GraphSpec.gram X b v u := by
  unfold v11; rw [subf_apply, v7_apply, v10_apply]

/-! ### The similarity and the graph -/

theorem v12_apply (b : Fin 8) (v u : Fin 2048) :
    v12 a0 (ix3 b v u)
      = max GraphSpec.eps ((GraphSpec.sq X b u + GraphSpec.sq X b v) - GraphSpec.two * GraphSpec.gram X b v u) := by
  unfold v12; rw [maximumf_apply, clipA_v1_apply, v11_apply]

theorem v18_apply (b : Fin 8) (v u : Fin 2048) : v18 a0 (ix3 b v u) = GraphSpec.simR X b v u := by
  unfold v18 v16 v14 v13
  rw [hostDivf_apply, v17_apply, addf_apply, hostExp_apply, hostSqrt_apply, v12_apply, v15_apply]
  rfl

theorem v19_apply (b : Fin 8) (v u : Fin 2048) :
    v19 a0 (ix3 b v u) = max (GraphSpec.simR X b v u) (-(GraphSpec.simR X b v u)) := by
  unfold v19; rw [hostAbsf_apply, v18_apply]

theorem v20_apply (b : Fin 8) (v : Fin 2048) :
    v20 a0 (ix2 b v) = ∑ u : Fin 2048, max (GraphSpec.simR X b v u) (-(GraphSpec.simR X b v u)) := by
  unfold v20
  rw [hostReduceAdd_last (v19 a0) cst_4 reducesTo_S8x2048x2048_S8x2048_d2 (by decide) h_S_ b v]
  show Ideal.ofBits .f32 0x00000000#32 + _ = _
  rw [Ideal.ofBits_zero_f32, zero_add]
  exact Finset.sum_congr rfl fun u _ => v19_apply a0 b v u

theorem v22_apply (b : Fin 8) (v : Fin 2048) (z : Fin 1) :
    v22 a0 (ix3 b v z)
      = max GraphSpec.eps (∑ u : Fin 2048, max (GraphSpec.simR X b v u) (-(GraphSpec.simR X b v u))) := by
  unfold v22 v21; rw [maximumf_apply, clipB_v1_apply, bcast_col1_apply, v20_apply]

theorem v24_apply (b : Fin 8) (v u : Fin 2048) : v24 a0 (ix3 b v u) = GraphSpec.graphR X b v u := by
  unfold v24 v23; rw [hostDivf_apply, v18_apply, bcast_last_apply, v22_apply]; rfl

/-! ### The aggregated features, flattened -/

theorem v25_apply (b : Fin 8) (v : Fin 2048) (c : Fin 256) : v25 a0 a1 (ix3 b v c) = GraphSpec.aggR X W b v c := by
  unfold v25; rw [dotAgg_apply]
  exact Finset.sum_congr rfl fun u _ => by rw [v24_apply, v0_apply]

theorem v26_apply (b : Fin 8) (v : Fin 2048) (c : Fin 256) :
    v26 a0 a1 (ix2 (row b v) c) = GraphSpec.aggR X W b v c := by
  unfold v26; rw [flatten_apply]; exact v25_apply a0 a1 b v c

/-! ### The mean -/

theorem v27_apply (c : Fin 256) :
    v27 a0 a1 (ix1 c) = ∑ b : Fin 8, ∑ v : Fin 2048, GraphSpec.aggR X W b v c := by
  unfold v27
  rw [hostReduceAdd_rows (v26 a0 a1) cst_6 reducesTo_S16384x256_S256_d0 (by decide) h_S_ c, sum_rows]
  show Ideal.ofBits .f32 0x00000000#32 + _ = _
  rw [Ideal.ofBits_zero_f32, zero_add]
  exact Finset.sum_congr rfl fun b _ => Finset.sum_congr rfl fun v _ => v26_apply a0 a1 b v c

theorem v29_apply (c : Fin 256) : v29 a0 a1 (ix1 c) = GraphSpec.meanR X W c := by
  unfold v29; rw [hostDivf_apply, v27_apply, v28_apply]; rfl

/-! ### The variance -/

theorem var_v0_apply (c : Fin 256) :
    var_v0 a0 a1 (ix1 c) = ∑ b : Fin 8, ∑ v : Fin 2048, GraphSpec.aggR X W b v c := by
  unfold var_v0
  rw [hostReduceAdd_rows (v26 a0 a1) var_cst reducesTo_S16384x256_S256_d0 (by decide) h_S_ c, sum_rows]
  show Ideal.ofBits .f32 0x00000000#32 + _ = _
  rw [Ideal.ofBits_zero_f32, zero_add]
  exact Finset.sum_congr rfl fun b _ => Finset.sum_congr rfl fun v _ => v26_apply a0 a1 b v c

theorem var_v3_apply (z : Fin 1) (c : Fin 256) : var_v3 a0 a1 (ix2 z c) = GraphSpec.meanR X W c := by
  unfold var_v3 var_v1
  rw [hostDivf_apply, Cert.HostRowMax.broadcastInDim_row_apply, var_v0_apply, var_v2_apply]; rfl

theorem var_v5_apply (b : Fin 8) (v : Fin 2048) (c : Fin 256) :
    var_v5 a0 a1 (ix2 (row b v) c) = GraphSpec.aggR X W b v c - GraphSpec.meanR X W c := by
  unfold var_v5 var_v4
  rw [subf_apply, v26_apply, Cert.HostRowBroadcast.broadcastInDim_rows_apply, var_v3_apply]

theorem var_v8_apply (i : S_.Idx) : var_v8 i = GraphSpec.rows := by
  unfold var_v8 var_v7
  rw [subf_apply, sitofp_apply]
  show Ideal.ofBits .f32 0x46800000#32 - FloatOps.sitofp (F := Ideal) .f32 (0#32 : BitVec 32) = _
  rw [sitofp_zero, sub_zero]; rfl

theorem var_v9_apply (c : Fin 256) :
    var_v9 a0 a1 (ix1 c)
      = ∑ b : Fin 8, ∑ v : Fin 2048,
          (GraphSpec.aggR X W b v c - GraphSpec.meanR X W c) * (GraphSpec.aggR X W b v c - GraphSpec.meanR X W c) := by
  unfold var_v9
  rw [hostReduceAdd_rows (var_v6 a0 a1) var_cst_2 reducesTo_S16384x256_S256_d0 (by decide) h_S_ c, sum_rows]
  show Ideal.ofBits .f32 0x00000000#32 + _ = _
  rw [Ideal.ofBits_zero_f32, zero_add]
  refine Finset.sum_congr rfl fun b _ => Finset.sum_congr rfl fun v _ => ?_
  unfold var_v6; rw [mulf_apply, var_v5_apply]

theorem var_v11_apply (c : Fin 256) : var_v11 a0 a1 (ix1 c) = GraphSpec.varR X W c := by
  unfold var_v11 var_v10
  rw [hostDivf_apply, var_v9_apply, broadcastInDim_scalar_apply, var_v8_apply]; rfl

/-- The guard of the variance: the number of rows minus the zero correction is above zero. -/
theorem var_v12_apply (i : S_.Idx) : var_v12 i = 1#1 := by
  unfold var_v12
  rw [cmpf_apply, var_v8_apply]
  show Ideal.cmp .ogt (Ideal.ofBits .f32 0x46800000#32) (Ideal.ofBits .f32 0x00000000#32) = 1#1
  rw [Ideal.ofBits_zero_f32]
  unfold Ideal.cmp
  simp [ofBits_rows_pos]

theorem v30_apply (c : Fin 256) : v30 a0 a1 (ix1 c) = GraphSpec.varR X W c := by
  unfold v30
  rw [select_apply, broadcastInDim_scalar_apply, var_v12_apply, select_one, var_v11_apply]

/-! ### The normalisation -/

theorem v33_apply (b : Fin 8) (v : Fin 2048) (c : Fin 256) :
    v33 a0 a1 (ix2 (row b v) c) = GraphSpec.aggR X W b v c - GraphSpec.meanR X W c := by
  unfold v33 v32 v31
  rw [subf_apply, v26_apply, Cert.HostRowBroadcast.broadcastInDim_rows_apply,
    Cert.HostRowMax.broadcastInDim_row_apply, v29_apply]

theorem v36_apply (c : Fin 256) :
    v36 a0 a1 (ix1 c) = Ideal.sqrt (GraphSpec.varR X W c + GraphSpec.bnEps) := by
  unfold v36 v35; rw [hostSqrt_apply, addf_apply, v30_apply, v34_apply]

theorem v39_apply (b : Fin 8) (v : Fin 2048) (c : Fin 256) :
    v39 a0 a1 (ix2 (row b v) c)
      = Ideal.div (GraphSpec.aggR X W b v c - GraphSpec.meanR X W c)
          (Ideal.sqrt (GraphSpec.varR X W c + GraphSpec.bnEps)) := by
  unfold v39 v38 v37
  rw [hostDivf_apply, v33_apply, Cert.HostRowBroadcast.broadcastInDim_rows_apply,
    Cert.HostRowMax.broadcastInDim_row_apply, v36_apply]

theorem v41_apply (r : Fin 16384) (c : Fin 256) : v41 a2 (ix2 r c) = Gm c := by
  unfold v41 v40
  rw [Cert.HostRowBroadcast.broadcastInDim_rows_apply, Cert.HostRowMax.broadcastInDim_row_apply]; rfl

theorem v44_apply (r : Fin 16384) (c : Fin 256) : v44 a3 (ix2 r c) = Bt c := by
  unfold v44 v43
  rw [Cert.HostRowBroadcast.broadcastInDim_rows_apply, Cert.HostRowMax.broadcastInDim_row_apply]; rfl

theorem v46_apply (b : Fin 8) (v : Fin 2048) (c : Fin 256) :
    v46 a0 a1 a2 a3 (ix3 b v c) = GraphSpec.normR X W Gm Bt b v c := by
  unfold v46 v45 v42
  rw [unflatten_apply, addf_apply, mulf_apply, v39_apply, v41_apply, v44_apply]; rfl

/-! ### The leaky rectifier and the residual blend -/

theorem v51_apply (b : Fin 8) (v : Fin 2048) (c : Fin 256) :
    v51 a0 a1 a2 a3 (ix3 b v c) = GraphSpec.leaky (GraphSpec.normR X W Gm Bt b v c) := by
  unfold v51 v50 v48
  rw [select_apply, cmpf_apply, mulf_apply, v46_apply, v47_apply, v49_apply]; rfl

theorem v56_apply (b : Fin 8) (v : Fin 2048) (c : Fin 256) :
    v56 a0 a1 a2 a3 (ix3 b v c) = GraphSpec.outR X W Gm Bt b v c := by
  unfold v56 v55 v53
  rw [addf_apply, mulf_apply, mulf_apply, v52_apply, v54_apply, v51_apply]; rfl

/-- The reference's result is the layer's output in the reference's arrangement, element by element. -/
theorem result_eq (a0 : FVec Ideal S8x2048x256 .f32) (a1 : FVec Ideal S256x256 .f32) (a2 a3 : FVec Ideal S256 .f32) :
    result a0 a1 a2 a3
      = Cert.GraphSpec.unc3 (Cert.GraphSpec.outR (Cert.GraphSpec.cur3 a0) (Cert.GraphSpec.cur2 a1)
          (Cert.GraphSpec.cur1 a2) (Cert.GraphSpec.cur1 a3)) := by
  funext i
  obtain ⟨b, v, c, rfl⟩ : ∃ (b : Fin 8) (v : Fin 2048) (c : Fin 256), i = ix3 b v c := ⟨i 0, i 1, i 2, eq_ix3 i⟩
  exact v56_apply a0 a1 a2 a3 b v c

end Cert.ReferenceIdeal.RefValue

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.Algebra.lean ====
/-
  The two arrangements of the graph layer agree when every feature and every weight is a real number.

  With real entries the squared norms, linear images and inner products are finite sums of real products,
  hence real.  The clamped squared distance is a real not below the positive literal eps, so its square
  root is a real, the exponential of that is a positive real, and the similarity 2 / (e^√d² + 1) is a
  positive real.  A positive number is its own absolute value, so the two row sums agree; clamped below by
  eps the row sum is a positive real, and every normalised similarity and every aggregated feature is real.

  For the normalisation: with N = 8 · 2048 = 16384 rows, S = Σ a, Q = Σ a² and μ = S / N,
      Σ (a − μ)² = Q − 2 μ S + N μ² = Q − N μ²,
  so Σ (a − μ)² / N = Q / N − μ²: the two readings of the variance agree, and the common value is a real
  that is not negative.  Adding the positive literal under the root gives a positive real s, and
  (a − μ) · (1 / s) = (a − μ) / s.  From there on the two sides are one expression.
-/
import proofs.«111871_j84447646974566_1_alg».proof.Proof.Spec
import proofs.«111871_j84447646974566_1_alg».proof.Proof.LibRealSums

noncomputable section

namespace Cert.GraphSpec

open Idealize.ShloMosaic Cert.Math
open scoped BigOperators

/-! ### The literals as real numbers -/

/-- The word 0x40000000 is 2^23 · 2^(128 − 127 − 23) = 2. -/
theorem two_eq : two = ((2 : ℝ) : EReal) := by
  simp [two, Ideal.ofBits, Ideal.ieee]
  rw [← EReal.coe_mul, EReal.coe_eq_coe_iff]; norm_num

/-- The word 0x3F800000 is 2^23 · 2^(127 − 127 − 23) = 1. -/
theorem one_eq : one = 1 := by
  simp [one, Ideal.ofBits, Ideal.ieee]
  rw [← EReal.coe_mul, ← EReal.coe_one, EReal.coe_eq_coe_iff]; norm_num

/-- The word 0x46800000 is 2^23 · 2^(141 − 127 − 23) = 2^14 = 16384. -/
theorem rows_eq : rows = ((16384 : ℝ) : EReal) := by
  simp [rows, Ideal.ofBits, Ideal.ieee]
  rw [← EReal.coe_mul, EReal.coe_eq_coe_iff]; norm_num

/-- The clamp literal is a positive real (a positive significand times a power of two). -/
theorem eps_pos : ∃ e : ℝ, 0 < e ∧ eps = (e : EReal) := by
  simp [eps, Ideal.ofBits, Ideal.ieee]
  exact ⟨_, by positivity, (EReal.coe_mul _ _).symm⟩

/-- The literal added to the variance is a positive real. -/
theorem bnEps_pos : ∃ e : ℝ, 0 < e ∧ bnEps = (e : EReal) := by
  simp [bnEps, Ideal.ofBits, Ideal.ieee]
  exact ⟨_, by positivity, (EReal.coe_mul _ _).symm⟩

/-! ### Coercions -/

/-- The maximum of two reals, read in the extended reals. -/
theorem coe_max (a b : ℝ) : max (a : EReal) (b : EReal) = ((max a b : ℝ) : EReal) :=
  (EReal.coe_strictMono.monotone.map_max).symm

/-- A double finite sum of reals, read in the extended reals. -/
theorem coe_sum2 {α β : Type} [Fintype α] [Fintype β] (f : α → β → ℝ) :
    ∑ i, ∑ j, ((f i j : ℝ) : EReal) = ((∑ i, ∑ j, f i j : ℝ) : EReal) := by
  rw [coe_sum]; exact Finset.sum_congr rfl (fun i _ => (coe_sum _ _).symm)

/-! ### The similarity -/

/-- For real squared norms p, q, a real inner product r and a positive clamp e, the similarity
    2 / (e^√(max (p + q − 2 r) e) + 1) is a positive real. -/
theorem sim_core (p q r e : ℝ) (he : 0 < e) :
    ∃ s : ℝ, 0 < s ∧
      Ideal.div two (Ideal.exp (Ideal.sqrt (max (((p : EReal) + (q : EReal)) - two * (r : EReal)) (e : EReal)))
        + one) = (s : EReal) := by
  have hm : 0 ≤ max (p + q - 2 * r) e := le_trans he.le (le_max_right _ _)
  have hpos : 0 < Real.exp (Real.sqrt (max (p + q - 2 * r) e)) + 1 := by positivity
  refine ⟨2 * (1 / (Real.exp (Real.sqrt (max (p + q - 2 * r) e)) + 1)), by positivity, ?_⟩
  rw [two_eq, one_eq, ← EReal.coe_one, ← EReal.coe_add, ← EReal.coe_mul, ← EReal.coe_sub, coe_max,
    Ideal.sqrt_coe, if_neg (not_lt.mpr hm), Ideal.exp_coe, ← EReal.coe_add, Ideal.div_coe hpos.ne',
    ← EReal.coe_mul]

section
variable (x : Feat) (W : Lin) (g bt : Chan)

/-- A squared norm of real features is real. -/
theorem isReal_sq (hx : ∀ b v c, IsReal (x b v c)) (b : Fin 8) (v : Fin 2048) : IsReal (sq x b v) :=
  IsReal.sum _ _ (fun c _ => IsReal.mul (hx b v c) (hx b v c))

/-- An inner product of real features is real. -/
theorem isReal_gram (hx : ∀ b v c, IsReal (x b v c)) (b : Fin 8) (v u : Fin 2048) :
    IsReal (gram x b v u) :=
  IsReal.sum _ _ (fun c _ => IsReal.mul (hx b v c) (hx b u c))

/-- A linear image of real features under real weights is real. -/
theorem isReal_lin (hx : ∀ b v c, IsReal (x b v c)) (hW : ∀ o c, IsReal (W o c))
    (b : Fin 8) (v : Fin 2048) (o : Fin 256) : IsReal (lin x W b v o) :=
  IsReal.sum _ _ (fun c _ => IsReal.mul (hx b v c) (hW o c))

/-- The similarity of two nodes with real features is a positive real. -/
theorem simK_pos (hx : ∀ b v c, IsReal (x b v c)) (b : Fin 8) (v u : Fin 2048) :
    ∃ s : ℝ, 0 < s ∧ simK x b v u = (s : EReal) := by
  obtain ⟨p, hp⟩ := isReal_sq x hx b v
  obtain ⟨q, hq⟩ := isReal_sq x hx b u
  obtain ⟨r, hr⟩ := isReal_gram x hx b v u
  obtain ⟨e, he, hee⟩ := eps_pos
  have h := sim_core p q r e he
  rw [← hp, ← hq, ← hr, ← hee] at h
  exact h

/-- The two spellings of the similarity differ by the order of a sum and of a maximum. -/
theorem simR_eq (b : Fin 8) (v u : Fin 2048) : simR x b v u = simK x b v u := by
  unfold simR simK
  rw [add_comm (sq x b u) (sq x b v), max_comm]

/-- The clamped row sum of similarities is a positive real. -/
theorem rowK_pos (hx : ∀ b v c, IsReal (x b v c)) (b : Fin 8) (v : Fin 2048) :
    ∃ m : ℝ, 0 < m ∧ max (∑ u' : Fin 2048, simK x b v u') eps = (m : EReal) := by
  choose s _ hs using simK_pos x hx b v
  obtain ⟨e, he, hee⟩ := eps_pos
  have hsum : ∑ u' : Fin 2048, simK x b v u' = ((∑ u' : Fin 2048, s u' : ℝ) : EReal) := by
    rw [coe_sum]; exact Finset.sum_congr rfl (fun u' _ => hs u')
  exact ⟨max (∑ u' : Fin 2048, s u') e, lt_of_lt_of_le he (le_max_right _ _), by rw [hsum, hee, coe_max]⟩

/-- A normalised similarity is real. -/
theorem isReal_graphK (hx : ∀ b v c, IsReal (x b v c)) (b : Fin 8) (v u : Fin 2048) :
    IsReal (graphK x b v u) := by
  obtain ⟨m, hm, hme⟩ := rowK_pos x hx b v
  obtain ⟨s, _, hs⟩ := simK_pos x hx b v u
  unfold graphK
  rw [hme, Ideal.div_coe hm.ne', hs, ← EReal.coe_mul]
  exact isReal_coe _

/-- A positive similarity is its own absolute value, so the two normalised similarities agree. -/
theorem graphR_eq (hx : ∀ b v c, IsReal (x b v c)) (b : Fin 8) (v u : Fin 2048) :
    graphR x b v u = graphK x b v u := by
  have h : ∀ u' : Fin 2048, max (simR x b v u') (-(simR x b v u')) = simK x b v u' := by
    intro u'
    obtain ⟨s, hs0, hs⟩ := simK_pos x hx b v u'
    rw [simR_eq, hs, ← EReal.coe_neg, coe_max, max_eq_left (by linarith)]
  have hsum : ∑ u' : Fin 2048, max (simR x b v u') (-(simR x b v u')) = ∑ u' : Fin 2048, simK x b v u' :=
    Finset.sum_congr rfl (fun u' _ => h u')
  unfold graphR graphK
  rw [hsum, simR_eq, max_comm]

/-- The aggregated features agree. -/
theorem aggR_eq (hx : ∀ b v c, IsReal (x b v c)) : aggR x W = aggK x W := by
  funext b v c
  unfold aggR aggK
  exact Finset.sum_congr rfl (fun u _ => by rw [graphR_eq x hx])

/-- An aggregated feature is real. -/
theorem isReal_aggK (hx : ∀ b v c, IsReal (x b v c)) (hW : ∀ o c, IsReal (W o c))
    (b : Fin 8) (v : Fin 2048) (c : Fin 256) : IsReal (aggK x W b v c) :=
  IsReal.sum _ _ (fun u _ => IsReal.mul (isReal_graphK x hx b v u) (isReal_lin x W hx hW b u c))

end

/-! ### The normalisation statistics -/

/-- Over the reals, with N the number of entries, S their sum and μ = S / N:
    Σ (a − μ)² = Σ a² − 2 μ S + N μ², and S = μ N, so Σ (a − μ)² / N = Σ a² / N − μ². -/
theorem var_identity {α β : Type} [Fintype α] [Fintype β] (a : α → β → ℝ) (N : ℝ)
    (hN : (Fintype.card α : ℝ) * (Fintype.card β : ℝ) = N) (hN0 : N ≠ 0) (S μ : ℝ)
    (hS : ∑ i, ∑ j, a i j = S) (hμ : μ = S * (1 / N)) :
    (∑ i, ∑ j, (a i j - μ) * (a i j - μ)) * (1 / N)
      = (∑ i, ∑ j, a i j * a i j) * (1 / N) - μ * μ := by
  have h1 : ∑ i, ∑ j, (a i j - μ) * (a i j - μ)
      = (∑ i, ∑ j, a i j * a i j) - 2 * μ * S + N * (μ * μ) := by
    have e : ∀ i j, (a i j - μ) * (a i j - μ) = a i j * a i j - 2 * μ * a i j + μ * μ := by
      intros; ring
    simp only [e, Finset.sum_add_distrib, Finset.sum_sub_distrib, ← Finset.mul_sum, Finset.sum_const,
      Finset.card_univ, nsmul_eq_mul, hS]
    rw [← hN]; ring
  have hS' : S = μ * N := by rw [hμ]; field_simp
  rw [h1, hS']; field_simp; ring

/-- The two readings of the variance of a real array agree, and the common value is a real that is
    not negative. M is the mean, read as the sum divided by the real count N. -/
theorem bn_core {α β : Type} [Fintype α] [Fintype β] (a : α → β → ℝ) (N : ℝ)
    (hN : (Fintype.card α : ℝ) * (Fintype.card β : ℝ) = N) (hN0 : 0 < N) (M : EReal)
    (hM : M = Ideal.div (∑ i, ∑ j, (a i j : EReal)) (N : EReal)) :
    ∃ t : ℝ, 0 ≤ t ∧
      Ideal.div (∑ i, ∑ j, ((a i j : EReal) - M) * ((a i j : EReal) - M)) (N : EReal) = (t : EReal) ∧
      Ideal.div (∑ i, ∑ j, (a i j : EReal) * (a i j : EReal)) (N : EReal) - M * M = (t : EReal) := by
  obtain ⟨μ, hμ⟩ : ∃ μ : ℝ, μ = (∑ i, ∑ j, a i j) * (1 / N) := ⟨_, rfl⟩
  have hMr : M = ((μ : ℝ) : EReal) := by
    rw [hM, coe_sum2, Ideal.div_coe hN0.ne', ← EReal.coe_mul, hμ]
  have e1 : ∑ i, ∑ j, ((a i j : EReal) - M) * ((a i j : EReal) - M)
      = ((∑ i, ∑ j, (a i j - μ) * (a i j - μ) : ℝ) : EReal) := by
    rw [← coe_sum2, hMr]
    exact Finset.sum_congr rfl (fun i _ => Finset.sum_congr rfl (fun j _ => by
      rw [← EReal.coe_sub, ← EReal.coe_mul]))
  have e2 : ∑ i, ∑ j, (a i j : EReal) * (a i j : EReal) = ((∑ i, ∑ j, a i j * a i j : ℝ) : EReal) := by
    rw [← coe_sum2]
    exact Finset.sum_congr rfl (fun i _ => Finset.sum_congr rfl (fun j _ => by rw [← EReal.coe_mul]))
  refine ⟨(∑ i, ∑ j, (a i j - μ) * (a i j - μ)) * (1 / N), ?_, ?_, ?_⟩
  · exact mul_nonneg
      (Finset.sum_nonneg (fun i _ => Finset.sum_nonneg (fun j _ => mul_self_nonneg _))) (by positivity)
  · rw [e1, Ideal.div_coe hN0.ne', ← EReal.coe_mul]
  · rw [e2, Ideal.div_coe hN0.ne', hMr, ← EReal.coe_mul, ← EReal.coe_mul, ← EReal.coe_sub,
      EReal.coe_eq_coe_iff]
    exact (var_identity a N hN hN0.ne' _ μ rfl hμ).symm

section
variable (x : Feat) (W : Lin) (g bt : Chan)

/-- The means agree, being the same reading of equal aggregated features. -/
theorem meanR_eq (hx : ∀ b v c, IsReal (x b v c)) : meanR x W = meanK x W := by
  funext c
  unfold meanR meanK
  rw [aggR_eq x W hx]

/-- The two variances of a channel are one real that is not negative: 8 · 2048 = 16384 rows. -/
theorem var_facts (hx : ∀ b v c, IsReal (x b v c)) (hW : ∀ o c, IsReal (W o c)) (c : Fin 256) :
    ∃ t : ℝ, 0 ≤ t ∧ varR x W c = (t : EReal) ∧ varK x W c = (t : EReal) := by
  choose a ha using fun b v => isReal_aggK x W hx hW b v c
  have hcard : (Fintype.card (Fin 8) : ℝ) * (Fintype.card (Fin 2048) : ℝ) = 16384 := by
    rw [Fintype.card_fin, Fintype.card_fin]; norm_num
  have hM : meanK x W c = Ideal.div (∑ i, ∑ j, (a i j : EReal)) ((16384 : ℝ) : EReal) := by
    unfold meanK; rw [rows_eq]; simp only [ha]
  obtain ⟨t, ht, h1, h2⟩ := bn_core a 16384 hcard (by norm_num) (meanK x W c) hM
  refine ⟨t, ht, ?_, ?_⟩
  · unfold varR
    rw [aggR_eq x W hx, meanR_eq x W hx, rows_eq]
    simp only [ha]
    exact h1
  · unfold varK
    rw [rows_eq]
    simp only [ha]
    exact h2

/-- The normalised values agree: the root of the variance plus the positive literal is a positive real
    s, and a product with 1 / s is the quotient by s. -/
theorem normR_eq (hx : ∀ b v c, IsReal (x b v c)) (hW : ∀ o c, IsReal (W o c))
    (b : Fin 8) (v : Fin 2048) (c : Fin 256) : normR x W g bt b v c = normK x W g bt b v c := by
  obtain ⟨t, ht, hR, hK⟩ := var_facts x W hx hW c
  obtain ⟨e, he, hee⟩ := bnEps_pos
  have hs : 0 < Real.sqrt (t + e) := Real.sqrt_pos.mpr (by linarith)
  have hroot : Ideal.sqrt ((t : EReal) + bnEps) = ((Real.sqrt (t + e) : ℝ) : EReal) := by
    rw [hee, ← EReal.coe_add, Ideal.sqrt_coe, if_neg (not_lt.mpr (by linarith))]
  unfold normR normK invK
  rw [hR, hK, hroot, aggR_eq x W hx, meanR_eq x W hx, Ideal.div_coe hs.ne', Ideal.div_coe hs.ne',
    one_eq, one_mul]

end

/-- With every feature and every weight real, the kernel's arrangement and the reference's arrangement
    of the graph layer are the same function. -/
theorem outK_eq_outR (x : Feat) (W : Lin) (g bt : Chan)
    (hx : ∀ b v c, ∃ r : ℝ, x b v c = (r : EReal)) (hW : ∀ o c, ∃ r : ℝ, W o c = (r : EReal)) :
    outK x W g bt = outR x W g bt := by
  funext b v c
  unfold outK outR
  rw [normR_eq x W g bt hx hW]

end Cert.GraphSpec

end
-- ==== Proof.Finite.lean ====
/-
  The precondition, read back: every entry of the features and of the weights is a real number.

  The precondition is the conjunction of four tests, one per input, each the conjunction over all entries
  of |x| < +∞ where |x| is max x (−x) and +∞ is the word 0x7F800000.  A conjunction of one-bit words that
  is 1 has every member 1.  For an extended real x: if x is −∞ then −x is +∞ and the maximum is +∞; if x
  is +∞ the maximum is +∞; so |x| < +∞ leaves only the real numbers.
-/
import proofs.«111871_j84447646974566_1_alg».proof.Pre_finite_inputs
import Idealize.ShloMosaic.PureOps.Ideal
import Idealize.ShloMosaic.Lib.ReduceAll
import Idealize.ShloMosaic.Lib.ValueIdx

namespace Cert.GraphFinite

open Idealize.ShloMosaic

/-- The index set of a rank-0 array has one element. -/
instance : Subsingleton Cert.Pre_finite_inputs.S_.Idx := ⟨fun a b => funext fun d => d.elim0⟩

/-- The f32 word with sign 0, all-ones exponent and zero fraction is +∞. -/
theorem ofBits_inf : Ideal.ofBits .f32 0x7F800000#32 = ⊤ := by
  simp [Ideal.ofBits, Ideal.ieee]

/-- An extended real whose absolute value max x (−x) compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every feature and every weight is a real number. -/
theorem real_of_pre [Cert.Pre_finite_inputs.Facts]
    (a0 : FVec Ideal Cert.Pre_finite_inputs.S8x2048x256 .f32) (a1 : FVec Ideal Cert.Pre_finite_inputs.S256x256 .f32)
    (a2 a3 : FVec Ideal Cert.Pre_finite_inputs.S256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1] at h0
  obtain ⟨h012, -⟩ := IntOp.andi_eq_one.1 h0
  obtain ⟨h01, -⟩ := IntOp.andi_eq_one.1 h012
  obtain ⟨hA, hB⟩ := IntOp.andi_eq_one.1 h01
  refine ⟨fun i => ?_, fun i => ?_⟩
  · exact real_of_abs_lt_inf (a0 i) (Host.reduce_andi_all _ _ _ _ _ hA i)
  · exact real_of_abs_lt_inf (a1 i) (Host.reduce_andi_all _ _ _ _ _ hB i)

end Cert.GraphFinite
-- ==== Proof.lean ====
/-
  The certificate of the graph layer: a dense similarity graph over each batch's nodes (squared distances from
  squared norms and inner products, clamped, square-rooted, 2 / (exp d + 1), rows normalised by their sum), the
  aggregation of the nodes' linear images along it, a batch normalisation over all rows, a leaky rectifier and a
  residual blend.

  The kernel program computes it in three grid-driven regions (the aggregate, tile by tile, from three scratch
  buffers filled at each batch's first tile; the column sums of the aggregate and of its square, accumulated over
  eight blocks of rows; the pointwise normalisation and blend) with host arithmetic between them; the reference
  computes it with whole-array operations. Each of the three programs runs to its end, faults nowhere and leaves
  its arguments as launched. At the extended reals both programs end with the same array: index by index each is
  one of the two arrangements stated in Proof/Spec.lean, and under the precondition (every input finite) the two
  arrangements agree — the similarity is a positive real, so its absolute value is itself; the variance as a mean
  of squared deviations is the mean of squares less the squared mean; a product with a reciprocal of a positive
  real is the quotient.
-/
import proofs.«111871_j84447646974566_1_alg».proof.Defs
import proofs.«111871_j84447646974566_1_alg».proof.Proof.Gen.Kernel
import proofs.«111871_j84447646974566_1_alg».proof.Proof.Gen.KernelIdeal
import proofs.«111871_j84447646974566_1_alg».proof.Proof.Gen.ReferenceIdeal
import proofs.«111871_j84447646974566_1_alg».proof.Proof.Gen.Pre_finite_inputs
import proofs.«111871_j84447646974566_1_alg».proof.Proof.KRegions
import proofs.«111871_j84447646974566_1_alg».proof.Proof.Regions
import proofs.«111871_j84447646974566_1_alg».proof.Proof.KernelValue
import proofs.«111871_j84447646974566_1_alg».proof.Proof.RefRun
import proofs.«111871_j84447646974566_1_alg».proof.Proof.RefRead
import proofs.«111871_j84447646974566_1_alg».proof.Proof.Algebra
import proofs.«111871_j84447646974566_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_k : Cert.frame_Kernel := fun m ρ _ => Cert.Kernel.Hand.frame m ρ
/-- So does the kernel program read at the extended reals. -/
theorem frame_ki : Cert.frame_KernelIdeal := fun m ρ _ => Cert.KernelIdeal.Hand.frame m ρ
/-- So does the reference. -/
theorem frame_ri : Cert.frame_ReferenceIdeal := fun m ρ _ => Cert.ReferenceIdeal.RefValue.run_frame m ρ
/-- The idealization rewrote nothing. -/
theorem preserves : Cert.preserves_Kernel_KernelIdeal := trivial

/-- From memories agreeing on the arguments both programs end with the graph layer's array: the kernel's in the
    kernel arrangement, the reference's in the reference arrangement, and on finite inputs these are one array. -/
theorem algebraic : Cert.algebraic_KernelIdeal_ReferenceIdeal := by
  intro m ρ m' ρ' hpre hagree
  refine ⟨fun c => Cert.GraphSpec.unc3 (Cert.GraphSpec.outK (Cert.KernelIdeal.Hand.argX m c) (Cert.KernelIdeal.Hand.argW m c) (Cert.KernelIdeal.Hand.argG m c) (Cert.KernelIdeal.Hand.argB m c)), ?_, ?_⟩
  · refine (θ_run (Cert.KernelIdeal.defs (F := Ideal)) _ _).mono (fun r h c => ?_) (Cert.KernelIdeal.Hand.run_all m ρ)
    exact ⟨(h c _ (Cert.KernelIdeal.Hand.mem_uc Cert.KernelIdeal.main_v16 (by decide))).trans (Cert.KernelIdeal.Hand.kernel_value m ρ c),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c)⟩
  · refine (θ_run (Cert.ReferenceIdeal.defs (F := Ideal)) _ _).mono (fun r h c => ⟨(h c).1.trans ?_, (h c).2⟩)
      (Cert.ReferenceIdeal.RefValue.run m' ρ')
    obtain ⟨h0, h1, h2, h3⟩ := hagree c
    rw [h0, h1, h2, h3, Cert.ReferenceIdeal.RefValue.result_eq]
    obtain ⟨hx, hW⟩ := Cert.GraphFinite.real_of_pre _ _ _ _ (hpre c)
    exact congrArg Cert.GraphSpec.unc3 (Cert.GraphSpec.outK_eq_outR _ _ _ _ (fun b v ch => hx _) (fun o ch => hW _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
